-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x128 : Shape := ⟨2, ![512, 128]⟩
abbrev S1x128 : Shape := ⟨2, ![1, 128]⟩
abbrev S128x128 : Shape := ⟨2, ![128, 128]⟩
abbrev S128x40 : Shape := ⟨2, ![128, 40]⟩
abbrev S1x40 : Shape := ⟨2, ![1, 40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x128 : S_.BroadcastsInDim S512x128 (![] : Fin 0 → Fin S512x128.rank)
  reducesTo_S512x128_S_d0_1 : S512x128.ReducesTo [0, 1] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S1x40 : S_.BroadcastsInDim S1x40 (![] : Fin 0 → Fin S1x40.rank)
  reducesTo_S1x40_S_d0_1 : S1x40.ReducesTo [0, 1] S_

variable [Facts]

def fn_part2 {F : FTy → Type} [FloatOps F] (main_arg9 : FVec F S1x128 .f32) (main_arg10 : FVec F S128x40 .f32) (main_arg11 : FVec F S1x40 .f32) (main_v33 : IVec S_ 1) : IVec S_ 1 :=
  let main_v34 : FVec F S1x128 .f32 := Host.absf main_arg9
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S128x40 .f32 := Host.absf main_arg10
  let main_cst_14 : FVec F S_ .f32 := constant S_ .f32 0x7F800000#32
  let main_v40 : FVec F S128x40 .f32 := broadcastInDim S128x40 ![] bcast_S_S128x40 main_cst_14
  let main_v41 : IVec S128x40 1 := cmpf .olt main_v39 main_v40
  let main_c_15 : IVec S_ 1 := constantI S_ 1 1#1
  let main_v42 : IVec S_ 1 := (fun x v => Host.reduce IntOp.andi x v reducesTo_S128x40_S_d0_1 h_S_) main_v41 main_c_15
  let main_v43 : IVec S_ 1 := andi main_v38 main_v42
  let main_v44 : FVec F S1x40 .f32 := Host.absf main_arg11
  let main_cst_16 : FVec F S_ .f32 := constant S_ .f32 0x7F800000#32
  let main_v45 : FVec F S1x40 .f32 := broadcastInDim S1x40 ![] bcast_S_S1x40 main_cst_16
  let main_v46 : IVec S1x40 1 := cmpf .olt main_v44 main_v45
  let main_c_17 : IVec S_ 1 := constantI S_ 1 1#1
  let main_v47 : IVec S_ 1 := (fun x v => Host.reduce IntOp.andi x v reducesTo_S1x40_S_d0_1 h_S_) main_v46 main_c_17
  let main_v48 : IVec S_ 1 := andi main_v43 main_v47
  main_v48

def fn_part1 {F : FTy → Type} [FloatOps F] (main_arg6 : FVec F S128x128 .f32) (main_arg7 : FVec F S1x128 .f32) (main_arg8 : FVec F S128x128 .f32) (main_arg9 : FVec F S1x128 .f32) (main_arg10 : FVec F S128x40 .f32) (main_arg11 : FVec F S1x40 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S1x128 .f32 := Host.absf main_arg7
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x512 .f32) (main_arg1 : IVec S800000 32) (main_arg2 : IVec S800000 32) (main_arg3 : FVec F S800000 .f32) (main_arg4 : FVec F S512x128 .f32) (main_arg5 : FVec F S1x128 .f32) (main_arg6 : FVec F S128x128 .f32) (main_arg7 : FVec F S1x128 .f32) (main_arg8 : FVec F S128x128 .f32) (main_arg9 : FVec F S1x128 .f32) (main_arg10 : FVec F S128x40 .f32) (main_arg11 : FVec F S1x40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg6 main_arg7 main_arg8 main_arg9 main_arg10 main_arg11 main_v13 main_v16
-- ==== Kernel.lean ====
abbrev S50000x512 : Shape := ⟨2, ![50000, 512]⟩
abbrev S800000 : Shape := ⟨1, ![800000]⟩
abbrev S512x128 : Shape := ⟨2, ![512, 128]⟩
abbrev S1x128 : Shape := ⟨2, ![1, 128]⟩
abbrev S128x128 : Shape := ⟨2, ![128, 128]⟩
abbrev S128x40 : Shape := ⟨2, ![128, 40]⟩
abbrev S1x40 : Shape := ⟨2, ![1, 40]⟩
abbrev S50000x128 : Shape := ⟨2, ![50000, 128]⟩
abbrev S1000x512 : Shape := ⟨2, ![1000, 512]⟩
abbrev S1000x128 : Shape := ⟨2, ![1000, 128]⟩
abbrev S800000x1 : Shape := ⟨2, ![800000, 1]⟩
abbrev S_ : Shape := ⟨0, ![]⟩
abbrev S800000x128 : Shape := ⟨2, ![800000, 128]⟩
abbrev S1x1 : Shape := ⟨2, ![1, 1]⟩
abbrev S128 : Shape := ⟨1, ![128]⟩
abbrev S1000 : Shape := ⟨1, ![1000]⟩
abbrev S1000x1 : Shape := ⟨2, ![1000, 1]⟩
abbrev S1 : Shape := ⟨1, ![1]⟩
abbrev S50000x40 : Shape := ⟨2, ![50000, 40]⟩
abbrev S1000x40 : Shape := ⟨2, ![1000, 40]⟩
abbrev S800000x40 : Shape := ⟨2, ![800000, 40]⟩

abbrev nBuf : Space → Nat
  | .hbm => 145
  | .vmem => 60
  | .smem => 0
  | _ => 0

abbrev hbmTy0_0 (i : Nat) : BufTy := match i % 128 with
  | 0 => ⟨S50000x512, .f32⟩
  | 1 => ⟨S800000, .i32⟩
  | 2 => ⟨S800000, .i32⟩
  | 3 => ⟨S800000, .f32⟩
  | 4 => ⟨S512x128, .f32⟩
  | 5 => ⟨S1x128, .f32⟩
  | 6 => ⟨S128x128, .f32⟩
  | 7 => ⟨S1x128, .f32⟩
  | 8 => ⟨S128x128, .f32⟩
  | 9 => ⟨S1x128, .f32⟩
  | 10 => ⟨S128x40, .f32⟩
  | 11 => ⟨S1x40, .f32⟩
  | 12 => ⟨S50000x128, .f32⟩
  | 13 => ⟨S800000x1, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S1x128, .f32⟩
  | 30 => ⟨S1x1, .f32⟩
  | 31 => ⟨S_, .f32⟩
  | 32 => ⟨S1x128, .f32⟩
  | 33 => ⟨S1x128, .f32⟩
  | 34 => ⟨S1x128, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S1x1, .f32⟩
  | 49 => ⟨S50000x128, .f32⟩
  | 50 => ⟨S50000x128, .f32⟩
  | 51 => ⟨S800000x1, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S1x128, .f32⟩
  | 68 => ⟨S1x1, .f32⟩
  | 69 => ⟨S_, .f32⟩
  | 70 => ⟨S1x128, .f32⟩
  | 71 => ⟨S1x128, .f32⟩
  | 72 => ⟨S1x128, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S1x1, .f32⟩
  | 87 => ⟨S50000x128, .f32⟩
  | 88 => ⟨S50000x128, .f32⟩
  | 89 => ⟨S800000x1, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S800000x128, .f32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S1x128, .f32⟩
  | 106 => ⟨S1x1, .f32⟩
  | 107 => ⟨S_, .f32⟩
  | 108 => ⟨S1x128, .f32⟩
  | 109 => ⟨S1x128, .f32⟩
  | 110 => ⟨S1x128, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S1x1, .f32⟩
  | 125 => ⟨S50000x128, .f32⟩
  | 126 => ⟨S50000x40, .f32⟩
  | 127 => ⟨S800000x1, .f32⟩
  | _ => ⟨S50000x512, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x40, .f32⟩
  | 9 => ⟨S800000x40, .f32⟩
  | 10 => ⟨S800000x40, .f32⟩
  | 11 => ⟨S_, .f32⟩
  | 12 => ⟨S50000x40, .f32⟩
  | 13 => ⟨S800000x1, .i32⟩
  | 14 => ⟨S50000x40, .f32⟩
  | 15 => ⟨S50000x40, .f32⟩
  | 16 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S512x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1x128, .f32⟩
  | .local _ .vmem, ⟨8, _⟩ => ⟨S1x128, .f32⟩
  | .local _ .vmem, ⟨9, _⟩ => ⟨S1x1, .f32⟩
  | .local _ .vmem, ⟨10, _⟩ => ⟨S1000x128, .f32⟩
  | .local _ .vmem, ⟨11, _⟩ => ⟨S1000x128, .f32⟩
  | .local _ .vmem, ⟨12, _⟩ => ⟨S1x128, .f32⟩
  | .local _ .vmem, ⟨13, _⟩ => ⟨S1x128, .f32⟩
  | .local _ .vmem, ⟨14, _⟩ => ⟨S1x1, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S128x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1x128, .f32⟩
  | .local _ .vmem, ⟨25, _⟩ => ⟨S1x128, .f32⟩
  | .local _ .vmem, ⟨26, _⟩ => ⟨S1x1, .f32⟩
  | .local _ .vmem, ⟨27, _⟩ => ⟨S1000x128, .f32⟩
  | .local _ .vmem, ⟨28, _⟩ => ⟨S1000x128, .f32⟩
  | .local _ .vmem, ⟨29, _⟩ => ⟨S1x128, .f32⟩
  | .local _ .vmem, ⟨30, _⟩ => ⟨S1x128, .f32⟩
  | .local _ .vmem, ⟨31, _⟩ => ⟨S1x1, .f32⟩
  | .local _ .vmem, ⟨32, _⟩ => ⟨S1000x128, .f32⟩
  | .local _ .vmem, ⟨33, _⟩ => ⟨S1000x128, .f32⟩
  | .local _ .vmem, ⟨34, _⟩ => ⟨S1000x128, .f32⟩
  | .local _ .vmem, ⟨35, _⟩ => ⟨S1000x128, .f32⟩
  | .local _ .vmem, ⟨36, _⟩ => ⟨S1000x128, .f32⟩
  | .local _ .vmem, ⟨37, _⟩ => ⟨S1000x128, .f32⟩
  | .local _ .vmem, ⟨38, _⟩ => ⟨S128x128, .f32⟩
  | .local _ .vmem, ⟨39, _⟩ => ⟨S1000x128, .f32⟩
  | .local _ .vmem, ⟨40, _⟩ => ⟨S1000x128, .f32⟩
  | .local _ .vmem, ⟨41, _⟩ => ⟨S1000x128, .f32⟩
  | .local _ .vmem, ⟨42, _⟩ => ⟨S1000x128, .f32⟩
  | .local _ .vmem, ⟨43, _⟩ => ⟨S1x128, .f32⟩
  | .local _ .vmem, ⟨44, _⟩ => ⟨S1x128, .f32⟩
  | .local _ .vmem, ⟨45, _⟩ => ⟨S1x1, .f32⟩
  | .local _ .vmem, ⟨46, _⟩ => ⟨S1000x128, .f32⟩
  | .local _ .vmem, ⟨47, _⟩ => ⟨S1000x128, .f32⟩
  | .local _ .vmem, ⟨48, _⟩ => ⟨S1x128, .f32⟩
  | .local _ .vmem, ⟨49, _⟩ => ⟨S1x128, .f32⟩
  | .local _ .vmem, ⟨50, _⟩ => ⟨S1x1, .f32⟩
  | .local _ .vmem, ⟨51, _⟩ => ⟨S1000x128, .f32⟩
  | .local _ .vmem, ⟨52, _⟩ => ⟨S1000x128, .f32⟩
  | .local _ .vmem, ⟨53, _⟩ => ⟨S1000x128, .f32⟩
  | .local _ .vmem, ⟨54, _⟩ => ⟨S1000x128, .f32⟩
  | .local _ .vmem, ⟨55, _⟩ => ⟨S1000x128, .f32⟩
  | .local _ .vmem, ⟨56, _⟩ => ⟨S1000x128, .f32⟩
  | .local _ .vmem, ⟨57, _⟩ => ⟨S128x40, .f32⟩
  | .local _ .vmem, ⟨58, _⟩ => ⟨S1000x40, .f32⟩
  | .local _ .vmem, ⟨59, _⟩ => ⟨S1000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42_0 : Ref sig .tc := ⟨.hbm, 67, rfl⟩
abbrev main_v42_1 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_cst_13 : Ref sig .tc := ⟨.hbm, 79, rfl⟩
abbrev main_v50 : Ref sig .tc := ⟨.hbm, 80, rfl⟩
abbrev main_cst_14 : Ref sig .tc := ⟨.hbm, 81, rfl⟩
abbrev main_v51 : Ref sig .tc := ⟨.hbm, 82, rfl⟩
abbrev main_v52 : Ref sig .tc := ⟨.hbm, 83, rfl⟩
abbrev main_cst_15 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_16 : Ref sig .tc := ⟨.hbm, 90, rfl⟩
abbrev main_v58 : Ref sig .tc := ⟨.hbm, 91, rfl⟩
abbrev main_v59 : Ref sig .tc := ⟨.hbm, 92, rfl⟩
abbrev main_c_17 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_18 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70_0 : Ref sig .tc := ⟨.hbm, 105, rfl⟩
abbrev main_v70_1 : Ref sig .tc := ⟨.hbm, 106, rfl⟩
abbrev main_cst_19 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_20 : Ref sig .tc := ⟨.hbm, 111, rfl⟩
abbrev main_v74 : Ref sig .tc := ⟨.hbm, 112, rfl⟩
abbrev main_v75 : Ref sig .tc := ⟨.hbm, 113, rfl⟩
abbrev main_cst_21 : Ref sig .tc := ⟨.hbm, 114, rfl⟩
abbrev main_v76 : Ref sig .tc := ⟨.hbm, 115, rfl⟩
abbrev main_v77 : Ref sig .tc := ⟨.hbm, 116, rfl⟩
abbrev main_cst_22 : Ref sig .tc := ⟨.hbm, 117, rfl⟩
abbrev main_v78 : Ref sig .tc := ⟨.hbm, 118, rfl⟩
abbrev main_cst_23 : Ref sig .tc := ⟨.hbm, 119, rfl⟩
abbrev main_v79 : Ref sig .tc := ⟨.hbm, 120, rfl⟩
abbrev main_v80 : Ref sig .tc := ⟨.hbm, 121, rfl⟩
abbrev main_cst_24 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_25 : Ref sig .tc := ⟨.hbm, 128, rfl⟩
abbrev main_v86 : Ref sig .tc := ⟨.hbm, 129, rfl⟩
abbrev main_v87 : Ref sig .tc := ⟨.hbm, 130, rfl⟩
abbrev main_c_26 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_27 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg4_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg4_0 : Ref sig .tc := ⟨.vmem, 32, rfl⟩
abbrev cc5_stg4_1 : Ref sig .tc := ⟨.vmem, 33, rfl⟩
abbrev cc5_stg5_0 : Ref sig .tc := ⟨.vmem, 34, rfl⟩
abbrev cc5_stg5_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg3_0 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg2_0 : Ref sig .tc := ⟨.vmem, 49, rfl⟩
abbrev cc8_stg3_0 : Ref sig .tc := ⟨.vmem, 50, rfl⟩
abbrev cc8_stg4_0 : Ref sig .tc := ⟨.vmem, 51, rfl⟩
abbrev cc8_stg4_1 : Ref sig .tc := ⟨.vmem, 52, rfl⟩
abbrev cc8_stg5_0 : Ref sig .tc := ⟨.vmem, 53, rfl⟩
abbrev cc8_stg5_1 : Ref sig .tc := ⟨.vmem, 54, rfl⟩
abbrev cc9_stg0_0 : Ref sig .tc := ⟨.vmem, 55, rfl⟩
abbrev cc9_stg0_1 : Ref sig .tc := ⟨.vmem, 56, rfl⟩
abbrev cc9_stg1_0 : Ref sig .tc := ⟨.vmem, 57, rfl⟩
abbrev cc9_stg2_0 : Ref sig .tc := ⟨.vmem, 58, rfl⟩
abbrev cc9_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem4_1 : DmaSem sig := 33
abbrev cc5_sem5_0 : DmaSem sig := 34
abbrev cc5_sem5_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem3_0 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem3_0 : DmaSem sig := 50
abbrev cc8_sem4_0 : DmaSem sig := 51
abbrev cc8_sem4_1 : DmaSem sig := 52
abbrev cc8_sem5_0 : DmaSem sig := 53
abbrev cc8_sem5_1 : DmaSem sig := 54
abbrev cc9_sem0_0 : DmaSem sig := 55
abbrev cc9_sem0_1 : DmaSem sig := 56
abbrev cc9_sem1_0 : DmaSem sig := 57
abbrev cc9_sem2_0 : DmaSem sig := 58
abbrev cc9_sem2_1 : DmaSem sig := 59

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S1000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S1000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x40 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S1000x40 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1000x128_S1000x128_0_0 : ∀ a, (![0, 0] : Fin 2 → Nat) a + S1000x128.size a ≤ S1000x128.size a
  h_S1000x128 : 0 < S1000x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  inb_S1x1_S1x1_0_0 : ∀ a, (![0, 0] : Fin 2 → Nat) a + S1x1.size a ≤ S1x1.size a
  h_S1x1 : 0 < S1x1.numel
  shapeCasts_S1000x128_S1000x128 : S1000x128.ShapeCasts S1000x128
  broadcasts_S1x128_S1000x128 : S1x128.Broadcasts S1000x128
  shapeCasts_S1x128_S1x128 : S1x128.ShapeCasts S1x128
  reduces_S1000x128_S128 : S1000x128.Reduces [0] S128
  shapeCasts_S128_S1x128 : S128.ShapeCasts S1x128
  reduces_S1000x128_S1000 : S1000x128.Reduces [1] S1000
  shapeCasts_S1000_S1000x1 : S1000.ShapeCasts S1000x1
  shapeCasts_S1x1_S1x1 : S1x1.ShapeCasts S1x1
  reduces_S1000x1_S1 : S1000x1.Reduces [0] S1
  shapeCasts_S1_S1x1 : S1.ShapeCasts S1x1
  bcast_S_S1x128 : S_.BroadcastsInDim S1x128 (![] : Fin 0 → Fin S1x128.rank)
  reducesTo_S1x128_S_d0_1 : S1x128.ReducesTo [0, 1] S_
  h_S_ : 0 < S_.numel
  shapeCasts_S1x1_S_ : S1x1.ShapeCasts S_
  shapeCasts_S_S1x1 : S_.ShapeCasts S1x1
  broadcasts_S1x1_S1000x128 : S1x1.Broadcasts S1000x128
  inb_S128x128_S128x128_0_0 : ∀ a, (![0, 0] : Fin 2 → Nat) a + S128x128.size a ≤ S128x128.size a
  h_S128x128 : 0 < S128x128.numel
  inb_S128x40_S128x40_0_0 : ∀ a, (![0, 0] : Fin 2 → Nat) a + S128x40.size a ≤ S128x40.size a
  h_S128x40 : 0 < S128x40.numel
  inb_S1000x40_S1000x40_0_0 : ∀ a, (![0, 0] : Fin 2 → Nat) a + S1000x40.size a ≤ S1000x40.size a
  h_S1000x40 : 0 < S1000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S1x40_S50000x40_0_1 : S1x40.BroadcastsInDim S50000x40 (![0, 1] : Fin 2 → Fin S50000x40.rank)
  dot_S1000x512_S512x128_S1000x128_1_0_0_1_n_n_wf : DotDims.WF S1000x512 S512x128 S1000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x128_S1000x128_1_0_0_1_n_n_wf : DotDims.WF S1000x128 S128x128 S1000x128 [1] [0] [0] [1] [] []
  dot_S1000x128_S128x40_S1000x40_1_0_0_1_n_n_wf : DotDims.WF S1000x128 S128x40 S1000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x128.size a ≤ S50000x128.size a
  hwx2_4 : ∀ i : grid2.Coords, EltTy.bits .f32 = 32 ∨ (Rect.block (s := S50000x128) S1000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S50000x128.size a
  hwx3_2 : ∀ i : grid3.Coords, EltTy.bits .f32 = 32 ∨ (Rect.block (s := S50000x128) S1000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S50000x128.size a
  hwx5_0 : ∀ i : grid5.Coords, EltTy.bits .f32 = 32 ∨ (Rect.block (s := S50000x128) S1000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1000x128.size a ≤ S50000x128.size a
  hwx5_4 : ∀ i : grid5.Coords, EltTy.bits .f32 = 32 ∨ (Rect.block (s := S50000x128) S1000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x128.size a ≤ S50000x128.size a
  hwx5_5 : ∀ i : grid5.Coords, EltTy.bits .f32 = 32 ∨ (Rect.block (s := S50000x128) S1000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S50000x128.size a
  hwx6_0 : ∀ i : grid6.Coords, EltTy.bits .f32 = 32 ∨ (Rect.block (s := S50000x128) S1000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x128.size a ≤ S50000x128.size a
  hwx6_2 : ∀ i : grid6.Coords, EltTy.bits .f32 = 32 ∨ (Rect.block (s := S50000x128) S1000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x128.size a ≤ S50000x128.size a
  hwx7_0 : ∀ i : grid7.Coords, EltTy.bits .f32 = 32 ∨ (Rect.block (s := S50000x128) S1000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x128.size a ≤ S50000x128.size a
  hwx8_0 : ∀ i : grid8.Coords, EltTy.bits .f32 = 32 ∨ (Rect.block (s := S50000x128) S1000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x1.size a ≤ S1x1.size a
  hwx8_3 : ∀ i : grid8.Coords, EltTy.bits .f32 = 32 ∨ (Rect.block (s := S1x1) S1x1.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1000x128.size a ≤ S50000x128.size a
  hwx8_4 : ∀ i : grid8.Coords, EltTy.bits .f32 = 32 ∨ (Rect.block (s := S50000x128) S1000x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1000x128.size a ≤ S50000x128.size a
  hwx8_5 : ∀ i : grid8.Coords, EltTy.bits .f32 = 32 ∨ (Rect.block (s := S50000x128) S1000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1000x128.size a ≤ S50000x128.size a
  hwx9_0 : ∀ i : grid9.Coords, EltTy.bits .f32 = 32 ∨ (Rect.block (s := S50000x128) S1000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x40.size a ≤ S128x40.size a
  hwx9_1 : ∀ i : grid9.Coords, EltTy.bits .f32 = 32 ∨ (Rect.block (s := S128x40) S128x40.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1000x40.size a ≤ S50000x40.size a
  hwx9_2 : ∀ i : grid9.Coords, EltTy.bits .f32 = 32 ∨ (Rect.block (s := S50000x40) S1000x40.size (cc9_transform_2 i) (hinb9_2 i)).WholeWords (EltTy.packing .f32)

variable [Facts₀]

def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x40_S1000x40_1_0_0_1_n_n : DotDims S1000x128 S128x40 S1000x40 where
  lhsContracting := [1]
  rhsContracting := [0]
  lhsNonContracting := [0]
  rhsNonContracting := [1]
  lhsBatch := []
  rhsBatch := []
  wf := dot_S1000x128_S128x40_S1000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14_1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v27) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v28) S1000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v41) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v42_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v42_1) S1x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v41) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v44) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v54) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v27) S1000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v55) S1000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v55) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v56) S1000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v69) S1000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v70_0) S1x128.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v70_1) S1x1.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v69) S1000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg9) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v72) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v82) S1x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v55) S1000x128.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v83) S1000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v83) S1000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg10) S128x40.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v84) S1000x40.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S50000x512 : Shape := ⟨2, ![50000, 512]⟩
abbrev S800000 : Shape := ⟨1, ![800000]⟩
abbrev S512x128 : Shape := ⟨2, ![512, 128]⟩
abbrev S1x128 : Shape := ⟨2, ![1, 128]⟩
abbrev S128x128 : Shape := ⟨2, ![128, 128]⟩
abbrev S128x40 : Shape := ⟨2, ![128, 40]⟩
abbrev S1x40 : Shape := ⟨2, ![1, 40]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩
abbrev S128 : Shape := ⟨1, ![128]⟩
abbrev S50000 : Shape := ⟨1, ![50000]⟩
abbrev S50000x40 : Shape := ⟨2, ![50000, 40]⟩
abbrev S800000x40 : Shape := ⟨2, ![800000, 40]⟩

abbrev nBuf : Space → Nat
  | .hbm => 171
  | .vmem => 0
  | .smem => 0
  | _ => 0

abbrev hbmTy0_0 (i : Nat) : BufTy := match i % 128 with
  | 0 => ⟨S50000x512, .f32⟩
  | 1 => ⟨S800000, .i32⟩
  | 2 => ⟨S800000, .i32⟩
  | 3 => ⟨S800000, .f32⟩
  | 4 => ⟨S512x128, .f32⟩
  | 5 => ⟨S1x128, .f32⟩
  | 6 => ⟨S128x128, .f32⟩
  | 7 => ⟨S1x128, .f32⟩
  | 8 => ⟨S128x128, .f32⟩
  | 9 => ⟨S1x128, .f32⟩
  | 10 => ⟨S128x40, .f32⟩
  | 11 => ⟨S1x40, .f32⟩
  | 12 => ⟨S50000x128, .f32⟩
  | 13 => ⟨S800000x1, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000x128, .f32⟩
  | 30 => ⟨S50000x128, .f32⟩
  | 31 => ⟨S_, .f32⟩
  | 32 => ⟨S128, .f32⟩
  | 33 => ⟨S_, .f32⟩
  | 34 => ⟨S128, .f32⟩
  | 35 => ⟨S128, .f32⟩
  | 36 => ⟨S1x128, .f32⟩
  | 37 => ⟨S50000x128, .f32⟩
  | 38 => ⟨S50000x128, .f32⟩
  | 39 => ⟨S50000x128, .f32⟩
  | 40 => ⟨S_, .f32⟩
  | 41 => ⟨S50000, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S50000x128, .f32⟩
  | 51 => ⟨S50000x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S50000x128, .f32⟩
  | 61 => ⟨S800000x1, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S50000x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S50000x128, .f32⟩
  | 88 => ⟨S_, .f32⟩
  | 89 => ⟨S50000, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S50000x128, .f32⟩
  | 99 => ⟨S50000x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S50000x128, .f32⟩
  | 107 => ⟨S800000x1, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S800000x128, .f32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S50000x128, .f32⟩
  | 124 => ⟨S50000x128, .f32⟩
  | 125 => ⟨S_, .f32⟩
  | 126 => ⟨S128, .f32⟩
  | 127 => ⟨S_, .f32⟩
  | _ => ⟨S50000x512, .f32⟩

abbrev hbmTy0_1 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S50000x128, .f32⟩
  | 6 => ⟨S_, .f32⟩
  | 7 => ⟨S50000, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S50000x128, .f32⟩
  | 17 => ⟨S50000x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S50000x128, .f32⟩
  | 24 => ⟨S50000x40, .f32⟩
  | 25 => ⟨S800000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x40, .f32⟩
  | 35 => ⟨S800000x40, .f32⟩
  | 36 => ⟨S800000x40, .f32⟩
  | 37 => ⟨S_, .f32⟩
  | 38 => ⟨S50000x40, .f32⟩
  | 39 => ⟨S800000x1, .i32⟩
  | 40 => ⟨S50000x40, .f32⟩
  | 41 => ⟨S50000x40, .f32⟩
  | 42 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call0_cst : Ref sig .tc := ⟨.hbm, 54, rfl⟩
abbrev main_call0_v0 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_12 : Ref sig .tc := ⟨.hbm, 79, rfl⟩
abbrev main_v51 : Ref sig .tc := ⟨.hbm, 80, rfl⟩
abbrev main_cst_13 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_14 : Ref sig .tc := ⟨.hbm, 88, rfl⟩
abbrev main_v58 : Ref sig .tc := ⟨.hbm, 89, rfl⟩
abbrev main_cst_15 : Ref sig .tc := ⟨.hbm, 90, rfl⟩
abbrev main_v59 : Ref sig .tc := ⟨.hbm, 91, rfl⟩
abbrev main_cst_16 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_v62 : Ref sig .tc := ⟨.hbm, 96, rfl⟩
abbrev main_cst_18 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call1_cst : Ref sig .tc := ⟨.hbm, 102, rfl⟩
abbrev main_call1_v0 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_19 : Ref sig .tc := ⟨.hbm, 108, rfl⟩
abbrev main_v71 : Ref sig .tc := ⟨.hbm, 109, rfl⟩
abbrev main_v72 : Ref sig .tc := ⟨.hbm, 110, rfl⟩
abbrev main_c_20 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_21 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_22 : Ref sig .tc := ⟨.hbm, 125, rfl⟩
abbrev main_v85 : Ref sig .tc := ⟨.hbm, 126, rfl⟩
abbrev main_cst_23 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_24 : Ref sig .tc := ⟨.hbm, 134, rfl⟩
abbrev main_v92 : Ref sig .tc := ⟨.hbm, 135, rfl⟩
abbrev main_cst_25 : Ref sig .tc := ⟨.hbm, 136, rfl⟩
abbrev main_v93 : Ref sig .tc := ⟨.hbm, 137, rfl⟩
abbrev main_cst_26 : Ref sig .tc := ⟨.hbm, 138, rfl⟩
abbrev main_v94 : Ref sig .tc := ⟨.hbm, 139, rfl⟩
abbrev main_cst_27 : Ref sig .tc := ⟨.hbm, 140, rfl⟩
abbrev main_v95 : Ref sig .tc := ⟨.hbm, 141, rfl⟩
abbrev main_v96 : Ref sig .tc := ⟨.hbm, 142, rfl⟩
abbrev main_cst_28 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_call2_cst : Ref sig .tc := ⟨.hbm, 148, rfl⟩
abbrev main_call2_v0 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_c_29 : Ref sig .tc := ⟨.hbm, 154, rfl⟩
abbrev main_v105 : Ref sig .tc := ⟨.hbm, 155, rfl⟩
abbrev main_v106 : Ref sig .tc := ⟨.hbm, 156, rfl⟩
abbrev main_c_30 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_cst_31 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  reducesTo_S50000x128_S50000_d1 : S50000x128.ReducesTo [1] S50000
  reducesTo_S50000_S_d0 : S50000.ReducesTo [0] S_
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S1x40_S50000x40_0_1 : S1x40.BroadcastsInDim S50000x40 (![0, 1] : Fin 2 → Fin S50000x40.rank)
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.KernelRun.lean ====
/-
  The idealized kernel's run with its result named.

  Every weakly fair execution of the program ends, nothing faulting, with the result buffer holding what the last
  segment boundary's contents give it, and with the argument arrays as launched.  The boundary contents are the fold
  through the program's seventeen segments: a host stretch applies its operations, a pallas region leaves in each of its
  arrays what its grid points wrote back.
-/
import proofs.«132746_j34668976013395_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments unchanged. -/
theorem run : θ_run defs (onTc (τ := τ) (main (F := F))) ⟨m, fun _ => 0, ρ⟩ (fun r => ∀ c : Dev nD,
      r.2.mem ((c.tc : Thread nD τ).loc main_v99) = W17 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v99 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c)⟩)

end Cert.KernelIdeal.Named

end
-- ==== Proof.Net.lean ====
/-
  The two networks as functions of their argument arrays, entry by entry, on the extended reals.

  A layer takes the aggregated features A (n rows, d columns), a bias row b and the previous layer's output, and
  returns relu(PairNorm(A + b)) + previous.  PairNorm centres every column at its mean and divides by the root of
  eps plus the mean over the rows of the squared row norms of the centred array.

  The reference computes exactly that: it centres first and sums the squares of the centred entries (two passes).
  The kernel makes one pass over H = A + b, taking every column's sum and the sum of all squares, and uses
    sum over (i, j) of (H i j - mean j)^2  =  sum over (i, j) of (H i j)^2  -  n * sum over j of (mean j)^2 ;
  it multiplies by the reciprocal of the root where the reference divides by the root.
-/
import Idealize.ShloMosaic.PureOps.Ideal
import Idealize.ShloMosaic.PureOps.Ideal.Laws
import Idealize.ShloMosaic.Lib.ValueIdx

noncomputable section

namespace Cert.Net

open Idealize.ShloMosaic Idealize.ShloMosaic.ValueIdx
open scoped BigOperators

/-- An array of n rows and k columns of extended reals, indexed as the programs index it. -/
abbrev Mat (n k : ℕ) : Type := (⟨2, ![n, k]⟩ : Shape).Idx → EReal

/-- The number of rows as both programs spell it (the float 50000.0). -/
def cN : EReal := Ideal.ofBits .f32 0x47435000#32
/-- The eps under the root as both programs spell it (the float nearest 1e-6). -/
def cEps : EReal := Ideal.ofBits .f32 0x358637BD#32
/-- The float 1.0. -/
def cOne : EReal := Ideal.ofBits .f32 0x3F800000#32

variable {n k d : ℕ}

/-- The matrix product X W at (i, j): the sum over c of X i c * W c j. -/
def mm {m : ℕ} (X : Mat n k) (W : Mat k m) : Mat n m :=
  fun i => ∑ c : Fin k, X (ix2 (i 0) c) * W (ix2 c (i 1))

/-- A bias row added to every row. -/
def addRow (A : Mat n d) (b : Mat 1 d) : Mat n d := fun i => A i + b (ix2 0 (i 1))

/-! ## The reference's PairNorm: centre, then sum the squares -/

/-- Column j's mean: the column's sum from zero, over the number of rows. -/
def colMean (H : Mat n d) (j : Fin d) : EReal := Ideal.div (0 + ∑ p : Fin n, H (ix2 p j)) cN

/-- The array with every column centred at its mean. -/
def centred (H : Mat n d) : Mat n d := fun i => H i - colMean H (i 1)

/-- The mean over the rows of the squared row norms of the centred array. -/
def meanSq (H : Mat n d) : EReal :=
  Ideal.div (0 + ∑ p : Fin n, (0 + ∑ q : Fin d, centred H (ix2 p q) * centred H (ix2 p q))) cN

/-- The reference's normalised array: 1 * centred / root (eps + meanSq). -/
def pairNormR (H : Mat n d) : Mat n d :=
  fun i => Ideal.div (cOne * centred H i) (Ideal.sqrt (cEps + meanSq H))

/-- The reference's layer: relu of the normalised A + b, plus the previous layer's output. -/
def layerR (A : Mat n d) (b : Mat 1 d) (old : Mat n d) : Mat n d :=
  fun i => max (pairNormR (addRow A b) i) 0 + old i

/-! ## The kernel's PairNorm: one pass of sums, then a pointwise pass -/

/-- Column j's sum. -/
def colSum (H : Mat n d) (j : Fin d) : EReal := ∑ p : Fin n, H (ix2 p j)

/-- The sum of the squares of all entries, row by row. -/
def sumSq (H : Mat n d) : EReal := ∑ p : Fin n, ∑ q : Fin d, H (ix2 p q) * H (ix2 p q)

/-- Column j's mean as the kernel's host code takes it. -/
def colMeanK (H : Mat n d) (j : Fin d) : EReal := Ideal.div (colSum H j) cN

/-- The kernel's mean of squared row norms: (sumSq - n * sum of squared column means) / n. -/
def meanSqK (H : Mat n d) : EReal :=
  Ideal.div (sumSq H - cN * (0 + ∑ j : Fin d, colMeanK H j * colMeanK H j)) cN

/-- The reciprocal of the root, as the kernel's host code takes it. -/
def invNormK (H : Mat n d) : EReal := Ideal.div cOne (Ideal.sqrt (cEps + meanSqK H))

/-- The kernel's normalise-and-relu pass at an entry. -/
def pairNormK (H : Mat n d) : Mat n d := fun i => max ((H i - colMeanK H (i 1)) * invNormK H) 0

/-- The kernel's pointwise pass at given column means (a row cm) and a given reciprocal (a 1×1 array inv). -/
def pnPass (A : Mat n d) (b cm : Mat 1 d) (inv : Mat 1 1) : Mat n d :=
  fun i => max ((addRow A b i - cm (ix2 0 (i 1))) * inv (ix2 0 0)) 0

/-- The same pass with the previous layer's output added. -/
def pnPassRes (A : Mat n d) (b cm : Mat 1 d) (inv : Mat 1 1) (res : Mat n d) : Mat n d :=
  fun i => pnPass A b cm inv i + res i

/-- The kernel's first layer (no previous output to add). -/
def layerK0 (A : Mat n d) (b : Mat 1 d) : Mat n d := pairNormK (addRow A b)

/-- The kernel's later layers: the previous layer's output added. -/
def layerK (A : Mat n d) (b : Mat 1 d) (old : Mat n d) : Mat n d :=
  fun i => pairNormK (addRow A b) i + old i

end Cert.Net

end
-- ==== Proof.LibBatchVariance.lean ====
/-
  Batch statistics over the extended reals, for entries that are real numbers.

  A batch of N real numbers y has mean μ = (Σ y) / N.  Its biased variance can be taken in two passes,
  (Σ (y - μ)²) / N, or in one pass, (Σ y²) / N - μ², clamped at zero against rounding.  Over the reals the two
  agree exactly, because Σ (y - μ)² = Σ y² - 2 μ Σ y + N μ² and Σ y = N μ, and the clamp does nothing, because
  a mean of squares is not negative.  The lemmas below state this for extended reals that are coerced reals, in the
  form float programs compute it (sums from an initial zero, quotients by a nonzero real constant), and
  give the bookkeeping that goes with it: a finite sum of coerced reals is the coerced sum; a sum taken block by
  block and then over the blocks is the sum over everything.
-/
import Idealize.ShloMosaic.PureOps.Ideal
import Mathlib.Algebra.BigOperators.Fin
import Mathlib.Algebra.Order.BigOperators.Ring.Finset
import Mathlib.Tactic.FieldSimp
import Mathlib.Tactic.Ring
import Mathlib.Tactic.Linarith

noncomputable section

namespace Cert.LibBatchVariance

open Idealize.ShloMosaic
open scoped BigOperators

/-- A finite sum of coerced reals is the coerced real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- If every term of a finite sum of extended reals is a real number, so is the sum. -/
theorem exists_real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih fun i hi => h i (Finset.mem_insert_of_mem hi)
    obtain ⟨q, hq⟩ := h a (Finset.mem_insert_self a s)
    exact ⟨q + r, by rw [Finset.sum_insert ha, hr, hq, EReal.coe_add]⟩

/-- The quotient of a real by a nonzero real, as float division computes it on the extended reals. -/
theorem div_coe_coe (a : ℝ) {n : ℝ} (hn : n ≠ 0) : Ideal.div (a : EReal) (n : EReal) = ((a / n : ℝ) : EReal) := by
  rw [Ideal.div_coe hn, ← EReal.coe_mul, mul_one_div]

/-- The maximum of two coerced reals is the coerced maximum. -/
theorem max_coe_coe (a b : ℝ) : max (a : EReal) (b : EReal) = ((max a b : ℝ) : EReal) :=
  (EReal.coe_strictMono.monotone.map_max).symm

/-- Over the reals: the two-pass variance is the one-pass variance. -/
theorem two_pass_eq_one_pass {ι : Type*} [Fintype ι] (f : ι → ℝ) {n : ℝ} (hn : n ≠ 0) (hcard : (Fintype.card ι : ℝ) = n) :
    (∑ i, (f i - (∑ j, f j) / n) * (f i - (∑ j, f j) / n)) / n
      = (∑ i, f i * f i) / n - (∑ j, f j) / n * ((∑ j, f j) / n) := by
  have hs : ∑ j, f j = n * ((∑ j, f j) / n) := by field_simp
  generalize (∑ j, f j) / n = μ at hs ⊢
  have hexp : ∑ i, (f i - μ) * (f i - μ) = ∑ i, f i * f i - 2 * μ * ∑ i, f i + n * (μ * μ) := by
    rw [Finset.sum_congr rfl (fun i _ => (by ring : (f i - μ) * (f i - μ) = f i * f i - 2 * μ * f i + μ * μ)),
      Finset.sum_add_distrib, Finset.sum_sub_distrib, ← Finset.mul_sum, Finset.sum_const, Finset.card_univ,
      nsmul_eq_mul, hcard]
  rw [hexp, hs]
  field_simp
  ring

/-- Over the reals: the two-pass variance is not negative when the divisor is positive. -/
theorem two_pass_nonneg {ι : Type*} [Fintype ι] (f : ι → ℝ) (μ : ℝ) {n : ℝ} (hn : 0 < n) :
    0 ≤ (∑ i, (f i - μ) * (f i - μ)) / n :=
  div_nonneg (Finset.sum_nonneg fun i _ => mul_self_nonneg _) hn.le

/-- On the extended reals, for a batch of coerced reals: the mean from an initial zero. -/
theorem mean_coe {ι : Type*} [Fintype ι] (f : ι → ℝ) {n : ℝ} (hn : n ≠ 0) :
    Ideal.div (0 + ∑ i, ((f i : ℝ) : EReal)) (n : EReal) = (((∑ i, f i) / n : ℝ) : EReal) := by
  rw [zero_add, coe_sum, div_coe_coe _ hn]

/-- On the extended reals, for a batch of coerced reals: the clamped one-pass variance — the mean of the squares minus the
    square of the mean, floored at zero — is the two-pass variance, the mean of the squared deviations from the mean. -/
theorem one_pass_clamped_eq_two_pass {ι : Type*} [Fintype ι] (f : ι → ℝ) {n : ℝ} (hn : 0 < n) (hcard : (Fintype.card ι : ℝ) = n) :
    max (Ideal.div (0 + ∑ i, ((f i : ℝ) : EReal) * ((f i : ℝ) : EReal)) (n : EReal)
          - Ideal.div (0 + ∑ i, ((f i : ℝ) : EReal)) (n : EReal) * Ideal.div (0 + ∑ i, ((f i : ℝ) : EReal)) (n : EReal)) 0
      = Ideal.div (0 + ∑ i, (((f i : ℝ) : EReal) - Ideal.div (0 + ∑ j, ((f j : ℝ) : EReal)) (n : EReal))
                          * (((f i : ℝ) : EReal) - Ideal.div (0 + ∑ j, ((f j : ℝ) : EReal)) (n : EReal))) (n : EReal) := by
  have hn' : n ≠ 0 := hn.ne'
  rw [mean_coe f hn']
  simp only [← EReal.coe_mul, ← EReal.coe_sub]
  rw [mean_coe (fun i => f i * f i) hn', mean_coe (fun i => (f i - (∑ j, f j) / n) * (f i - (∑ j, f j) / n)) hn',
    ← EReal.coe_sub, ← EReal.coe_zero, max_coe_coe, ← two_pass_eq_one_pass f hn' hcard,
    max_eq_left (two_pass_nonneg f _ hn)]

/-- A sum taken block by block and then over the blocks is the sum over everything: `a` blocks of `b` entries each,
    entry `r` of block `p` being entry `p * b + r` of the whole, in any commutative monoid. -/
theorem sum_blocks {M : Type*} [AddCommMonoid M] (a b : ℕ) (g : Fin (a * b) → M) :
    ∑ p : Fin a, ∑ r : Fin b, g ⟨p.val * b + r.val, by
        have := p.isLt; have := r.isLt
        calc p.val * b + r.val < p.val * b + b := by omega
          _ = (p.val + 1) * b := by ring
          _ ≤ a * b := Nat.mul_le_mul_right b (by omega)⟩ = ∑ n : Fin (a * b), g n := by
  rw [← Fintype.sum_prod_type', ← (finProdFinEquiv (m := a) (n := b)).sum_comp]
  refine Finset.sum_congr rfl fun x _ => congrArg g (Fin.ext ?_)
  show x.1.val * b + x.2.val = x.2.val + b * x.1.val
  ring

end Cert.LibBatchVariance

end
-- ==== Proof.NetMath.lean ====
/-
  PairNorm on real data: the kernel's one pass and the reference's two passes are one function.

  Let H be an array of n rows and d columns whose entries are real numbers h p q, let N = n be the number of rows,
  mu q = (sum over p of h p q) / N the column means, and
      v = (sum over p, q of (h p q - mu q)^2) / N
  the mean over the rows of the squared row norms of the centred array.  Column by column
      sum over p of (h p q - mu q)^2 = sum over p of (h p q)^2 - N * (mu q)^2 ,
  because the sum over p of h p q is N * mu q; summing over q gives the kernel's
      v = (sum over p, q of (h p q)^2 - N * sum over q of (mu q)^2) / N .
  Since v >= 0 and eps > 0, the root s = sqrt (eps + v) is a positive real, so multiplying by 1 / s is dividing by s.
  Both normalised arrays are therefore the real array max ((h p q - mu q) / s) 0.  All of this needs the entries to
  be real: on the extended reals the expansion of the square fails at the infinities.
-/
import proofs.«132746_j34668976013395_1_alg».proof.Proof.Net
import proofs.«132746_j34668976013395_1_alg».proof.Proof.LibBatchVariance

noncomputable section

namespace Cert.NetMath

open Idealize.ShloMosaic Idealize.ShloMosaic.ValueIdx Cert.Net Cert.LibBatchVariance
open scoped BigOperators

variable {n d : ℕ}

/-- Over the reals: the sum of the squared deviations from the column means is the sum of the squares less N times the
    sum of the squared column means, when N is the number of rows. -/
theorem sq_dev_sum (h : Fin n → Fin d → ℝ) (N : ℝ) (hN : N ≠ 0) (hcard : (n : ℝ) = N) :
    ∑ p, ∑ q, (h p q - (∑ p', h p' q) / N) * (h p q - (∑ p', h p' q) / N)
      = (∑ p, ∑ q, h p q * h p q) - N * ∑ q, ((∑ p', h p' q) / N) * ((∑ p', h p' q) / N) := by
  rw [Finset.sum_comm, Finset.sum_comm (f := fun p q => h p q * h p q), Finset.mul_sum, ← Finset.sum_sub_distrib]
  refine Finset.sum_congr rfl fun q _ => ?_
  have hs : ∑ p, h p q = N * ((∑ p, h p q) / N) := by field_simp
  generalize (∑ p, h p q) / N = μ at hs ⊢
  have hexp : ∑ p, (h p q - μ) * (h p q - μ) = ∑ p, h p q * h p q - 2 * μ * ∑ p, h p q + N * (μ * μ) := by
    rw [Finset.sum_congr rfl (fun p _ => (by ring : (h p q - μ) * (h p q - μ) = h p q * h p q - 2 * μ * h p q + μ * μ)),
      Finset.sum_add_distrib, Finset.sum_sub_distrib, ← Finset.mul_sum, Finset.sum_const, Finset.card_univ,
      Fintype.card_fin, nsmul_eq_mul, hcard]
  rw [hexp, hs]
  ring

/-- On real data both normalise-and-relu passes are one real array. -/
theorem pairNorm_real (H : Mat n d) (h : Fin n → Fin d → ℝ) (hH : ∀ p q, H (ix2 p q) = ((h p q : ℝ) : EReal))
    (hn : cN = ((n : ℝ) : EReal)) (hn0 : 0 < n) (e : ℝ) (he : 0 < e) (hε : cEps = (e : EReal)) (h1 : cOne = 1) :
    ∃ g : Fin n → Fin d → ℝ,
      (∀ p q, pairNormK H (ix2 p q) = ((g p q : ℝ) : EReal))
      ∧ (∀ p q, max (pairNormR H (ix2 p q)) 0 = ((g p q : ℝ) : EReal)) := by
  have hN0 : ((n : ℝ)) ≠ 0 := by exact_mod_cast hn0.ne'
  have hNpos : (0 : ℝ) < (n : ℝ) := by exact_mod_cast hn0
  have hcm : ∀ q, colMean H q = (((∑ p, h p q) / (n : ℝ) : ℝ) : EReal) := by
    intro q
    unfold colMean
    rw [zero_add, hn]
    simp only [hH]
    rw [coe_sum, div_coe_coe _ hN0]
  have hcmK : ∀ q, colMeanK H q = (((∑ p, h p q) / (n : ℝ) : ℝ) : EReal) := by
    intro q
    unfold colMeanK colSum
    rw [hn]
    simp only [hH]
    rw [coe_sum, div_coe_coe _ hN0]
  have hcen : ∀ p q, centred H (ix2 p q) = ((h p q - (∑ p', h p' q) / (n : ℝ) : ℝ) : EReal) := by
    intro p q
    show H (ix2 p q) - colMean H q = _
    rw [hH, hcm, ← EReal.coe_sub]
  have hms : meanSq H
      = (((∑ p, ∑ q, (h p q - (∑ p', h p' q) / (n : ℝ)) * (h p q - (∑ p', h p' q) / (n : ℝ))) / (n : ℝ) : ℝ) : EReal) := by
    unfold meanSq
    simp only [hcen, zero_add, ← EReal.coe_mul, coe_sum]
    rw [hn, div_coe_coe _ hN0]
  have hmsK : meanSqK H
      = (((∑ p, ∑ q, (h p q - (∑ p', h p' q) / (n : ℝ)) * (h p q - (∑ p', h p' q) / (n : ℝ))) / (n : ℝ) : ℝ) : EReal) := by
    unfold meanSqK sumSq
    simp only [hH, hcmK, zero_add, ← EReal.coe_mul, coe_sum]
    rw [hn, ← EReal.coe_mul, ← EReal.coe_sub, div_coe_coe _ hN0, sq_dev_sum h (n : ℝ) hN0 rfl]
  have hv : 0 ≤ (∑ p, ∑ q, (h p q - (∑ p', h p' q) / (n : ℝ)) * (h p q - (∑ p', h p' q) / (n : ℝ))) / (n : ℝ) :=
    div_nonneg (Finset.sum_nonneg fun p _ => Finset.sum_nonneg fun q _ => mul_self_nonneg _) hNpos.le
  generalize (∑ p, ∑ q, (h p q - (∑ p', h p' q) / (n : ℝ)) * (h p q - (∑ p', h p' q) / (n : ℝ))) / (n : ℝ) = v
    at hms hmsK hv
  have hev : 0 < e + v := by linarith
  have hs0 : Real.sqrt (e + v) ≠ 0 := (Real.sqrt_pos.mpr hev).ne'
  have hroot : ∀ x : EReal, x = (v : EReal) → Ideal.sqrt (cEps + x) = ((Real.sqrt (e + v) : ℝ) : EReal) := by
    intro x hx
    rw [hx, hε, ← EReal.coe_add, Ideal.sqrt_coe, if_neg (not_lt.mpr hev.le)]
  refine ⟨fun p q => max ((h p q - (∑ p', h p' q) / (n : ℝ)) / Real.sqrt (e + v)) 0, fun p q => ?_, fun p q => ?_⟩
  · show max ((H (ix2 p q) - colMeanK H q) * invNormK H) 0 = _
    unfold invNormK
    rw [hroot _ hmsK, h1, ← EReal.coe_one, div_coe_coe _ hs0, hH, hcmK, ← EReal.coe_sub, ← EReal.coe_mul,
      ← EReal.coe_zero, max_coe_coe, mul_one_div]
  · unfold pairNormR
    rw [hroot _ hms, h1, one_mul, hcen, div_coe_coe _ hs0, ← EReal.coe_zero, max_coe_coe]

/-- On real data with a real previous output, the kernel's layer and the reference's layer are one real array. -/
theorem layer_real (A : Mat n d) (b : Mat 1 d) (old : Mat n d) (a : Fin n → Fin d → ℝ) (β : Fin d → ℝ) (o : Fin n → Fin d → ℝ)
    (hA : ∀ p q, A (ix2 p q) = ((a p q : ℝ) : EReal)) (hb : ∀ q, b (ix2 0 q) = ((β q : ℝ) : EReal))
    (ho : ∀ p q, old (ix2 p q) = ((o p q : ℝ) : EReal))
    (hn : cN = ((n : ℝ) : EReal)) (hn0 : 0 < n) (e : ℝ) (he : 0 < e) (hε : cEps = (e : EReal)) (h1 : cOne = 1) :
    ∃ g : Fin n → Fin d → ℝ,
      (∀ p q, layerK A b old (ix2 p q) = ((g p q : ℝ) : EReal))
      ∧ (∀ p q, layerR A b old (ix2 p q) = ((g p q : ℝ) : EReal)) := by
  have hH : ∀ p q, addRow A b (ix2 p q) = ((a p q + β q : ℝ) : EReal) := by
    intro p q
    show A (ix2 p q) + b (ix2 0 q) = _
    rw [hA, hb, ← EReal.coe_add]
  obtain ⟨g, hK, hR⟩ := pairNorm_real (addRow A b) _ hH hn hn0 e he hε h1
  refine ⟨fun p q => g p q + o p q, fun p q => ?_, fun p q => ?_⟩
  · show pairNormK (addRow A b) (ix2 p q) + old (ix2 p q) = _
    rw [hK, ho, ← EReal.coe_add]
  · show max (pairNormR (addRow A b) (ix2 p q)) 0 + old (ix2 p q) = _
    rw [hR, ho, ← EReal.coe_add]

/-- The first layer: the kernel adds nothing, the reference adds zero. -/
theorem layer0_real (A : Mat n d) (b : Mat 1 d) (a : Fin n → Fin d → ℝ) (β : Fin d → ℝ)
    (hA : ∀ p q, A (ix2 p q) = ((a p q : ℝ) : EReal)) (hb : ∀ q, b (ix2 0 q) = ((β q : ℝ) : EReal))
    (hn : cN = ((n : ℝ) : EReal)) (hn0 : 0 < n) (e : ℝ) (he : 0 < e) (hε : cEps = (e : EReal)) (h1 : cOne = 1) :
    ∃ g : Fin n → Fin d → ℝ,
      (∀ p q, layerK0 A b (ix2 p q) = ((g p q : ℝ) : EReal))
      ∧ (∀ p q, layerR A b (fun _ => 0) (ix2 p q) = ((g p q : ℝ) : EReal)) := by
  have hH : ∀ p q, addRow A b (ix2 p q) = ((a p q + β q : ℝ) : EReal) := by
    intro p q
    show A (ix2 p q) + b (ix2 0 q) = _
    rw [hA, hb, ← EReal.coe_add]
  obtain ⟨g, hK, hR⟩ := pairNorm_real (addRow A b) _ hH hn hn0 e he hε h1
  refine ⟨g, fun p q => hK p q, fun p q => ?_⟩
  show max (pairNormR (addRow A b) (ix2 p q)) 0 + 0 = _
  rw [hR, add_zero]

/-- A product of real matrices is real. -/
theorem mm_real {k m : ℕ} (X : Mat n k) (W : Mat k m) (x : Fin n → Fin k → ℝ) (w : Fin k → Fin m → ℝ)
    (hX : ∀ p c, X (ix2 p c) = ((x p c : ℝ) : EReal)) (hW : ∀ c q, W (ix2 c q) = ((w c q : ℝ) : EReal)) (p : Fin n) (q : Fin m) :
    mm X W (ix2 p q) = ((∑ c, x p c * w c q : ℝ) : EReal) := by
  show ∑ c : Fin k, X (ix2 p c) * W (ix2 c q) = _
  simp only [hX, hW, ← EReal.coe_mul, coe_sum]

end Cert.NetMath

end
-- ==== Proof.NetConsts.lean ====
/-
  The three float constants both programs spell, as the real numbers their bit patterns denote:
  the row count 50000.0 is the real 50000, the float 1.0 is 1, and the float nearest 1e-6 is a positive real.
-/
import proofs.«132746_j34668976013395_1_alg».proof.Proof.Net

noncomputable section

namespace Cert.NetConsts

open Idealize.ShloMosaic Cert.Net

/-- The row count as a float denotes the real 50000. -/
theorem cN_eq : cN = ((50000 : ℝ) : EReal) := by
  unfold cN
  simp [Ideal.ofBits, Ideal.ieee, -EReal.coe_mul]; norm_num

/-- The float 1.0 denotes 1. -/
theorem cOne_eq : cOne = 1 := by
  unfold cOne
  simp [Ideal.ofBits, Ideal.ieee, -EReal.coe_mul]; norm_num

/-- The eps under the root denotes a positive real. -/
theorem cEps_pos : ∃ e : ℝ, 0 < e ∧ cEps = (e : EReal) := by
  unfold cEps
  simp [Ideal.ofBits, Ideal.ieee, -EReal.coe_mul]

end Cert.NetConsts

end
-- ==== Proof.LibScatterRows.lean ====
/-
  A host scatter whose body is a float add, with one scalar scatter index per update row, read at an index at the
  ideal values.

  Rows (first section): the operand is an `[S, B]` matrix, the updates an `[N, B]` matrix, the indices an `[N, 1]` column; row `n`
  of the updates is added onto row `idx n` of the operand. When the index column holds the naturals `g n` (read as
  signed integers), the result at `(r, b)` is the operand there plus the sum over `n` of the updates `(n, b)` whose
  `g n` is `r`; an update whose `g n` is not below `S` is dropped.

  Entries (second section): the same with a vector operand `[S]` and a vector of updates `[N]`: entry `n` of the
  updates is added onto entry `idx n` of the operand.
-/
import Idealize.ShloMosaic.Lib.ValueIdx
import Idealize.ShloMosaic.PureOps.Ideal.Laws

namespace Cert.LibScatterRows

open Idealize.ShloMosaic Idealize.ShloMosaic.ValueIdx

/-- Two rank-2 indices built from coordinates are equal exactly when the coordinates are. -/
theorem ix2_eq_iff {n0 n1 : ℕ} (a a' : Fin n0) (b b' : Fin n1) : ix2 a b = ix2 a' b' ↔ a = a' ∧ b = b' :=
  ⟨fun h => ⟨congrFun h 0, congrFun h 1⟩, fun ⟨h0, h1⟩ => by rw [h0, h1]⟩

/-- Two rank-1 indices built from a coordinate are equal exactly when the coordinates are. -/
theorem ix1_eq_iff {n0 : ℕ} (a a' : Fin n0) : ix1 a = ix1 a' ↔ a = a' :=
  ⟨fun h => congrFun h 0, fun h => by rw [h]⟩

section Rows
variable {S N B w : ℕ}
  (wf : ScatterDims.WF ⟨2, ![S, B]⟩ ⟨2, ![N, 1]⟩ ⟨2, ![N, B]⟩ [1] [0] [0] 1)

/-- The row scatter's dimension numbers. -/
abbrev rowDims : ScatterDims ⟨2, ![S, B]⟩ ⟨2, ![N, 1]⟩ ⟨2, ![N, B]⟩ := ⟨[1], [0], [0], 1, wf⟩

/-- Update index `j` reads its scatter index at row `j 0` of the index column. -/
theorem siIdx_rows (j : (⟨2, ![N, B]⟩ : Shape).Idx) (c : Fin 1) :
    ScatterDims.siIdx (rowDims wf) j c = ix2 (n0 := N) (j 0) (0 : Fin 1) := by
  funext b
  match b with
  | ⟨0, _⟩ =>
    unfold ScatterDims.siIdx
    rw [dif_neg (show ¬((0 : ℕ) = 1) by decide)]
    apply Fin.ext
    rfl
  | ⟨1, _⟩ =>
    unfold ScatterDims.siIdx
    rw [dif_pos (show (1 : ℕ) = 1 from rfl)]
    apply Fin.ext
    exact Nat.lt_one_iff.mp c.isLt

variable (idx : IVec ⟨2, ![N, 1]⟩ w) (g : Fin N → ℕ) (hg : ∀ n, (idx (ix2 n 0)).toInt = (g n : ℤ))
include hg

theorem start_rows_zero (j : (⟨2, ![N, B]⟩ : Shape).Idx) : ScatterDims.start (rowDims wf) j idx (0 : Fin 2) = (g (j 0) : ℤ) := by
  unfold ScatterDims.start
  rw [dif_pos (show (0 : Fin 2) ∈ [(0 : Fin 2)] by decide), siIdx_rows]
  exact hg _

omit hg in
theorem start_rows_one (j : (⟨2, ![N, B]⟩ : Shape).Idx) : ScatterDims.start (rowDims wf) j idx (1 : Fin 2) = 0 := by
  unfold ScatterDims.start
  rw [dif_neg (show (1 : Fin 2) ∉ [(0 : Fin 2)] by decide)]

omit hg in
theorem window_rows_zero (j : (⟨2, ![N, B]⟩ : Shape).Idx) : ScatterDims.window (rowDims wf) j (0 : Fin 2) = 0 := by
  have hmem : (0 : Fin 2) ∉ (rowDims wf).sKept := (show (0 : Fin 2) ∉ [(1 : Fin 2)] by decide)
  unfold ScatterDims.window
  rw [dif_neg hmem]

omit hg in
theorem window_rows_one (j : (⟨2, ![N, B]⟩ : Shape).Idx) : ScatterDims.window (rowDims wf) j (1 : Fin 2) = (j 1).val := by
  have hmem : (1 : Fin 2) ∈ (rowDims wf).sKept := (show (1 : Fin 2) ∈ [(1 : Fin 2)] by decide)
  unfold ScatterDims.window
  rw [dif_pos hmem]
  rfl

/-- Where update index `j` of a row scatter lands: row `g (j 0)` of the operand, same column, when that row exists. -/
theorem resultIdx?_rows (j : (⟨2, ![N, B]⟩ : Shape).Idx) :
    ScatterDims.resultIdx? (rowDims wf) j idx = if h : g (j 0) < S then some (ix2 ⟨g (j 0), h⟩ (j 1)) else none := by
  have hs0 := start_rows_zero wf idx g hg j
  have hs1 := start_rows_one wf idx j
  have hw0 := window_rows_zero wf j
  have hw1 := window_rows_one wf j
  have hj : (j 1).val < B := (j 1).isLt
  unfold ScatterDims.resultIdx?
  by_cases h : g (j 0) < S
  · have hall : ∀ a : Fin 2, 0 ≤ ScatterDims.start (rowDims wf) j idx a + (ScatterDims.window (rowDims wf) j a : ℤ)
        ∧ ScatterDims.start (rowDims wf) j idx a + (ScatterDims.window (rowDims wf) j a : ℤ) < ((⟨2, ![S, B]⟩ : Shape).size a : ℤ) := by
      refine Fin.forall_fin_two.2 ⟨?_, ?_⟩
      · rw [hs0, hw0]; show 0 ≤ (g (j 0) : ℤ) + ((0 : ℕ) : ℤ) ∧ (g (j 0) : ℤ) + ((0 : ℕ) : ℤ) < (S : ℤ); omega
      · rw [hs1, hw1]; show 0 ≤ (0 : ℤ) + ((j 1).val : ℤ) ∧ (0 : ℤ) + ((j 1).val : ℤ) < (B : ℤ); omega
    rw [dif_pos hall, dif_pos h]
    refine congrArg some (funext fun a => Fin.ext ?_)
    match a with
    | ⟨0, _⟩ =>
      show (ScatterDims.start (rowDims wf) j idx (0 : Fin 2) + (ScatterDims.window (rowDims wf) j (0 : Fin 2) : ℤ)).toNat = g (j 0)
      rw [hs0, hw0]; omega
    | ⟨1, _⟩ =>
      show (ScatterDims.start (rowDims wf) j idx (1 : Fin 2) + (ScatterDims.window (rowDims wf) j (1 : Fin 2) : ℤ)).toNat = (j 1).val
      rw [hs1, hw1]; omega
  · rw [dif_neg h]
    refine dif_neg fun hall => h ?_
    have h0 := (hall (0 : Fin 2)).2
    rw [hs0, hw0] at h0
    have : ((g (j 0) : ℤ) + ((0 : ℕ) : ℤ)) < (S : ℤ) := h0
    omega

/-- THE ROW SCATTER READ AT `(r, b)`: the operand there plus the updates `(n, b)` of the rows `n` sent to `r`. -/
theorem scatterAdd_rows_apply {φ : FTy} (x : FVec Ideal ⟨2, ![S, B]⟩ φ) (upd : FVec Ideal ⟨2, ![N, B]⟩ φ)
    (r : Fin S) (b : Fin B) :
    Host.scatterAdd (rowDims wf) x idx upd (ix2 r b)
      = x (ix2 r b) + ∑ n : Fin N, if g n = r.val then upd (ix2 n b) else 0 := by
  show x (ix2 r b) + ∑ j ∈ Finset.univ.filter (fun j => ScatterDims.resultIdx? (rowDims wf) j idx = some (ix2 r b)), upd j = _
  congr 1
  rw [Finset.sum_filter, sum_idx2]
  refine Finset.sum_congr rfl fun n _ => ?_
  have hcond : ∀ b' : Fin B,
      (ScatterDims.resultIdx? (rowDims wf) (ix2 n b') idx = some (ix2 r b)) ↔ (g n = r.val ∧ b' = b) := by
    intro b'
    rw [resultIdx?_rows wf idx g hg]
    show (if h : g n < S then some (ix2 (⟨g n, h⟩ : Fin S) b') else none) = some (ix2 r b) ↔ _
    by_cases h : g n < S
    · rw [dif_pos h, Option.some_inj, ix2_eq_iff]
      constructor
      · rintro ⟨h0, h1⟩; exact ⟨congrArg Fin.val h0, h1⟩
      · rintro ⟨h0, h1⟩; exact ⟨Fin.ext h0, h1⟩
    · rw [dif_neg h]
      constructor
      · intro e; cases e
      · rintro ⟨h0, _⟩; exact absurd (h0 ▸ r.isLt) h
  rw [Finset.sum_congr rfl fun b' _ => if_congr (hcond b') rfl rfl]
  by_cases hgn : g n = r.val
  · rw [if_pos hgn]
    simp only [hgn, true_and, Finset.sum_ite_eq', Finset.mem_univ, if_true]
  · rw [if_neg hgn]
    exact Finset.sum_eq_zero fun b' _ => if_neg fun hc => hgn hc.1

end Rows

/-! ## Entries: a vector operand, one update entry per scatter index -/

/-- A rank-1 index set is its one coordinate range … -/
def idxEquiv1 {n : ℕ} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Entries
variable {S N w : ℕ}
  (wf : ScatterDims.WF ⟨1, ![S]⟩ ⟨2, ![N, 1]⟩ ⟨1, ![N]⟩ [] [0] [0] 1)

/-- The entry scatter's dimension numbers. -/
abbrev entryDims : ScatterDims ⟨1, ![S]⟩ ⟨2, ![N, 1]⟩ ⟨1, ![N]⟩ := ⟨[], [0], [0], 1, wf⟩

/-- Update index `j` reads its scatter index at row `j 0` of the index column. -/
theorem siIdx_entries (j : (⟨1, ![N]⟩ : Shape).Idx) (c : Fin 1) :
    ScatterDims.siIdx (entryDims wf) j c = ix2 (n0 := N) (j 0) (0 : Fin 1) := by
  funext b
  match b with
  | ⟨0, _⟩ =>
    unfold ScatterDims.siIdx
    rw [dif_neg (show ¬((0 : ℕ) = 1) by decide)]
    apply Fin.ext
    rfl
  | ⟨1, _⟩ =>
    unfold ScatterDims.siIdx
    rw [dif_pos (show (1 : ℕ) = 1 from rfl)]
    apply Fin.ext
    exact Nat.lt_one_iff.mp c.isLt

variable (idx : IVec ⟨2, ![N, 1]⟩ w) (g : Fin N → ℕ) (hg : ∀ n, (idx (ix2 n 0)).toInt = (g n : ℤ))
include hg

theorem start_entries (j : (⟨1, ![N]⟩ : Shape).Idx) : ScatterDims.start (entryDims wf) j idx (0 : Fin 1) = (g (j 0) : ℤ) := by
  unfold ScatterDims.start
  rw [dif_pos (show (0 : Fin 1) ∈ [(0 : Fin 1)] by decide), siIdx_entries]
  exact hg _

omit hg in
theorem window_entries (j : (⟨1, ![N]⟩ : Shape).Idx) : ScatterDims.window (entryDims wf) j (0 : Fin 1) = 0 := by
  have hmem : (0 : Fin 1) ∉ (entryDims wf).sKept := (show (0 : Fin 1) ∉ ([] : List (Fin 1)) by decide)
  unfold ScatterDims.window
  rw [dif_neg hmem]

/-- Where update index `j` of an entry scatter lands: entry `g (j 0)` of the operand, when there is one. -/
theorem resultIdx?_entries (j : (⟨1, ![N]⟩ : Shape).Idx) :
    ScatterDims.resultIdx? (entryDims wf) j idx = if h : g (j 0) < S then some (ix1 ⟨g (j 0), h⟩) else none := by
  have hs0 := start_entries wf idx g hg j
  have hw0 := window_entries wf j
  unfold ScatterDims.resultIdx?
  by_cases h : g (j 0) < S
  · have hall : ∀ a : Fin 1, 0 ≤ ScatterDims.start (entryDims wf) j idx a + (ScatterDims.window (entryDims wf) j a : ℤ)
        ∧ ScatterDims.start (entryDims wf) j idx a + (ScatterDims.window (entryDims wf) j a : ℤ) < ((⟨1, ![S]⟩ : Shape).size a : ℤ) := by
      intro a
      obtain rfl : a = 0 := Subsingleton.elim _ _
      rw [hs0, hw0]; show 0 ≤ (g (j 0) : ℤ) + ((0 : ℕ) : ℤ) ∧ (g (j 0) : ℤ) + ((0 : ℕ) : ℤ) < (S : ℤ); omega
    rw [dif_pos hall, dif_pos h]
    refine congrArg some (funext fun a => Fin.ext ?_)
    match a with
    | ⟨0, _⟩ =>
      show (ScatterDims.start (entryDims wf) j idx (0 : Fin 1) + (ScatterDims.window (entryDims wf) j (0 : Fin 1) : ℤ)).toNat = g (j 0)
      rw [hs0, hw0]; omega
  · rw [dif_neg h]
    refine dif_neg fun hall => h ?_
    have h0 := (hall (0 : Fin 1)).2
    rw [hs0, hw0] at h0
    have : ((g (j 0) : ℤ) + ((0 : ℕ) : ℤ)) < (S : ℤ) := h0
    omega

/-- THE ENTRY SCATTER READ AT `r`: the operand there plus the updates `n` sent to `r`. -/
theorem scatterAdd_entries_apply {φ : FTy} (x : FVec Ideal ⟨1, ![S]⟩ φ) (upd : FVec Ideal ⟨1, ![N]⟩ φ) (r : Fin S) :
    Host.scatterAdd (entryDims wf) x idx upd (ix1 r)
      = x (ix1 r) + ∑ n : Fin N, if g n = r.val then upd (ix1 n) else 0 := by
  show x (ix1 r) + ∑ j ∈ Finset.univ.filter (fun j => ScatterDims.resultIdx? (entryDims wf) j idx = some (ix1 r)), upd j = _
  congr 1
  rw [Finset.sum_filter, sum_idx1]
  refine Finset.sum_congr rfl fun n _ => if_congr ?_ rfl rfl
  rw [resultIdx?_entries wf idx g hg]
  show (if h : g n < S then some (ix1 (⟨g n, h⟩ : Fin S)) else none) = some (ix1 r) ↔ _
  by_cases h : g n < S
  · rw [dif_pos h, Option.some_inj, ix1_eq_iff]
    exact ⟨fun h0 => congrArg Fin.val h0, fun h0 => Fin.ext h0⟩
  · rw [dif_neg h]
    constructor
    · intro e; cases e
    · intro h0; exact absurd (h0 ▸ r.isLt) h

end Entries

end Cert.LibScatterRows
-- ==== Proof.LibScatterLands.lean ====
/-
  A host scatter-add of update rows onto the rows of a matrix, with SIGNED scatter indices of any value, read at an index at
  the ideal values.

  The operand is an [S, B] matrix, the updates an [N, B] matrix, the scatter indices an [N, 1] column of integers.  Update row n
  is added onto the operand's row whose number is the scatter index of n read as a signed integer, and is dropped when that is
  negative or not below S.  So the result at (r, b) is the operand there plus the sum over the update rows n whose signed index
  is r of the updates (n, b): no condition on the indices is needed, a dropped row simply matches no r.
-/
import proofs.«132746_j34668976013395_1_alg».proof.Proof.LibScatterRows

namespace Cert.LibScatterLands

open Idealize.ShloMosaic Idealize.ShloMosaic.ValueIdx Cert.LibScatterRows

section Rows
variable {S N B w : ℕ}
  (wf : ScatterDims.WF ⟨2, ![S, B]⟩ ⟨2, ![N, 1]⟩ ⟨2, ![N, B]⟩ [1] [0] [0] 1)

/-- The start of update index j on the row axis is its row's scatter index read signed. -/
theorem start_rows_toInt (idx : IVec ⟨2, ![N, 1]⟩ w) (j : (⟨2, ![N, B]⟩ : Shape).Idx) :
    ScatterDims.start (rowDims wf) j idx (0 : Fin 2) = (idx (ix2 (j 0) 0)).toInt := by
  unfold ScatterDims.start
  rw [dif_pos (show (0 : Fin 2) ∈ [(0 : Fin 2)] by decide), siIdx_rows]

/-- Update index j lands at (r, b) exactly when its row's signed scatter index is r and its column is b. -/
theorem lands_iff (idx : IVec ⟨2, ![N, 1]⟩ w) (j : (⟨2, ![N, B]⟩ : Shape).Idx) (r : Fin S) (b : Fin B) :
    ScatterDims.resultIdx? (rowDims wf) j idx = some (ix2 r b)
      ↔ (idx (ix2 (j 0) 0)).toInt = (r.val : ℤ) ∧ j 1 = b := by
  have hs0 := start_rows_toInt wf idx j
  have hs1 := start_rows_one wf idx j
  have hw0 := window_rows_zero wf j
  have hw1 := window_rows_one wf j
  have hj : (j 1).val < B := (j 1).isLt
  have hr : r.val < S := r.isLt
  unfold ScatterDims.resultIdx?
  by_cases hall : ∀ a : Fin 2, 0 ≤ ScatterDims.start (rowDims wf) j idx a + (ScatterDims.window (rowDims wf) j a : ℤ)
        ∧ ScatterDims.start (rowDims wf) j idx a + (ScatterDims.window (rowDims wf) j a : ℤ) < ((⟨2, ![S, B]⟩ : Shape).size a : ℤ)
  · rw [dif_pos hall, Option.some_inj]
    have h0 := (hall (0 : Fin 2)).1
    rw [hs0, hw0] at h0
    constructor
    · intro h
      have e0 : (ScatterDims.start (rowDims wf) j idx (0 : Fin 2) + (ScatterDims.window (rowDims wf) j (0 : Fin 2) : ℤ)).toNat = r.val :=
        congrArg Fin.val (congrFun h 0)
      have e1 : (ScatterDims.start (rowDims wf) j idx (1 : Fin 2) + (ScatterDims.window (rowDims wf) j (1 : Fin 2) : ℤ)).toNat = b.val :=
        congrArg Fin.val (congrFun h 1)
      rw [hs0, hw0] at e0
      rw [hs1, hw1] at e1
      refine ⟨by omega, Fin.ext (by omega)⟩
    · rintro ⟨hz, hb⟩
      funext a; apply Fin.ext
      match a with
      | ⟨0, _⟩ =>
        show (ScatterDims.start (rowDims wf) j idx (0 : Fin 2) + (ScatterDims.window (rowDims wf) j (0 : Fin 2) : ℤ)).toNat = r.val
        rw [hs0, hw0]; omega
      | ⟨1, _⟩ =>
        show (ScatterDims.start (rowDims wf) j idx (1 : Fin 2) + (ScatterDims.window (rowDims wf) j (1 : Fin 2) : ℤ)).toNat = b.val
        rw [hs1, hw1, ← hb]; omega
  · rw [dif_neg hall]
    constructor
    · intro h; cases h
    · rintro ⟨hz, hb⟩
      refine absurd (Fin.forall_fin_two.2 ⟨?_, ?_⟩) hall
      · rw [hs0, hw0]; show 0 ≤ (idx (ix2 (j 0) 0)).toInt + ((0 : ℕ) : ℤ) ∧ (idx (ix2 (j 0) 0)).toInt + ((0 : ℕ) : ℤ) < (S : ℤ); omega
      · rw [hs1, hw1]; show 0 ≤ (0 : ℤ) + ((j 1).val : ℤ) ∧ (0 : ℤ) + ((j 1).val : ℤ) < (B : ℤ); omega

/-- THE ROW SCATTER READ AT (r, b), for scatter indices of any sign: the operand there plus the updates (n, b) of the rows n
    whose signed scatter index is r. -/
theorem scatterAdd_lands_apply {φ : FTy} (x : FVec Ideal ⟨2, ![S, B]⟩ φ) (idx : IVec ⟨2, ![N, 1]⟩ w)
    (upd : FVec Ideal ⟨2, ![N, B]⟩ φ) (r : Fin S) (b : Fin B) :
    Host.scatterAdd (rowDims wf) x idx upd (ix2 r b)
      = x (ix2 r b) + ∑ n : Fin N, if (idx (ix2 n 0)).toInt = (r.val : ℤ) then upd (ix2 n b) else 0 := by
  show x (ix2 r b) + ∑ j ∈ Finset.univ.filter (fun j => ScatterDims.resultIdx? (rowDims wf) j idx = some (ix2 r b)), upd j = _
  congr 1
  rw [Finset.sum_filter, sum_idx2]
  refine Finset.sum_congr rfl fun n _ => ?_
  have hcond : ∀ b' : Fin B,
      (ScatterDims.resultIdx? (rowDims wf) (ix2 n b') idx = some (ix2 r b))
        ↔ ((idx (ix2 n 0)).toInt = (r.val : ℤ) ∧ b' = b) := fun b' => lands_iff wf idx (ix2 n b') r b
  rw [Finset.sum_congr rfl fun b' _ => if_congr (hcond b') rfl rfl]
  by_cases hgn : (idx (ix2 n 0)).toInt = (r.val : ℤ)
  · rw [if_pos hgn]
    simp only [hgn, true_and, Finset.sum_ite_eq', Finset.mem_univ, if_true]
  · rw [if_neg hgn]
    exact Finset.sum_eq_zero fun b' _ => if_neg fun hc => hgn hc.1

end Rows

end Cert.LibScatterLands
-- ==== Proof.LibGatherRows.lean ====
/-
  A gather of whole rows of a matrix, and a gather of single entries of a vector, each at one column of signed start indices,
  read at an index.

  The operand is an `[S, B]` matrix (or an `[S]` vector) and the start indices an `[N, 1]` column of integers of any width; row `n`
  of the result is the operand's row (entry) whose number is the start index of row `n` read as a SIGNED integer and CLAMPED into
  `[0, S - 1]` (a negative index selects row 0, one past the end selects the last row): what `x[idx]` lowers to for a rank-2 or rank-1
  `x` and a rank-1 `idx`. `clampRow` names the selected row; `clampRow_of_toInt` says an index that already is a row's number
  selects that row.
-/
import Idealize.ShloMosaic.Lib.ValueIdx
import Idealize.ShloMosaic.PureOps.Ideal.Laws

namespace Cert.LibGatherRows

open Idealize.ShloMosaic Idealize.ShloMosaic.ValueIdx

section Gathers
variable {α : Type} {S N B w : ℕ}

/-- The dimension numbers of a gather of whole rows of an `[S, B]` matrix at an `[N, 1]` column of start indices. -/
abbrev rowGather (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- The row a start index selects: its signed value clamped into `[0, S - 1]`. -/
def clampRow (hS : 0 < S) (v : BitVec w) : Fin S := ⟨min v.toInt.toNat (S - 1), by omega⟩

/-- THE ROW GATHER READ AT `(n, b)`: the operand at the clamped start index of row `n`, column `b`. -/
theorem gather_rows_apply (hS : 0 < S)
    (wf : GatherDims.WF ⟨2, ![S, B]⟩ ⟨2, ![N, 1]⟩ ⟨2, ![N, B]⟩ [1] [0] [] [0] [] 1 ![1, B])
    (x : (⟨2, ![S, B]⟩ : Shape).Idx → α) (idx : IVec ⟨2, ![N, 1]⟩ w) (j : (⟨2, ![N, B]⟩ : Shape).Idx) :
    Host.gather (rowGather wf) x idx j
      = x (ix2 (clampRow hS (idx (ix2 (n0 := N) (j 0) (0 : Fin 1)))) (j 1)) := by
  unfold Host.gather
  congr 1
  funext a
  refine Fin.ext ?_
  match a with
  | ⟨0, _⟩ =>
    show (rowGather wf).start j idx 0 + (rowGather wf).batchCoord j 0 + (rowGather wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather wf).startIndexMap from List.mem_singleton.mpr rfl)]
    have hsi : (rowGather wf).siIdx j ⟨List.idxOf (0 : Fin 2) (rowGather wf).startIndexMap,
        List.idxOf_lt_length_iff.2 (List.mem_singleton.mpr rfl)⟩ = ix2 (n0 := N) (j 0) (0 : Fin 1) := by
      funext b; refine Fin.ext ?_
      match b with
      | ⟨0, _⟩ => rfl
      | ⟨1, _⟩ => rfl
    rw [hsi]
    rfl
  | ⟨1, _⟩ =>
    show (rowGather wf).start j idx 1 + (rowGather wf).batchCoord j 1 + (rowGather wf).offCoord j 1 = (j 1).val
    have hs : (rowGather wf).start j idx 1 = 0 := by
      unfold GatherDims.start
      rw [dif_neg (show (1 : Fin 2) ∉ [(0 : Fin 2)] by decide)]
    have ho : (rowGather wf).offCoord j 1 = (j 1).val := by
      have hmem : (1 : Fin 2) ∈ (rowGather wf).sKept := (show (1 : Fin 2) ∈ [(1 : Fin 2)] by decide)
      unfold GatherDims.offCoord
      rw [dif_pos hmem]
      rfl
    rw [hs, ho, GatherDims.batchCoord_eq_zero _ _ _ List.not_mem_nil]
    omega

/-- The dimension numbers of a gather of single entries of an `[S]` vector at an `[N, 1]` column of start indices. -/
abbrev entryGather (wf : GatherDims.WF ⟨1, ![S]⟩ ⟨2, ![N, 1]⟩ ⟨1, ![N]⟩ [] [0] [] [0] [] 1 ![1]) :
    GatherDims ⟨1, ![S]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- THE ENTRY GATHER READ AT `n`: the operand at the clamped start index of row `n`. -/
theorem gather_entries_apply (hS : 0 < S)
    (wf : GatherDims.WF ⟨1, ![S]⟩ ⟨2, ![N, 1]⟩ ⟨1, ![N]⟩ [] [0] [] [0] [] 1 ![1])
    (x : (⟨1, ![S]⟩ : Shape).Idx → α) (idx : IVec ⟨2, ![N, 1]⟩ w) (j : (⟨1, ![N]⟩ : Shape).Idx) :
    Host.gather (entryGather wf) x idx j = x (ix1 (clampRow hS (idx (ix2 (n0 := N) (j 0) (0 : Fin 1))))) := by
  unfold Host.gather
  congr 1
  funext a
  obtain rfl : a = 0 := Subsingleton.elim _ _
  refine Fin.ext ?_
  show (entryGather wf).start j idx 0 + (entryGather wf).batchCoord j 0 + (entryGather wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather wf).startIndexMap from List.mem_singleton.mpr rfl)]
  have hsi : (entryGather wf).siIdx j ⟨List.idxOf (0 : Fin 1) (entryGather wf).startIndexMap,
      List.idxOf_lt_length_iff.2 (List.mem_singleton.mpr rfl)⟩ = ix2 (n0 := N) (j 0) (0 : Fin 1) := by
    funext b; refine Fin.ext ?_
    match b with
    | ⟨0, _⟩ => rfl
    | ⟨1, _⟩ => rfl
  rw [hsi]
  rfl

/-- A start index that already is the number of a row selects that row. -/
theorem clampRow_of_toInt (hS : 0 < S) (v : BitVec w) (r : Fin S) (h : v.toInt = (r.val : ℤ)) : clampRow hS v = r := by
  apply Fin.ext
  show min v.toInt.toNat (S - 1) = r.val
  have := r.isLt
  rw [h]
  omega

end Gathers

end Cert.LibGatherRows
-- ==== Proof.LibSpreadCol.lean ====
/-
  The host's two broadcasts that keep a per-row quantity as a column and spread it back, read at an index.

  * A vector [n] placed as a column [n, 1] (broadcast_in_dim with dims = [0]) reads, at (a, 0), the vector at a.
  * A column [n, 1] spread along the rows of an [n, d] array (broadcast_in_dim with dims = [0, 1]) reads, at (a, q),
    the column at row a.
  Together: a row-wise quantity (a row sum, a row maximum, an inverse degree) kept as a column and spread over the
  array is read at (a, q) as the quantity of row a.
-/
import Idealize.ShloMosaic.Lib.Pipeline.Value
import Idealize.ShloMosaic.Lib.ValueIdx

namespace Cert.LibSpreadCol

open Idealize.ShloMosaic Idealize.ShloMosaic.ValueIdx

variable {α : Type}

/-- An n×1 column spread along the rows of an n×d array reads, at (a, q), the column at row a. -/
theorem spreadCol_apply {n d : ℕ} (h : (⟨2, ![n, 1]⟩ : Shape).BroadcastsInDim ⟨2, ![n, d]⟩ (![0, 1] : Fin 2 → Fin 2))
    (s : (⟨2, ![n, 1]⟩ : Shape).Idx → α) (a : Fin n) (q : Fin d) :
    broadcastInDim ⟨2, ![n, d]⟩ (![0, 1] : Fin 2 → Fin 2) h s (ix2 a q) = s (ix2 a (0 : Fin 1)) := by
  refine broadcastInDim_apply _ h s (ix2 a q) (ix2 a (0 : Fin 1)) fun ax => ?_
  match ax with
  | ⟨0, _⟩ =>
    show a.val = if n = 1 then 0 else a.val
    split
    · have := a.isLt; omega
    · rfl
  | ⟨1, _⟩ => rfl

/-- A vector kept as a column reads, at (a, 0), the vector at a. -/
theorem keepCol_apply {n : ℕ} (h : (⟨1, ![n]⟩ : Shape).BroadcastsInDim ⟨2, ![n, 1]⟩ (![0] : Fin 1 → Fin 2))
    (v : (⟨1, ![n]⟩ : Shape).Idx → α) (a : Fin n) :
    broadcastInDim ⟨2, ![n, 1]⟩ (![0] : Fin 1 → Fin 2) h v (ix2 a (0 : Fin 1)) = v (ix1 a) := by
  refine broadcastInDim_apply _ h v (ix2 a (0 : Fin 1)) (ix1 a) fun ax => ?_
  match ax with
  | ⟨0, _⟩ =>
    show a.val = if n = 1 then 0 else a.val
    split
    · have := a.isLt; omega
    · rfl

end Cert.LibSpreadCol
-- ==== Proof.LibBcast.lean ====
/-
  Broadcasts of small operands read at an index.

  * A scalar (rank 0) spread over any shape reads the scalar everywhere.
  * A per-channel vector `[c]` seen as `[1, 1, c]` and spread to `[a, b, c]` reads, at `(i, j, k)`, the vector at `k`.
  * A vector `[a]` seen as a column `[a, 1]` and spread to `[a, b]` reads, at `(i, j)`, the vector at `i`;
    a vector `[b]` seen as a row `[1, b]` and spread to `[a, b]` reads the vector at `j`.
-/
import Idealize.ShloMosaic.Lib.Pipeline.Value
import Idealize.ShloMosaic.Lib.ValueIdx

namespace Cert.LibBcast

open Idealize.ShloMosaic Idealize.ShloMosaic.ValueIdx

variable {α : Type}

/-- A rank-0 operand spread over a shape reads its one element at every index. -/
theorem scalar_apply {s : Shape} (dims : Fin 0 → Fin s.rank) (h : (⟨0, ![]⟩ : Shape).BroadcastsInDim s dims)
    (v : (⟨0, ![]⟩ : Shape).Idx → α) (i : s.Idx) : broadcastInDim s dims h v i = v ix0 :=
  broadcastInDim_apply dims h v i ix0 fun a => a.elim0

/-- A vector `[c]` placed on the last axis of `[1, 1, c]`, then spread to `[a, b, c]`: entry `(i, j, k)` is entry `k`. -/
theorem channel_apply {a b c : ℕ} (v : (⟨1, ![c]⟩ : Shape).Idx → α)
    (h1 : (⟨1, ![c]⟩ : Shape).BroadcastsInDim ⟨3, ![1, 1, c]⟩ (![2] : Fin 1 → Fin 3))
    (h2 : (⟨3, ![1, 1, c]⟩ : Shape).BroadcastsInDim ⟨3, ![a, b, c]⟩ (![0, 1, 2] : Fin 3 → Fin 3))
    (i : Fin a) (j : Fin b) (k : Fin c) :
    broadcastInDim ⟨3, ![a, b, c]⟩ (![0, 1, 2] : Fin 3 → Fin 3) h2 (broadcastInDim ⟨3, ![1, 1, c]⟩ (![2] : Fin 1 → Fin 3) h1 v) (ix3 i j k)
      = v (ix1 k) := by
  refine (broadcastInDim_apply _ h2 _ (ix3 i j k) (ix3 (0 : Fin 1) (0 : Fin 1) k) fun ax => ?_).trans
    (broadcastInDim_apply _ h1 v _ (ix1 k) fun ax => ?_)
  · match ax with
    | ⟨0, _⟩ => rfl
    | ⟨1, _⟩ => rfl
    | ⟨2, _⟩ =>
      show k.val = if c = 1 then 0 else k.val
      split
      · have := k.isLt; omega
      · rfl
  · match ax with
    | ⟨0, _⟩ =>
      show k.val = if c = 1 then 0 else k.val
      split
      · have := k.isLt; omega
      · rfl

/-- A vector `[a]` placed on axis 0 of `[a, 1]`, then spread to `[a, b]`: entry `(i, j)` is entry `i`. -/
theorem column_apply {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (i : Fin a) (j : Fin b) :
    broadcastInDim ⟨2, ![a, b]⟩ (![0, 1] : Fin 2 → Fin 2) h2 (broadcastInDim ⟨2, ![a, 1]⟩ (![0] : Fin 1 → Fin 2) h1 v) (ix2 i j)
      = v (ix1 i) := by
  refine (broadcastInDim_apply _ h2 _ (ix2 i j) (ix2 i (0 : Fin 1)) fun ax => ?_).trans
    (broadcastInDim_apply _ h1 v _ (ix1 i) fun ax => ?_)
  · match ax with
    | ⟨0, _⟩ =>
      show i.val = if a = 1 then 0 else i.val
      split
      · have := i.isLt; omega
      · rfl
    | ⟨1, _⟩ => rfl
  · match ax with
    | ⟨0, _⟩ =>
      show i.val = if a = 1 then 0 else i.val
      split
      · have := i.isLt; omega
      · rfl

/-- A vector `[b]` placed on axis 1 of `[1, b]`, then spread to `[a, b]`: entry `(i, j)` is entry `j`. -/
theorem row_apply {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (i : Fin a) (j : Fin b) :
    broadcastInDim ⟨2, ![a, b]⟩ (![0, 1] : Fin 2 → Fin 2) h2 (broadcastInDim ⟨2, ![1, b]⟩ (![1] : Fin 1 → Fin 2) h1 v) (ix2 i j)
      = v (ix1 j) := by
  refine (broadcastInDim_apply _ h2 _ (ix2 i j) (ix2 (0 : Fin 1) j) fun ax => ?_).trans
    (broadcastInDim_apply _ h1 v _ (ix1 j) fun ax => ?_)
  · match ax with
    | ⟨0, _⟩ => rfl
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

end Cert.LibBcast
-- ==== Proof.LibHop.lean ====
/-
  One hop of a graph propagation, read at an entry.

  The nodes' features are an [N, B] matrix h, the edges are two [E, 1] columns of integers (source and destination) and a
  vector of E weights.  A hop gathers, for every edge n, the row of h at the edge's source node (its signed index clamped into
  the node range), multiplies the row by the edge's weight, and adds it onto the row of an all-zero [N, B] matrix at the edge's
  destination node; an edge whose destination is not a node's number is dropped.  So the hop at (r, b) is the sum, over the
  edges n whose destination is r, of h (source n, b) times weight n.  The width B plays no part in which edges are summed:
  that is what makes a hop commute with a product by a matrix on the right.

  On real features and real weights the hop is the coerced real sum (rHop).
-/
import proofs.«132746_j34668976013395_1_alg».proof.Proof.LibScatterLands
import proofs.«132746_j34668976013395_1_alg».proof.Proof.LibGatherRows
import proofs.«132746_j34668976013395_1_alg».proof.Proof.LibSpreadCol
import proofs.«132746_j34668976013395_1_alg».proof.Proof.LibBcast
import proofs.«132746_j34668976013395_1_alg».proof.Proof.LibBatchVariance

noncomputable section

namespace Cert.Hop

open Idealize.ShloMosaic Idealize.ShloMosaic.ValueIdx Cert.LibScatterRows Cert.LibGatherRows

variable {N E B : ℕ}

/-- One hop: gather the source rows, scale by the edges' weights, scatter-add onto zeros at the destination rows. -/
def hop (wfS : ScatterDims.WF ⟨2, ![N, B]⟩ ⟨2, ![E, 1]⟩ ⟨2, ![E, B]⟩ [1] [0] [0] 1)
    (wfG : GatherDims.WF ⟨2, ![N, B]⟩ ⟨2, ![E, 1]⟩ ⟨2, ![E, B]⟩ [1] [0] [] [0] [] 1 ![1, B])
    (h0 : (⟨0, ![]⟩ : Shape).BroadcastsInDim ⟨2, ![N, B]⟩ (![] : Fin 0 → Fin 2))
    (h1 : (⟨1, ![E]⟩ : Shape).BroadcastsInDim ⟨2, ![E, 1]⟩ (![0] : Fin 1 → Fin 2))
    (h2 : (⟨2, ![E, 1]⟩ : Shape).BroadcastsInDim ⟨2, ![E, B]⟩ (![0, 1] : Fin 2 → Fin 2))
    (src dst : IVec ⟨2, ![E, 1]⟩ 32) (nrm : FVec Ideal ⟨1, ![E]⟩ .f32) (h : FVec Ideal ⟨2, ![N, B]⟩ .f32) :
    FVec Ideal ⟨2, ![N, B]⟩ .f32 :=
  Host.scatterAdd (rowDims wfS)
    (broadcastInDim ⟨2, ![N, B]⟩ (![] : Fin 0 → Fin 2) h0 (constant (F := Ideal) ⟨0, ![]⟩ .f32 0x00000000#32)) dst
    (mulf (Host.gather (rowGather wfG) h src)
      (broadcastInDim ⟨2, ![E, B]⟩ (![0, 1] : Fin 2 → Fin 2) h2 (broadcastInDim ⟨2, ![E, 1]⟩ (![0] : Fin 1 → Fin 2) h1 nrm)))

/-- The hop at (r, b): the sum over the edges whose destination is r of the source row's entry times the edge's weight. -/
theorem hop_apply (hN : 0 < N)
    (wfS : ScatterDims.WF ⟨2, ![N, B]⟩ ⟨2, ![E, 1]⟩ ⟨2, ![E, B]⟩ [1] [0] [0] 1)
    (wfG : GatherDims.WF ⟨2, ![N, B]⟩ ⟨2, ![E, 1]⟩ ⟨2, ![E, B]⟩ [1] [0] [] [0] [] 1 ![1, B])
    (h0 : (⟨0, ![]⟩ : Shape).BroadcastsInDim ⟨2, ![N, B]⟩ (![] : Fin 0 → Fin 2))
    (h1 : (⟨1, ![E]⟩ : Shape).BroadcastsInDim ⟨2, ![E, 1]⟩ (![0] : Fin 1 → Fin 2))
    (h2 : (⟨2, ![E, 1]⟩ : Shape).BroadcastsInDim ⟨2, ![E, B]⟩ (![0, 1] : Fin 2 → Fin 2))
    (src dst : IVec ⟨2, ![E, 1]⟩ 32) (nrm : FVec Ideal ⟨1, ![E]⟩ .f32) (h : FVec Ideal ⟨2, ![N, B]⟩ .f32)
    (r : Fin N) (b : Fin B) :
    hop wfS wfG h0 h1 h2 src dst nrm h (ix2 r b)
      = ∑ n : Fin E, if (dst (ix2 n 0)).toInt = (r.val : ℤ)
          then h (ix2 (clampRow hN (src (ix2 n 0))) b) * nrm (ix1 n) else 0 := by
  unfold hop
  rw [Cert.LibScatterLands.scatterAdd_lands_apply, Cert.LibBcast.scalar_apply, constant_apply, Ideal.ofBits_zero_f32, zero_add]
  refine Finset.sum_congr rfl fun n _ => ?_
  rw [mulf_apply, gather_rows_apply hN, Cert.LibSpreadCol.spreadCol_apply, Cert.LibSpreadCol.keepCol_apply]
  rfl

/-- The hop on real data: the real sum over the edges whose destination is r. -/
def rHop (dst : Fin E → ℤ) (g : Fin E → Fin N) (w : Fin E → ℝ) (h : Fin N → Fin B → ℝ) : Fin N → Fin B → ℝ :=
  fun r b => ∑ n : Fin E, if dst n = (r.val : ℤ) then h (g n) b * w n else 0

/-- On real features and real weights a hop is the coerced real hop. -/
theorem hop_coe (hN : 0 < N)
    (wfS : ScatterDims.WF ⟨2, ![N, B]⟩ ⟨2, ![E, 1]⟩ ⟨2, ![E, B]⟩ [1] [0] [0] 1)
    (wfG : GatherDims.WF ⟨2, ![N, B]⟩ ⟨2, ![E, 1]⟩ ⟨2, ![E, B]⟩ [1] [0] [] [0] [] 1 ![1, B])
    (h0 : (⟨0, ![]⟩ : Shape).BroadcastsInDim ⟨2, ![N, B]⟩ (![] : Fin 0 → Fin 2))
    (h1 : (⟨1, ![E]⟩ : Shape).BroadcastsInDim ⟨2, ![E, 1]⟩ (![0] : Fin 1 → Fin 2))
    (h2 : (⟨2, ![E, 1]⟩ : Shape).BroadcastsInDim ⟨2, ![E, B]⟩ (![0, 1] : Fin 2 → Fin 2))
    (src dst : IVec ⟨2, ![E, 1]⟩ 32) (nrm : FVec Ideal ⟨1, ![E]⟩ .f32) (h : FVec Ideal ⟨2, ![N, B]⟩ .f32)
    (w : Fin E → ℝ) (h' : Fin N → Fin B → ℝ)
    (hw : ∀ n, nrm (ix1 n) = ((w n : ℝ) : EReal)) (hh : ∀ i j, h (ix2 i j) = ((h' i j : ℝ) : EReal))
    (r : Fin N) (b : Fin B) :
    hop wfS wfG h0 h1 h2 src dst nrm h (ix2 r b)
      = ((rHop (fun n => (dst (ix2 n 0)).toInt) (fun n => clampRow hN (src (ix2 n 0))) w h' r b : ℝ) : EReal) := by
  rw [hop_apply hN]
  unfold rHop
  rw [← Cert.LibBatchVariance.coe_sum]
  refine Finset.sum_congr rfl fun n _ => ?_
  rw [hw, hh]
  split_ifs
  · exact (EReal.coe_mul _ _).symm
  · exact EReal.coe_zero.symm

end Cert.Hop

end
-- ==== Proof.LibAggLeft.lean ====
/-
  The sparse aggregation both programs perform between their dense steps, as one function.

  For every edge e the row of the feature matrix h at the edge's source node is multiplied by the edge's weight and added
  onto the row of an all-zero matrix at the edge's destination node.  Both programs spell it with the weight on the left
  of the product; the entry-by-entry reading of a hop has it on the right, and the product of extended reals commutes.
  On real features and real weights every entry of the result is a real number: a finite sum of products of reals.
-/
import proofs.«132746_j34668976013395_1_alg».proof.Proof.LibHop

noncomputable section

namespace Cert.Agg

open Idealize.ShloMosaic Idealize.ShloMosaic.ValueIdx Cert.LibScatterRows Cert.LibGatherRows

variable {N E B : ℕ}

/-- Gather the source rows, scale each by its edge's weight (weight on the left), scatter-add onto zeros at the
    destination rows. -/
def spmm (wfS : ScatterDims.WF ⟨2, ![N, B]⟩ ⟨2, ![E, 1]⟩ ⟨2, ![E, B]⟩ [1] [0] [0] 1)
    (wfG : GatherDims.WF ⟨2, ![N, B]⟩ ⟨2, ![E, 1]⟩ ⟨2, ![E, B]⟩ [1] [0] [] [0] [] 1 ![1, B])
    (h0 : (⟨0, ![]⟩ : Shape).BroadcastsInDim ⟨2, ![N, B]⟩ (![] : Fin 0 → Fin 2))
    (h1 : (⟨1, ![E]⟩ : Shape).BroadcastsInDim ⟨2, ![E, 1]⟩ (![0] : Fin 1 → Fin 2))
    (h2 : (⟨2, ![E, 1]⟩ : Shape).BroadcastsInDim ⟨2, ![E, B]⟩ (![0, 1] : Fin 2 → Fin 2))
    (src dst : IVec ⟨2, ![E, 1]⟩ 32) (val : FVec Ideal ⟨1, ![E]⟩ .f32) (h : FVec Ideal ⟨2, ![N, B]⟩ .f32) :
    FVec Ideal ⟨2, ![N, B]⟩ .f32 :=
  Host.scatterAdd (rowDims wfS)
    (broadcastInDim ⟨2, ![N, B]⟩ (![] : Fin 0 → Fin 2) h0 (constant (F := Ideal) ⟨0, ![]⟩ .f32 0x00000000#32)) dst
    (mulf (broadcastInDim ⟨2, ![E, B]⟩ (![0, 1] : Fin 2 → Fin 2) h2 (broadcastInDim ⟨2, ![E, 1]⟩ (![0] : Fin 1 → Fin 2) h1 val))
      (Host.gather (rowGather wfG) h src))

/-- The aggregation is a hop: the two differ only in the order of the two factors of each message. -/
theorem spmm_eq_hop (wfS : ScatterDims.WF ⟨2, ![N, B]⟩ ⟨2, ![E, 1]⟩ ⟨2, ![E, B]⟩ [1] [0] [0] 1)
    (wfG : GatherDims.WF ⟨2, ![N, B]⟩ ⟨2, ![E, 1]⟩ ⟨2, ![E, B]⟩ [1] [0] [] [0] [] 1 ![1, B])
    (h0 : (⟨0, ![]⟩ : Shape).BroadcastsInDim ⟨2, ![N, B]⟩ (![] : Fin 0 → Fin 2))
    (h1 : (⟨1, ![E]⟩ : Shape).BroadcastsInDim ⟨2, ![E, 1]⟩ (![0] : Fin 1 → Fin 2))
    (h2 : (⟨2, ![E, 1]⟩ : Shape).BroadcastsInDim ⟨2, ![E, B]⟩ (![0, 1] : Fin 2 → Fin 2))
    (src dst : IVec ⟨2, ![E, 1]⟩ 32) (val : FVec Ideal ⟨1, ![E]⟩ .f32) (h : FVec Ideal ⟨2, ![N, B]⟩ .f32) :
    spmm wfS wfG h0 h1 h2 src dst val h = Cert.Hop.hop wfS wfG h0 h1 h2 src dst val h := by
  unfold spmm Cert.Hop.hop
  refine congrArg (Host.scatterAdd (rowDims wfS) _ dst) ?_
  funext i
  exact mul_comm _ _

/-- On real features and real weights every entry of the aggregation is a real number. -/
theorem spmm_real (hN : 0 < N)
    (wfS : ScatterDims.WF ⟨2, ![N, B]⟩ ⟨2, ![E, 1]⟩ ⟨2, ![E, B]⟩ [1] [0] [0] 1)
    (wfG : GatherDims.WF ⟨2, ![N, B]⟩ ⟨2, ![E, 1]⟩ ⟨2, ![E, B]⟩ [1] [0] [] [0] [] 1 ![1, B])
    (h0 : (⟨0, ![]⟩ : Shape).BroadcastsInDim ⟨2, ![N, B]⟩ (![] : Fin 0 → Fin 2))
    (h1 : (⟨1, ![E]⟩ : Shape).BroadcastsInDim ⟨2, ![E, 1]⟩ (![0] : Fin 1 → Fin 2))
    (h2 : (⟨2, ![E, 1]⟩ : Shape).BroadcastsInDim ⟨2, ![E, B]⟩ (![0, 1] : Fin 2 → Fin 2))
    (src dst : IVec ⟨2, ![E, 1]⟩ 32) (val : FVec Ideal ⟨1, ![E]⟩ .f32) (h : FVec Ideal ⟨2, ![N, B]⟩ .f32)
    (w : Fin E → ℝ) (h' : Fin N → Fin B → ℝ)
    (hw : ∀ e, val (ix1 e) = ((w e : ℝ) : EReal)) (hh : ∀ i j, h (ix2 i j) = ((h' i j : ℝ) : EReal)) :
    ∃ a : Fin N → Fin B → ℝ, ∀ r b, spmm wfS wfG h0 h1 h2 src dst val h (ix2 r b) = ((a r b : ℝ) : EReal) :=
  ⟨_, fun r b => by rw [spmm_eq_hop]; exact Cert.Hop.hop_coe hN wfS wfG h0 h1 h2 src dst val h w h' hw hh r b⟩

end Cert.Agg

end
-- ==== Proof.KNet.lean ====
/-
  The two networks as functions of the twelve argument arrays.

  Both programs compute, with x the features, (row, col, val) the edges and W0 b0 W1 b1 W2 b2 Wout bout the parameters:
    L1 = layer (agg (x  W0)) b0          L2 = layer (agg (L1 W1)) b1 + L1          L3 = layer (agg (L2 W2)) b2 + L2
    result = agg (L3 Wout) + bout
  where agg is the sparse aggregation over the edges (the source index wrapped when negative, as both programs spell it)
  and layer is relu of PairNorm of (aggregate + bias).  The kernel's network takes PairNorm in one pass (Net.layerK0,
  Net.layerK), the reference's in two (Net.layerR).  On real arguments the two networks are equal: every intermediate
  array is real (products and finite sums of reals), and on real data the two PairNorms are one function.
-/
import proofs.«132746_j34668976013395_1_alg».proof.KernelIdeal
import proofs.«132746_j34668976013395_1_alg».proof.Proof.Gen.KernelIdeal
import proofs.«132746_j34668976013395_1_alg».proof.Proof.Net
import proofs.«132746_j34668976013395_1_alg».proof.Proof.NetMath
import proofs.«132746_j34668976013395_1_alg».proof.Proof.NetConsts
import proofs.«132746_j34668976013395_1_alg».proof.Proof.LibAggLeft

noncomputable section

namespace Cert.KNet

open Idealize.ShloMosaic Idealize.ShloMosaic.ValueIdx Cert.KernelIdeal Cert.KernelIdeal.Facts₀ Cert.Net

/-- The source-node column: a negative index wrapped by the number of nodes, then laid out as a column. -/
def srcCol (x2 : IVec S800000 32) : IVec S800000x1 32 :=
  broadcastInDim S800000x1 ![0] bcast_S800000_S800000x1_0
    (select (cmpi .slt x2 (broadcastInDim S800000 ![] bcast_S_S800000 (constantI S_ 32 0#32)))
      (addi x2 (broadcastInDim S800000 ![] bcast_S_S800000 (constantI S_ 32 50000#32))) x2)

/-- The destination-node column. -/
def dstCol (x1 : IVec S800000 32) : IVec S800000x1 32 :=
  broadcastInDim S800000x1 ![0] bcast_S800000_S800000x1_0 x1

/-- The aggregation of a 128-column feature matrix over the edges. -/
def agg128 (x1 x2 : IVec S800000 32) (x3 : FVec Ideal S800000 .f32) (h : FVec Ideal S50000x128 .f32) :
    FVec Ideal S50000x128 .f32 :=
  Cert.Agg.spmm scatter_S50000x128_S800000x1_S800000x128_1_0_0_1_wf gather_S50000x128_S800000x1_S800000x128_1_0_n_n_0_1_1128_wf
    bcast_S_S50000x128 bcast_S800000_S800000x1_0 bcast_S800000x1_S800000x128_0_1 (srcCol x2) (dstCol x1) x3 h

/-- The aggregation of a 40-column feature matrix over the edges. -/
def agg40 (x1 x2 : IVec S800000 32) (x3 : FVec Ideal S800000 .f32) (h : FVec Ideal S50000x40 .f32) :
    FVec Ideal S50000x40 .f32 :=
  Cert.Agg.spmm scatter_S50000x40_S800000x1_S800000x40_1_0_0_1_wf gather_S50000x40_S800000x1_S800000x40_1_0_n_n_0_1_140_wf
    bcast_S_S50000x40 bcast_S800000_S800000x1_0 bcast_S800000x1_S800000x40_0_1 (srcCol x2) (dstCol x1) x3 h

variable (x0 : FVec Ideal S50000x512 .f32) (x1 x2 : IVec S800000 32) (x3 : FVec Ideal S800000 .f32)
  (x4 : FVec Ideal S512x128 .f32) (x5 : FVec Ideal S1x128 .f32) (x6 : FVec Ideal S128x128 .f32) (x7 : FVec Ideal S1x128 .f32)
  (x8 : FVec Ideal S128x128 .f32) (x9 : FVec Ideal S1x128 .f32) (x10 : FVec Ideal S128x40 .f32) (x11 : FVec Ideal S1x40 .f32)

/-- The kernel's three layers. -/
def kL1 : FVec Ideal S50000x128 .f32 := layerK0 (agg128 x1 x2 x3 (mm x0 x4)) x5
def kL2 : FVec Ideal S50000x128 .f32 := layerK (agg128 x1 x2 x3 (mm (kL1 x0 x1 x2 x3 x4 x5) x6)) x7 (kL1 x0 x1 x2 x3 x4 x5)
def kL3 : FVec Ideal S50000x128 .f32 :=
  layerK (agg128 x1 x2 x3 (mm (kL2 x0 x1 x2 x3 x4 x5 x6 x7) x8)) x9 (kL2 x0 x1 x2 x3 x4 x5 x6 x7)
/-- The kernel's network. -/
def netK : FVec Ideal S50000x40 .f32 := addRow (agg40 x1 x2 x3 (mm (kL3 x0 x1 x2 x3 x4 x5 x6 x7 x8 x9) x10)) x11

/-- The reference's three layers. -/
def rL1 : FVec Ideal S50000x128 .f32 := layerR (agg128 x1 x2 x3 (mm x0 x4)) x5 (fun _ => 0)
def rL2 : FVec Ideal S50000x128 .f32 := layerR (agg128 x1 x2 x3 (mm (rL1 x0 x1 x2 x3 x4 x5) x6)) x7 (rL1 x0 x1 x2 x3 x4 x5)
def rL3 : FVec Ideal S50000x128 .f32 :=
  layerR (agg128 x1 x2 x3 (mm (rL2 x0 x1 x2 x3 x4 x5 x6 x7) x8)) x9 (rL2 x0 x1 x2 x3 x4 x5 x6 x7)
/-- The reference's network. -/
def netR : FVec Ideal S50000x40 .f32 := addRow (agg40 x1 x2 x3 (mm (rL3 x0 x1 x2 x3 x4 x5 x6 x7 x8 x9) x10)) x11

/-- An array all of whose entries are real numbers. -/
def IsReal {a b : ℕ} (X : Mat a b) : Prop := ∃ f : Fin a → Fin b → ℝ, ∀ p q, X (ix2 p q) = ((f p q : ℝ) : EReal)

theorem mm_isReal {a k b : ℕ} {X : Mat a k} {W : Mat k b} (hX : IsReal X) (hW : IsReal W) : IsReal (mm X W) := by
  obtain ⟨x, hx⟩ := hX
  obtain ⟨w, hw⟩ := hW
  exact ⟨_, fun p q => Cert.NetMath.mm_real X W x w hx hw p q⟩

theorem agg128_isReal {h : FVec Ideal S50000x128 .f32} (h3 : ∃ w : Fin 800000 → ℝ, ∀ e, x3 (ix1 e) = ((w e : ℝ) : EReal))
    (hh : IsReal (a := 50000) (b := 128) h) : IsReal (a := 50000) (b := 128) (agg128 x1 x2 x3 h) := by
  obtain ⟨w, hw⟩ := h3
  obtain ⟨f, hf⟩ := hh
  exact Cert.Agg.spmm_real (by norm_num) _ _ _ _ _ _ _ x3 h w f hw hf

/-- Two arrays that agree at every pair of coordinates are equal. -/
theorem ext_ix2 {a b : ℕ} {X Y : Mat a b} (h : ∀ p q, X (ix2 p q) = Y (ix2 p q)) : X = Y := by
  funext i
  rw [eq_ix2 i]
  exact h _ _

/-- On real data the first layers agree and are real. -/
theorem layer0_agree {A : Mat 50000 128} {b : Mat 1 128} (hA : IsReal A) (hb : IsReal b) :
    layerK0 A b = layerR A b (fun _ => 0) ∧ IsReal (layerK0 A b) := by
  obtain ⟨a, ha⟩ := hA
  obtain ⟨β, hβ⟩ := hb
  obtain ⟨e, he, hε⟩ := Cert.NetConsts.cEps_pos
  obtain ⟨g, hK, hR⟩ := Cert.NetMath.layer0_real A b a (fun q => β 0 q) ha (fun q => hβ 0 q)
    (by rw [Cert.NetConsts.cN_eq]; norm_num) (by norm_num) e he hε Cert.NetConsts.cOne_eq
  exact ⟨ext_ix2 fun p q => (hK p q).trans (hR p q).symm, g, hK⟩

/-- On real data the later layers agree and are real. -/
theorem layer_agree {A : Mat 50000 128} {b : Mat 1 128} {old : Mat 50000 128} (hA : IsReal A) (hb : IsReal b) (ho : IsReal old) :
    layerK A b old = layerR A b old ∧ IsReal (layerK A b old) := by
  obtain ⟨a, ha⟩ := hA
  obtain ⟨β, hβ⟩ := hb
  obtain ⟨o, ho⟩ := ho
  obtain ⟨e, he, hε⟩ := Cert.NetConsts.cEps_pos
  obtain ⟨g, hK, hR⟩ := Cert.NetMath.layer_real A b old a (fun q => β 0 q) o ha (fun q => hβ 0 q) ho
    (by rw [Cert.NetConsts.cN_eq]; norm_num) (by norm_num) e he hε Cert.NetConsts.cOne_eq
  exact ⟨ext_ix2 fun p q => (hK p q).trans (hR p q).symm, g, hK⟩

/-- On real arguments the two networks are equal. -/
theorem netK_eq_netR (h0 : IsReal (a := 50000) (b := 512) x0) (h3 : ∃ w : Fin 800000 → ℝ, ∀ e, x3 (ix1 e) = ((w e : ℝ) : EReal))
    (h4 : IsReal (a := 512) (b := 128) x4) (h5 : IsReal (a := 1) (b := 128) x5) (h6 : IsReal (a := 128) (b := 128) x6)
    (h7 : IsReal (a := 1) (b := 128) x7) (h8 : IsReal (a := 128) (b := 128) x8) (h9 : IsReal (a := 1) (b := 128) x9) :
    netK x0 x1 x2 x3 x4 x5 x6 x7 x8 x9 x10 x11 = netR x0 x1 x2 x3 x4 x5 x6 x7 x8 x9 x10 x11 := by
  obtain ⟨e1, r1⟩ := layer0_agree (agg128_isReal x1 x2 x3 h3 (mm_isReal h0 h4)) h5
  have e1' : kL1 x0 x1 x2 x3 x4 x5 = rL1 x0 x1 x2 x3 x4 x5 := e1
  have r1' : IsReal (a := 50000) (b := 128) (kL1 x0 x1 x2 x3 x4 x5) := r1
  obtain ⟨e2, r2⟩ := layer_agree (agg128_isReal x1 x2 x3 h3 (mm_isReal r1' h6)) h7 r1'
  have e2' : kL2 x0 x1 x2 x3 x4 x5 x6 x7 = rL2 x0 x1 x2 x3 x4 x5 x6 x7 := by
    unfold kL2 rL2; rw [← e1']; exact e2
  have r2' : IsReal (a := 50000) (b := 128) (kL2 x0 x1 x2 x3 x4 x5 x6 x7) := r2
  obtain ⟨e3, -⟩ := layer_agree (agg128_isReal x1 x2 x3 h3 (mm_isReal r2' h8)) h9 r2'
  have e3' : kL3 x0 x1 x2 x3 x4 x5 x6 x7 x8 x9 = rL3 x0 x1 x2 x3 x4 x5 x6 x7 x8 x9 := by
    unfold kL3 rL3; rw [← e2']; exact e3
  unfold netK netR
  rw [e3']

end Cert.KNet

end
-- ==== Proof.Glue.lean ====
/-
  The host's scalar arithmetic between the statistics pass and the pointwise pass.

  From the column sums cs (a row) and the sum of squares ss (one cell) the kernel's host code forms the column means
  cs / N and the cell 1 / sqrt (eps + (ss - N * sum over j of (mean j)^2) / N).  Read at an index, on the column sums and
  sum of squares of an array H, these are Net.colMeanK H and Net.invNormK H.
-/
import proofs.«132746_j34668976013395_1_alg».proof.KernelIdeal
import proofs.«132746_j34668976013395_1_alg».proof.Proof.Gen.KernelIdeal
import proofs.«132746_j34668976013395_1_alg».proof.Proof.Net
import Idealize.ShloMosaic.Lib.Pipeline.Value
import Idealize.ShloMosaic.Lib.ValueIdx
import Idealize.ShloMosaic.Lib.IdealHost
import Idealize.ShloMosaic.PureOps.Ideal.Laws

noncomputable section

namespace Cert.KGlue

open Idealize.ShloMosaic Idealize.ShloMosaic.ValueIdx Cert.KernelIdeal Cert.KernelIdeal.Facts₀ Cert.Net
open scoped BigOperators

/-- The row of column means: the column sums over the row count. -/
def cmRow (cs : FVec Ideal S1x128 .f32) : FVec Ideal S1x128 .f32 :=
  Host.divf cs (broadcastInDim S1x128 ![] bcast_S_S1x128 (constant (F := Ideal) S_ .f32 0x47435000#32))

/-- The scalar under the reciprocal, before it is laid out as a cell. -/
def invScalar (cs : FVec Ideal S1x128 .f32) (ss : FVec Ideal S1x1 .f32) : FVec Ideal S_ .f32 :=
  Host.divf (constant (F := Ideal) S_ .f32 0x3F800000#32)
    (Host.sqrt (addf (constant (F := Ideal) S_ .f32 0x358637BD#32)
      (Host.divf (subf (fun j => shapeCast S_ ss shapeCasts_S1x1_S_ j)
          (mulf (constant (F := Ideal) S_ .f32 0x47435000#32)
            (Host.reduceAdd (mulf (cmRow cs) (cmRow cs)) (constant (F := Ideal) S_ .f32 0x00000000#32) reducesTo_S1x128_S_d0_1 h_S_)))
        (constant (F := Ideal) S_ .f32 0x47435000#32))))

/-- The reciprocal of the root as a 1×1 cell. -/
def invCell (cs : FVec Ideal S1x128 .f32) (ss : FVec Ideal S1x1 .f32) : FVec Ideal S1x1 .f32 :=
  fun i => shapeCast S1x1 (invScalar cs ss) shapeCasts_S_S1x1 i

theorem cmRow_apply (H : Mat 50000 128) : cmRow (fun i => colSum H (i 1)) = fun i => colMeanK H (i 1) := by
  funext i
  rfl

/-- A sum over the indices of a one-row array is the sum over its columns. -/
theorem sum_row {M : Type*} [AddCommMonoid M] (f : (⟨2, ![1, 128]⟩ : Shape).Idx → M) :
    ∑ i : (⟨2, ![1, 128]⟩ : Shape).Idx, f i = ∑ j : Fin 128, f (ix2 0 j) := by
  rw [sum_idx2, Fin.sum_univ_one]

theorem invScalar_apply (H : Mat 50000 128) (j : S_.Idx) :
    invScalar (fun i => colSum H (i 1)) (fun _ => sumSq H) j = invNormK H := by
  unfold invScalar
  show Ideal.div cOne (Ideal.sqrt (cEps + Ideal.div
    (shapeCast S_ (fun _ => sumSq H) shapeCasts_S1x1_S_ j
      - cN * Host.reduceAdd (mulf (cmRow fun i => colSum H (i 1)) (cmRow fun i => colSum H (i 1)))
          (constant (F := Ideal) S_ .f32 0x00000000#32) reducesTo_S1x128_S_d0_1 h_S_ j) cN)) = _
  rw [cmRow_apply]
  simp only [Host.reduceAdd, Ideal.hostReduceAdd_def]
  rw [Ideal.hostReduceAdd_total reducesTo_S1x128_S_d0_1 (fun b => b.elim0), sum_row, constant_apply, Ideal.ofBits_zero_f32]
  rfl

theorem invCell_apply (H : Mat 50000 128) : invCell (fun i => colSum H (i 1)) (fun _ => sumSq H) = fun _ => invNormK H := by
  funext i
  unfold invCell
  rw [shapeCast_apply (invScalar _ _) shapeCasts_S_S1x1 i ix0 (by
    have h1 := (S_.rowMajor ix0).isLt
    have h2 := (S1x1.rowMajor i).isLt
    simp [Shape.numel, Fin.prod_univ_two] at h1 h2
    omega)]
  exact invScalar_apply H ix0

end Cert.KGlue

end
-- ==== Proof.Keep.lean ====
/-
  Which buffers survive which stretches of the program.

  Between the boundary where a buffer is produced and the boundary where it is consumed, no host operation writes it and
  no pallas region has it among its outputs (a region that has it among its inputs returns it as entered), so it holds
  the same contents at both.  One lemma per buffer and pair of boundaries the value argument needs.
-/
import proofs.«132746_j34668976013395_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.ShloMosaic.Tactic Idealize.SL.Sem
open Idealize.ShloMosaic.Pipeline (Dat Cfg Window)

variable {F : FTy → Type} [FloatOps F]
variable (m : (ℓ : Loc nD τ sig) → Buf (Elt F) ℓ) (ρ : Dev nD → PrngReg)

/-- `main_arg1` is not written between boundaries 0 and 1. -/
theorem keep_main_arg1_0_1 (c : Dev nD) : W1 m ρ c (Proc.devRef .tc main_arg1) = W0 m ρ c (Proc.devRef .tc main_arg1) :=
  calc W1 m ρ c (Proc.devRef .tc main_arg1)
    _ = W0 m ρ c (Proc.devRef .tc main_arg1) := (W1_of_ne m ρ c main_arg1 (by decide))

/-- `main_arg1` is not written between boundaries 0 and 6. -/
theorem keep_main_arg1_0_6 (c : Dev nD) : W6 m ρ c (Proc.devRef .tc main_arg1) = W0 m ρ c (Proc.devRef .tc main_arg1) :=
  calc W6 m ρ c (Proc.devRef .tc main_arg1)
    _ = W5 m ρ c (Proc.devRef .tc main_arg1) := (W6_of_ne m ρ c main_arg1 (by decide))
    _ = W4 m ρ c (Proc.devRef .tc main_arg1) := (W5_of_ne m ρ c main_arg1 (by decide))
    _ = W3 m ρ c (Proc.devRef .tc main_arg1) := (StableHlo.after_of_forall_not_mem (b := Proc.devRef .tc main_arg1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg1) := (W3_of_ne m ρ c main_arg1 (by decide))
    _ = W1 m ρ c (Proc.devRef .tc main_arg1) := (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg1) := (W1_of_ne m ρ c main_arg1 (by decide))

/-- `main_arg1` is not written between boundaries 0 and 11. -/
theorem keep_main_arg1_0_11 (c : Dev nD) : W11 m ρ c (Proc.devRef .tc main_arg1) = W0 m ρ c (Proc.devRef .tc main_arg1) :=
  calc W11 m ρ c (Proc.devRef .tc main_arg1)
    _ = W10 m ρ c (Proc.devRef .tc main_arg1) := (W11_of_ne m ρ c main_arg1 (by decide))
    _ = W9 m ρ c (Proc.devRef .tc main_arg1) := (W10_of_ne m ρ c main_arg1 (by decide))
    _ = W8 m ρ c (Proc.devRef .tc main_arg1) := (StableHlo.after_of_forall_not_mem (b := Proc.devRef .tc main_arg1) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W7 m ρ c (Proc.devRef .tc main_arg1) := (W8_of_ne m ρ c main_arg1 (by decide))
    _ = W6 m ρ c (Proc.devRef .tc main_arg1) := (StableHlo.after_of_forall_not_mem (b := Proc.devRef .tc main_arg1) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg1) := (W6_of_ne m ρ c main_arg1 (by decide))
    _ = W4 m ρ c (Proc.devRef .tc main_arg1) := (W5_of_ne m ρ c main_arg1 (by decide))
    _ = W3 m ρ c (Proc.devRef .tc main_arg1) := (StableHlo.after_of_forall_not_mem (b := Proc.devRef .tc main_arg1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg1) := (W3_of_ne m ρ c main_arg1 (by decide))
    _ = W1 m ρ c (Proc.devRef .tc main_arg1) := (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg1) := (W1_of_ne m ρ c main_arg1 (by decide))

/-- `main_arg1` is not written between boundaries 0 and 16. -/
theorem keep_main_arg1_0_16 (c : Dev nD) : W16 m ρ c (Proc.devRef .tc main_arg1) = W0 m ρ c (Proc.devRef .tc main_arg1) :=
  calc W16 m ρ c (Proc.devRef .tc main_arg1)
    _ = W15 m ρ c (Proc.devRef .tc main_arg1) := (W16_of_ne m ρ c main_arg1 (by decide))
    _ = W14 m ρ c (Proc.devRef .tc main_arg1) := (W15_of_ne m ρ c main_arg1 (by decide))
    _ = W13 m ρ c (Proc.devRef .tc main_arg1) := (StableHlo.after_of_forall_not_mem (b := Proc.devRef .tc main_arg1) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W12 m ρ c (Proc.devRef .tc main_arg1) := (W13_of_ne m ρ c main_arg1 (by decide))
    _ = W11 m ρ c (Proc.devRef .tc main_arg1) := (StableHlo.after_of_forall_not_mem (b := Proc.devRef .tc main_arg1) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W10 m ρ c (Proc.devRef .tc main_arg1) := (W11_of_ne m ρ c main_arg1 (by decide))
    _ = W9 m ρ c (Proc.devRef .tc main_arg1) := (W10_of_ne m ρ c main_arg1 (by decide))
    _ = W8 m ρ c (Proc.devRef .tc main_arg1) := (StableHlo.after_of_forall_not_mem (b := Proc.devRef .tc main_arg1) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W7 m ρ c (Proc.devRef .tc main_arg1) := (W8_of_ne m ρ c main_arg1 (by decide))
    _ = W6 m ρ c (Proc.devRef .tc main_arg1) := (StableHlo.after_of_forall_not_mem (b := Proc.devRef .tc main_arg1) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg1) := (W6_of_ne m ρ c main_arg1 (by decide))
    _ = W4 m ρ c (Proc.devRef .tc main_arg1) := (W5_of_ne m ρ c main_arg1 (by decide))
    _ = W3 m ρ c (Proc.devRef .tc main_arg1) := (StableHlo.after_of_forall_not_mem (b := Proc.devRef .tc main_arg1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg1) := (W3_of_ne m ρ c main_arg1 (by decide))
    _ = W1 m ρ c (Proc.devRef .tc main_arg1) := (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg1) := (W1_of_ne m ρ c main_arg1 (by decide))

/-- `main_arg2` is not written between boundaries 0 and 1. -/
theorem keep_main_arg2_0_1 (c : Dev nD) : W1 m ρ c (Proc.devRef .tc main_arg2) = W0 m ρ c (Proc.devRef .tc main_arg2) :=
  calc W1 m ρ c (Proc.devRef .tc main_arg2)
    _ = W0 m ρ c (Proc.devRef .tc main_arg2) := (W1_of_ne m ρ c main_arg2 (by decide))

/-- `main_arg2` is not written between boundaries 0 and 6. -/
theorem keep_main_arg2_0_6 (c : Dev nD) : W6 m ρ c (Proc.devRef .tc main_arg2) = W0 m ρ c (Proc.devRef .tc main_arg2) :=
  calc W6 m ρ c (Proc.devRef .tc main_arg2)
    _ = W5 m ρ c (Proc.devRef .tc main_arg2) := (W6_of_ne m ρ c main_arg2 (by decide))
    _ = W4 m ρ c (Proc.devRef .tc main_arg2) := (W5_of_ne m ρ c main_arg2 (by decide))
    _ = W3 m ρ c (Proc.devRef .tc main_arg2) := (StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg2) := (W3_of_ne m ρ c main_arg2 (by decide))
    _ = W1 m ρ c (Proc.devRef .tc main_arg2) := (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg2) := (W1_of_ne m ρ c main_arg2 (by decide))

/-- `main_arg2` is not written between boundaries 0 and 11. -/
theorem keep_main_arg2_0_11 (c : Dev nD) : W11 m ρ c (Proc.devRef .tc main_arg2) = W0 m ρ c (Proc.devRef .tc main_arg2) :=
  calc W11 m ρ c (Proc.devRef .tc main_arg2)
    _ = W10 m ρ c (Proc.devRef .tc main_arg2) := (W11_of_ne m ρ c main_arg2 (by decide))
    _ = W9 m ρ c (Proc.devRef .tc main_arg2) := (W10_of_ne m ρ c main_arg2 (by decide))
    _ = W8 m ρ c (Proc.devRef .tc main_arg2) := (StableHlo.after_of_forall_not_mem (b := Proc.devRef .tc main_arg2) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W7 m ρ c (Proc.devRef .tc main_arg2) := (W8_of_ne m ρ c main_arg2 (by decide))
    _ = W6 m ρ c (Proc.devRef .tc main_arg2) := (StableHlo.after_of_forall_not_mem (b := Proc.devRef .tc main_arg2) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg2) := (W6_of_ne m ρ c main_arg2 (by decide))
    _ = W4 m ρ c (Proc.devRef .tc main_arg2) := (W5_of_ne m ρ c main_arg2 (by decide))
    _ = W3 m ρ c (Proc.devRef .tc main_arg2) := (StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg2) := (W3_of_ne m ρ c main_arg2 (by decide))
    _ = W1 m ρ c (Proc.devRef .tc main_arg2) := (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg2) := (W1_of_ne m ρ c main_arg2 (by decide))

/-- `main_arg2` is not written between boundaries 0 and 16. -/
theorem keep_main_arg2_0_16 (c : Dev nD) : W16 m ρ c (Proc.devRef .tc main_arg2) = W0 m ρ c (Proc.devRef .tc main_arg2) :=
  calc W16 m ρ c (Proc.devRef .tc main_arg2)
    _ = W15 m ρ c (Proc.devRef .tc main_arg2) := (W16_of_ne m ρ c main_arg2 (by decide))
    _ = W14 m ρ c (Proc.devRef .tc main_arg2) := (W15_of_ne m ρ c main_arg2 (by decide))
    _ = W13 m ρ c (Proc.devRef .tc main_arg2) := (StableHlo.after_of_forall_not_mem (b := Proc.devRef .tc main_arg2) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W12 m ρ c (Proc.devRef .tc main_arg2) := (W13_of_ne m ρ c main_arg2 (by decide))
    _ = W11 m ρ c (Proc.devRef .tc main_arg2) := (StableHlo.after_of_forall_not_mem (b := Proc.devRef .tc main_arg2) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W10 m ρ c (Proc.devRef .tc main_arg2) := (W11_of_ne m ρ c main_arg2 (by decide))
    _ = W9 m ρ c (Proc.devRef .tc main_arg2) := (W10_of_ne m ρ c main_arg2 (by decide))
    _ = W8 m ρ c (Proc.devRef .tc main_arg2) := (StableHlo.after_of_forall_not_mem (b := Proc.devRef .tc main_arg2) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W7 m ρ c (Proc.devRef .tc main_arg2) := (W8_of_ne m ρ c main_arg2 (by decide))
    _ = W6 m ρ c (Proc.devRef .tc main_arg2) := (StableHlo.after_of_forall_not_mem (b := Proc.devRef .tc main_arg2) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg2) := (W6_of_ne m ρ c main_arg2 (by decide))
    _ = W4 m ρ c (Proc.devRef .tc main_arg2) := (W5_of_ne m ρ c main_arg2 (by decide))
    _ = W3 m ρ c (Proc.devRef .tc main_arg2) := (StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg2) := (W3_of_ne m ρ c main_arg2 (by decide))
    _ = W1 m ρ c (Proc.devRef .tc main_arg2) := (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg2) := (W1_of_ne m ρ c main_arg2 (by decide))

/-- `main_arg3` is not written between boundaries 0 and 1. -/
theorem keep_main_arg3_0_1 (c : Dev nD) : W1 m ρ c (Proc.devRef .tc main_arg3) = W0 m ρ c (Proc.devRef .tc main_arg3) :=
  calc W1 m ρ c (Proc.devRef .tc main_arg3)
    _ = W0 m ρ c (Proc.devRef .tc main_arg3) := (W1_of_ne m ρ c main_arg3 (by decide))

/-- `main_arg3` is not written between boundaries 0 and 6. -/
theorem keep_main_arg3_0_6 (c : Dev nD) : W6 m ρ c (Proc.devRef .tc main_arg3) = W0 m ρ c (Proc.devRef .tc main_arg3) :=
  calc W6 m ρ c (Proc.devRef .tc main_arg3)
    _ = W5 m ρ c (Proc.devRef .tc main_arg3) := (W6_of_ne m ρ c main_arg3 (by decide))
    _ = W4 m ρ c (Proc.devRef .tc main_arg3) := (W5_of_ne m ρ c main_arg3 (by decide))
    _ = W3 m ρ c (Proc.devRef .tc main_arg3) := (StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg3) := (W3_of_ne m ρ c main_arg3 (by decide))
    _ = W1 m ρ c (Proc.devRef .tc main_arg3) := (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg3) := (W1_of_ne m ρ c main_arg3 (by decide))

/-- `main_arg3` is not written between boundaries 0 and 11. -/
theorem keep_main_arg3_0_11 (c : Dev nD) : W11 m ρ c (Proc.devRef .tc main_arg3) = W0 m ρ c (Proc.devRef .tc main_arg3) :=
  calc W11 m ρ c (Proc.devRef .tc main_arg3)
    _ = W10 m ρ c (Proc.devRef .tc main_arg3) := (W11_of_ne m ρ c main_arg3 (by decide))
    _ = W9 m ρ c (Proc.devRef .tc main_arg3) := (W10_of_ne m ρ c main_arg3 (by decide))
    _ = W8 m ρ c (Proc.devRef .tc main_arg3) := (StableHlo.after_of_forall_not_mem (b := Proc.devRef .tc main_arg3) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W7 m ρ c (Proc.devRef .tc main_arg3) := (W8_of_ne m ρ c main_arg3 (by decide))
    _ = W6 m ρ c (Proc.devRef .tc main_arg3) := (StableHlo.after_of_forall_not_mem (b := Proc.devRef .tc main_arg3) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg3) := (W6_of_ne m ρ c main_arg3 (by decide))
    _ = W4 m ρ c (Proc.devRef .tc main_arg3) := (W5_of_ne m ρ c main_arg3 (by decide))
    _ = W3 m ρ c (Proc.devRef .tc main_arg3) := (StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg3) := (W3_of_ne m ρ c main_arg3 (by decide))
    _ = W1 m ρ c (Proc.devRef .tc main_arg3) := (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg3) := (W1_of_ne m ρ c main_arg3 (by decide))

/-- `main_arg3` is not written between boundaries 0 and 16. -/
theorem keep_main_arg3_0_16 (c : Dev nD) : W16 m ρ c (Proc.devRef .tc main_arg3) = W0 m ρ c (Proc.devRef .tc main_arg3) :=
  calc W16 m ρ c (Proc.devRef .tc main_arg3)
    _ = W15 m ρ c (Proc.devRef .tc main_arg3) := (W16_of_ne m ρ c main_arg3 (by decide))
    _ = W14 m ρ c (Proc.devRef .tc main_arg3) := (W15_of_ne m ρ c main_arg3 (by decide))
    _ = W13 m ρ c (Proc.devRef .tc main_arg3) := (StableHlo.after_of_forall_not_mem (b := Proc.devRef .tc main_arg3) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W12 m ρ c (Proc.devRef .tc main_arg3) := (W13_of_ne m ρ c main_arg3 (by decide))
    _ = W11 m ρ c (Proc.devRef .tc main_arg3) := (StableHlo.after_of_forall_not_mem (b := Proc.devRef .tc main_arg3) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W10 m ρ c (Proc.devRef .tc main_arg3) := (W11_of_ne m ρ c main_arg3 (by decide))
    _ = W9 m ρ c (Proc.devRef .tc main_arg3) := (W10_of_ne m ρ c main_arg3 (by decide))
    _ = W8 m ρ c (Proc.devRef .tc main_arg3) := (StableHlo.after_of_forall_not_mem (b := Proc.devRef .tc main_arg3) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W7 m ρ c (Proc.devRef .tc main_arg3) := (W8_of_ne m ρ c main_arg3 (by decide))
    _ = W6 m ρ c (Proc.devRef .tc main_arg3) := (StableHlo.after_of_forall_not_mem (b := Proc.devRef .tc main_arg3) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg3) := (W6_of_ne m ρ c main_arg3 (by decide))
    _ = W4 m ρ c (Proc.devRef .tc main_arg3) := (W5_of_ne m ρ c main_arg3 (by decide))
    _ = W3 m ρ c (Proc.devRef .tc main_arg3) := (StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg3) := (W3_of_ne m ρ c main_arg3 (by decide))
    _ = W1 m ρ c (Proc.devRef .tc main_arg3) := (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg3) := (W1_of_ne m ρ c main_arg3 (by decide))

/-- `main_arg5` is not written between boundaries 0 and 2. -/
theorem keep_main_arg5_0_2 (c : Dev nD) : W2 m ρ c (Proc.devRef .tc main_arg5) = W0 m ρ c (Proc.devRef .tc main_arg5) :=
  calc W2 m ρ c (Proc.devRef .tc main_arg5)
    _ = W1 m ρ c (Proc.devRef .tc main_arg5) := (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg5) := (W1_of_ne m ρ c main_arg5 (by decide))

/-- `main_arg5` is not written between boundaries 0 and 4. -/
theorem keep_main_arg5_0_4 (c : Dev nD) : W4 m ρ c (Proc.devRef .tc main_arg5) = W0 m ρ c (Proc.devRef .tc main_arg5) :=
  calc W4 m ρ c (Proc.devRef .tc main_arg5)
    _ = W3 m ρ c (Proc.devRef .tc main_arg5) := (StableHlo.after_of_forall_not_mem (b := Proc.devRef .tc main_arg5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg5) := ((W3_arr m ρ c 1).trans (((dat1 (V2 m ρ) c).arrAt_in 1 rfl _).trans (A_eq1 (V2 m ρ) c 1)))
    _ = W1 m ρ c (Proc.devRef .tc main_arg5) := (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg5) := (W1_of_ne m ρ c main_arg5 (by decide))

/-- `main_arg6` is not written between boundaries 0 and 5. -/
theorem keep_main_arg6_0_5 (c : Dev nD) : W5 m ρ c (Proc.devRef .tc main_arg6) = W0 m ρ c (Proc.devRef .tc main_arg6) :=
  calc W5 m ρ c (Proc.devRef .tc main_arg6)
    _ = W4 m ρ c (Proc.devRef .tc main_arg6) := (W5_of_ne m ρ c main_arg6 (by decide))
    _ = W3 m ρ c (Proc.devRef .tc main_arg6) := (StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg6) := (W3_of_ne m ρ c main_arg6 (by decide))
    _ = W1 m ρ c (Proc.devRef .tc main_arg6) := (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg6) := (W1_of_ne m ρ c main_arg6 (by decide))

/-- `main_arg7` is not written between boundaries 0 and 7. -/
theorem keep_main_arg7_0_7 (c : Dev nD) : W7 m ρ c (Proc.devRef .tc main_arg7) = W0 m ρ c (Proc.devRef .tc main_arg7) :=
  calc W7 m ρ c (Proc.devRef .tc main_arg7)
    _ = W6 m ρ c (Proc.devRef .tc main_arg7) := (StableHlo.after_of_forall_not_mem (b := Proc.devRef .tc main_arg7) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg7) := (W6_of_ne m ρ c main_arg7 (by decide))
    _ = W4 m ρ c (Proc.devRef .tc main_arg7) := (W5_of_ne m ρ c main_arg7 (by decide))
    _ = W3 m ρ c (Proc.devRef .tc main_arg7) := (StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg7) := (W3_of_ne m ρ c main_arg7 (by decide))
    _ = W1 m ρ c (Proc.devRef .tc main_arg7) := (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg7) := (W1_of_ne m ρ c main_arg7 (by decide))

/-- `main_arg7` is not written between boundaries 0 and 9. -/
theorem keep_main_arg7_0_9 (c : Dev nD) : W9 m ρ c (Proc.devRef .tc main_arg7) = W0 m ρ c (Proc.devRef .tc main_arg7) :=
  calc W9 m ρ c (Proc.devRef .tc main_arg7)
    _ = W8 m ρ c (Proc.devRef .tc main_arg7) := (StableHlo.after_of_forall_not_mem (b := Proc.devRef .tc main_arg7) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W7 m ρ c (Proc.devRef .tc main_arg7) := ((W8_arr m ρ c 1).trans (((dat4 (V7 m ρ) c).arrAt_in 1 rfl _).trans (A_eq4 (V7 m ρ) c 1)))
    _ = W6 m ρ c (Proc.devRef .tc main_arg7) := (StableHlo.after_of_forall_not_mem (b := Proc.devRef .tc main_arg7) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg7) := (W6_of_ne m ρ c main_arg7 (by decide))
    _ = W4 m ρ c (Proc.devRef .tc main_arg7) := (W5_of_ne m ρ c main_arg7 (by decide))
    _ = W3 m ρ c (Proc.devRef .tc main_arg7) := (StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg7) := (W3_of_ne m ρ c main_arg7 (by decide))
    _ = W1 m ρ c (Proc.devRef .tc main_arg7) := (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg7) := (W1_of_ne m ρ c main_arg7 (by decide))

/-- `main_arg8` is not written between boundaries 0 and 10. -/
theorem keep_main_arg8_0_10 (c : Dev nD) : W10 m ρ c (Proc.devRef .tc main_arg8) = W0 m ρ c (Proc.devRef .tc main_arg8) :=
  calc W10 m ρ c (Proc.devRef .tc main_arg8)
    _ = W9 m ρ c (Proc.devRef .tc main_arg8) := (W10_of_ne m ρ c main_arg8 (by decide))
    _ = W8 m ρ c (Proc.devRef .tc main_arg8) := (StableHlo.after_of_forall_not_mem (b := Proc.devRef .tc main_arg8) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W7 m ρ c (Proc.devRef .tc main_arg8) := (W8_of_ne m ρ c main_arg8 (by decide))
    _ = W6 m ρ c (Proc.devRef .tc main_arg8) := (StableHlo.after_of_forall_not_mem (b := Proc.devRef .tc main_arg8) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg8) := (W6_of_ne m ρ c main_arg8 (by decide))
    _ = W4 m ρ c (Proc.devRef .tc main_arg8) := (W5_of_ne m ρ c main_arg8 (by decide))
    _ = W3 m ρ c (Proc.devRef .tc main_arg8) := (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg8) := (W3_of_ne m ρ c main_arg8 (by decide))
    _ = W1 m ρ c (Proc.devRef .tc main_arg8) := (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg8) := (W1_of_ne m ρ c main_arg8 (by decide))

/-- `main_arg9` is not written between boundaries 0 and 12. -/
theorem keep_main_arg9_0_12 (c : Dev nD) : W12 m ρ c (Proc.devRef .tc main_arg9) = W0 m ρ c (Proc.devRef .tc main_arg9) :=
  calc W12 m ρ c (Proc.devRef .tc main_arg9)
    _ = W11 m ρ c (Proc.devRef .tc main_arg9) := (StableHlo.after_of_forall_not_mem (b := Proc.devRef .tc main_arg9) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W10 m ρ c (Proc.devRef .tc main_arg9) := (W11_of_ne m ρ c main_arg9 (by decide))
    _ = W9 m ρ c (Proc.devRef .tc main_arg9) := (W10_of_ne m ρ c main_arg9 (by decide))
    _ = W8 m ρ c (Proc.devRef .tc main_arg9) := (StableHlo.after_of_forall_not_mem (b := Proc.devRef .tc main_arg9) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W7 m ρ c (Proc.devRef .tc main_arg9) := (W8_of_ne m ρ c main_arg9 (by decide))
    _ = W6 m ρ c (Proc.devRef .tc main_arg9) := (StableHlo.after_of_forall_not_mem (b := Proc.devRef .tc main_arg9) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg9) := (W6_of_ne m ρ c main_arg9 (by decide))
    _ = W4 m ρ c (Proc.devRef .tc main_arg9) := (W5_of_ne m ρ c main_arg9 (by decide))
    _ = W3 m ρ c (Proc.devRef .tc main_arg9) := (StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg9) := (W3_of_ne m ρ c main_arg9 (by decide))
    _ = W1 m ρ c (Proc.devRef .tc main_arg9) := (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg9) := (W1_of_ne m ρ c main_arg9 (by decide))

/-- `main_arg9` is not written between boundaries 0 and 14. -/
theorem keep_main_arg9_0_14 (c : Dev nD) : W14 m ρ c (Proc.devRef .tc main_arg9) = W0 m ρ c (Proc.devRef .tc main_arg9) :=
  calc W14 m ρ c (Proc.devRef .tc main_arg9)
    _ = W13 m ρ c (Proc.devRef .tc main_arg9) := (StableHlo.after_of_forall_not_mem (b := Proc.devRef .tc main_arg9) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W12 m ρ c (Proc.devRef .tc main_arg9) := ((W13_arr m ρ c 1).trans (((dat7 (V12 m ρ) c).arrAt_in 1 rfl _).trans (A_eq7 (V12 m ρ) c 1)))
    _ = W11 m ρ c (Proc.devRef .tc main_arg9) := (StableHlo.after_of_forall_not_mem (b := Proc.devRef .tc main_arg9) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W10 m ρ c (Proc.devRef .tc main_arg9) := (W11_of_ne m ρ c main_arg9 (by decide))
    _ = W9 m ρ c (Proc.devRef .tc main_arg9) := (W10_of_ne m ρ c main_arg9 (by decide))
    _ = W8 m ρ c (Proc.devRef .tc main_arg9) := (StableHlo.after_of_forall_not_mem (b := Proc.devRef .tc main_arg9) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W7 m ρ c (Proc.devRef .tc main_arg9) := (W8_of_ne m ρ c main_arg9 (by decide))
    _ = W6 m ρ c (Proc.devRef .tc main_arg9) := (StableHlo.after_of_forall_not_mem (b := Proc.devRef .tc main_arg9) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg9) := (W6_of_ne m ρ c main_arg9 (by decide))
    _ = W4 m ρ c (Proc.devRef .tc main_arg9) := (W5_of_ne m ρ c main_arg9 (by decide))
    _ = W3 m ρ c (Proc.devRef .tc main_arg9) := (StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg9) := (W3_of_ne m ρ c main_arg9 (by decide))
    _ = W1 m ρ c (Proc.devRef .tc main_arg9) := (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg9) := (W1_of_ne m ρ c main_arg9 (by decide))

/-- `main_arg10` is not written between boundaries 0 and 15. -/
theorem keep_main_arg10_0_15 (c : Dev nD) : W15 m ρ c (Proc.devRef .tc main_arg10) = W0 m ρ c (Proc.devRef .tc main_arg10) :=
  calc W15 m ρ c (Proc.devRef .tc main_arg10)
    _ = W14 m ρ c (Proc.devRef .tc main_arg10) := (W15_of_ne m ρ c main_arg10 (by decide))
    _ = W13 m ρ c (Proc.devRef .tc main_arg10) := (StableHlo.after_of_forall_not_mem (b := Proc.devRef .tc main_arg10) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W12 m ρ c (Proc.devRef .tc main_arg10) := (W13_of_ne m ρ c main_arg10 (by decide))
    _ = W11 m ρ c (Proc.devRef .tc main_arg10) := (StableHlo.after_of_forall_not_mem (b := Proc.devRef .tc main_arg10) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W10 m ρ c (Proc.devRef .tc main_arg10) := (W11_of_ne m ρ c main_arg10 (by decide))
    _ = W9 m ρ c (Proc.devRef .tc main_arg10) := (W10_of_ne m ρ c main_arg10 (by decide))
    _ = W8 m ρ c (Proc.devRef .tc main_arg10) := (StableHlo.after_of_forall_not_mem (b := Proc.devRef .tc main_arg10) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W7 m ρ c (Proc.devRef .tc main_arg10) := (W8_of_ne m ρ c main_arg10 (by decide))
    _ = W6 m ρ c (Proc.devRef .tc main_arg10) := (StableHlo.after_of_forall_not_mem (b := Proc.devRef .tc main_arg10) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg10) := (W6_of_ne m ρ c main_arg10 (by decide))
    _ = W4 m ρ c (Proc.devRef .tc main_arg10) := (W5_of_ne m ρ c main_arg10 (by decide))
    _ = W3 m ρ c (Proc.devRef .tc main_arg10) := (StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg10) := (W3_of_ne m ρ c main_arg10 (by decide))
    _ = W1 m ρ c (Proc.devRef .tc main_arg10) := (StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg10) := (W1_of_ne m ρ c main_arg10 (by decide))

/-- `main_arg11` is not written between boundaries 0 and 16. -/
theorem keep_main_arg11_0_16 (c : Dev nD) : W16 m ρ c (Proc.devRef .tc main_arg11) = W0 m ρ c (Proc.devRef .tc main_arg11) :=
  calc W16 m ρ c (Proc.devRef .tc main_arg11)
    _ = W15 m ρ c (Proc.devRef .tc main_arg11) := (W16_of_ne m ρ c main_arg11 (by decide))
    _ = W14 m ρ c (Proc.devRef .tc main_arg11) := (W15_of_ne m ρ c main_arg11 (by decide))
    _ = W13 m ρ c (Proc.devRef .tc main_arg11) := (StableHlo.after_of_forall_not_mem (b := Proc.devRef .tc main_arg11) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W12 m ρ c (Proc.devRef .tc main_arg11) := (W13_of_ne m ρ c main_arg11 (by decide))
    _ = W11 m ρ c (Proc.devRef .tc main_arg11) := (StableHlo.after_of_forall_not_mem (b := Proc.devRef .tc main_arg11) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W10 m ρ c (Proc.devRef .tc main_arg11) := (W11_of_ne m ρ c main_arg11 (by decide))
    _ = W9 m ρ c (Proc.devRef .tc main_arg11) := (W10_of_ne m ρ c main_arg11 (by decide))
    _ = W8 m ρ c (Proc.devRef .tc main_arg11) := (StableHlo.after_of_forall_not_mem (b := Proc.devRef .tc main_arg11) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W7 m ρ c (Proc.devRef .tc main_arg11) := (W8_of_ne m ρ c main_arg11 (by decide))
    _ = W6 m ρ c (Proc.devRef .tc main_arg11) := (StableHlo.after_of_forall_not_mem (b := Proc.devRef .tc main_arg11) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_arg11) := (W6_of_ne m ρ c main_arg11 (by decide))
    _ = W4 m ρ c (Proc.devRef .tc main_arg11) := (W5_of_ne m ρ c main_arg11 (by decide))
    _ = W3 m ρ c (Proc.devRef .tc main_arg11) := (StableHlo.after_of_forall_not_mem (b := Proc.devRef .tc main_arg11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_arg11) := (W3_of_ne m ρ c main_arg11 (by decide))
    _ = W1 m ρ c (Proc.devRef .tc main_arg11) := (StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W0 m ρ c (Proc.devRef .tc main_arg11) := (W1_of_ne m ρ c main_arg11 (by decide))

/-- `main_v13` is not written between boundaries 2 and 4. -/
theorem keep_main_v13_2_4 (c : Dev nD) : W4 m ρ c (Proc.devRef .tc main_v13) = W2 m ρ c (Proc.devRef .tc main_v13) :=
  calc W4 m ρ c (Proc.devRef .tc main_v13)
    _ = W3 m ρ c (Proc.devRef .tc main_v13) := (StableHlo.after_of_forall_not_mem (b := Proc.devRef .tc main_v13) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W2 m ρ c (Proc.devRef .tc main_v13) := ((W3_arr m ρ c 0).trans (((dat1 (V2 m ρ) c).arrAt_in 0 rfl _).trans (A_eq1 (V2 m ρ) c 0)))

/-- `main_v27` is not written between boundaries 5 and 9. -/
theorem keep_main_v27_5_9 (c : Dev nD) : W9 m ρ c (Proc.devRef .tc main_v27) = W5 m ρ c (Proc.devRef .tc main_v27) :=
  calc W9 m ρ c (Proc.devRef .tc main_v27)
    _ = W8 m ρ c (Proc.devRef .tc main_v27) := (StableHlo.after_of_forall_not_mem (b := Proc.devRef .tc main_v27) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W7 m ρ c (Proc.devRef .tc main_v27) := (W8_of_ne m ρ c main_v27 (by decide))
    _ = W6 m ρ c (Proc.devRef .tc main_v27) := (StableHlo.after_of_forall_not_mem (b := Proc.devRef .tc main_v27) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W5 m ρ c (Proc.devRef .tc main_v27) := ((W6_arr m ρ c 0).trans (((dat3 (V5 m ρ) c).arrAt_in 0 rfl _).trans (A_eq3 (V5 m ρ) c 0)))

/-- `main_v41` is not written between boundaries 7 and 9. -/
theorem keep_main_v41_7_9 (c : Dev nD) : W9 m ρ c (Proc.devRef .tc main_v41) = W7 m ρ c (Proc.devRef .tc main_v41) :=
  calc W9 m ρ c (Proc.devRef .tc main_v41)
    _ = W8 m ρ c (Proc.devRef .tc main_v41) := (StableHlo.after_of_forall_not_mem (b := Proc.devRef .tc main_v41) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W7 m ρ c (Proc.devRef .tc main_v41) := ((W8_arr m ρ c 0).trans (((dat4 (V7 m ρ) c).arrAt_in 0 rfl _).trans (A_eq4 (V7 m ρ) c 0)))

/-- `main_v55` is not written between boundaries 10 and 14. -/
theorem keep_main_v55_10_14 (c : Dev nD) : W14 m ρ c (Proc.devRef .tc main_v55) = W10 m ρ c (Proc.devRef .tc main_v55) :=
  calc W14 m ρ c (Proc.devRef .tc main_v55)
    _ = W13 m ρ c (Proc.devRef .tc main_v55) := (StableHlo.after_of_forall_not_mem (b := Proc.devRef .tc main_v55) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W12 m ρ c (Proc.devRef .tc main_v55) := (W13_of_ne m ρ c main_v55 (by decide))
    _ = W11 m ρ c (Proc.devRef .tc main_v55) := (StableHlo.after_of_forall_not_mem (b := Proc.devRef .tc main_v55) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W10 m ρ c (Proc.devRef .tc main_v55) := ((W11_arr m ρ c 0).trans (((dat6 (V10 m ρ) c).arrAt_in 0 rfl _).trans (A_eq6 (V10 m ρ) c 0)))

/-- `main_v69` is not written between boundaries 12 and 14. -/
theorem keep_main_v69_12_14 (c : Dev nD) : W14 m ρ c (Proc.devRef .tc main_v69) = W12 m ρ c (Proc.devRef .tc main_v69) :=
  calc W14 m ρ c (Proc.devRef .tc main_v69)
    _ = W13 m ρ c (Proc.devRef .tc main_v69) := (StableHlo.after_of_forall_not_mem (b := Proc.devRef .tc main_v69) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W12 m ρ c (Proc.devRef .tc main_v69) := ((W13_arr m ρ c 0).trans (((dat7 (V12 m ρ) c).arrAt_in 0 rfl _).trans (A_eq7 (V12 m ρ) c 0)))

end Cert.KernelIdeal.Keep

end
-- ==== Proof.Mm0.lean ====
/-
  The first product, X W, by blocks of rows.

  The product of an array X of n rows and k columns with an array W of k rows and m columns has at (i, j) the sum
  over c of X i c * W c j: row i of the product depends on row i of X and on the whole of W.  Here X is the input features,
  50000 rows of 512 columns, and W has 512 rows of 128 columns.  The region cuts the 50000 rows into 50 blocks of
  1000 rows.  At block t it reads rows 1000 t .. 1000 t + 999 of X and all of W, forms the 1000 by 128 product of the
  two (a change of float format is the identity on extended reals, and the product is accumulated from zero), and
  writes it to rows 1000 t .. 1000 t + 999 of the result.  Row r lies in block r / 1000, so the 50 blocks cover the
  result, which therefore ends holding X W.
-/
import proofs.«132746_j34668976013395_1_alg».proof.Proof.Gen.KernelIdeal.Frame
import proofs.«132746_j34668976013395_1_alg».proof.Proof.Net
import Idealize.ShloMosaic.Lib.Pipeline.Value
import Idealize.ShloMosaic.Lib.ValueIdx
import Idealize.ShloMosaic.PureOps.Ideal.Laws

noncomputable section

namespace Cert.KernelIdeal.Mm0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One block's product at an entry -/

/-- The left operand is read at the entry's row … -/
theorem lhs_0 (i : S1000x128.Idx) (q : dot_S1000x512_S512x128_S1000x128_1_0_0_1_n_n.contr.Idx) :
    (dot_S1000x512_S512x128_S1000x128_1_0_0_1_n_n.lhsIdx i q 0).val = (i 0).val := by
  unfold DotDims.lhsIdx
  rw [dif_neg (show ¬(0 : Fin S1000x512.rank) ∈ dot_S1000x512_S512x128_S1000x128_1_0_0_1_n_n.lhsBatch by decide), dif_pos (show (0 : Fin S1000x512.rank) ∈ dot_S1000x512_S512x128_S1000x128_1_0_0_1_n_n.lhsNonContracting by decide)]
  rfl
/-- … and at the summation index's column; -/
theorem lhs_1 (i : S1000x128.Idx) (q : dot_S1000x512_S512x128_S1000x128_1_0_0_1_n_n.contr.Idx) :
    (dot_S1000x512_S512x128_S1000x128_1_0_0_1_n_n.lhsIdx i q 1).val = (q ⟨0, by decide⟩).val :=
  dot_S1000x512_S512x128_S1000x128_1_0_0_1_n_n.lhsIdx_val_of_single rfl i q
/-- the right operand at the summation index's row … -/
theorem rhs_0 (i : S1000x128.Idx) (q : dot_S1000x512_S512x128_S1000x128_1_0_0_1_n_n.contr.Idx) :
    (dot_S1000x512_S512x128_S1000x128_1_0_0_1_n_n.rhsIdx i q 0).val = (q ⟨0, by decide⟩).val :=
  dot_S1000x512_S512x128_S1000x128_1_0_0_1_n_n.rhsIdx_val_of_single rfl i q
/-- … and at the entry's column. -/
theorem rhs_1 (i : S1000x128.Idx) (q : dot_S1000x512_S512x128_S1000x128_1_0_0_1_n_n.contr.Idx) :
    (dot_S1000x512_S512x128_S1000x128_1_0_0_1_n_n.rhsIdx i q 1).val = (i 1).val := by
  unfold DotDims.rhsIdx
  rw [dif_neg (show ¬(1 : Fin S512x128.rank) ∈ dot_S1000x512_S512x128_S1000x128_1_0_0_1_n_n.rhsBatch by decide), dif_pos (show (1 : Fin S512x128.rank) ∈ dot_S1000x512_S512x128_S1000x128_1_0_0_1_n_n.rhsNonContracting by decide)]
  rfl

/-- What the body stores, at an entry: the sum over the 512 columns of the row block against the rows of W. -/
theorem pay_apply (x0 : Vec Ideal S1000x512 .f32) (x1 : Vec Ideal S512x128 .f32) (j : S1000x128.Idx) :
    k0_pay1 (F := Ideal) x0 x1 j = ∑ k : Fin 512, x0 (ix2 (j 0) k) * x1 (ix2 k (j 1)) := by
  unfold k0_pay1
  refine (Ideal.matmul_constant_zero_apply dot_S1000x512_S512x128_S1000x128_1_0_0_1_n_n none _ _ j).trans ?_
  rw [← Equiv.sum_comp (contrEquiv1 dot_S1000x512_S512x128_S1000x128_1_0_0_1_n_n 512 rfl rfl).symm]
  refine Finset.sum_congr rfl fun k _ => ?_
  have hk := contrEquiv1_symm_val dot_S1000x512_S512x128_S1000x128_1_0_0_1_n_n 512 rfl rfl k
  have el : dot_S1000x512_S512x128_S1000x128_1_0_0_1_n_n.lhsIdx j ((contrEquiv1 dot_S1000x512_S512x128_S1000x128_1_0_0_1_n_n 512 rfl rfl).symm k) = ix2 (j 0) k := funext fun a => Fin.ext (by
    match a with
    | ⟨0, _⟩ => exact lhs_0 _ _
    | ⟨1, _⟩ => exact (lhs_1 _ _).trans hk)
  have er : dot_S1000x512_S512x128_S1000x128_1_0_0_1_n_n.rhsIdx j ((contrEquiv1 dot_S1000x512_S512x128_S1000x128_1_0_0_1_n_n 512 rfl rfl).symm k) = ix2 k (j 1) := funext fun a => Fin.ext (by
    match a with
    | ⟨0, _⟩ => exact (rhs_0 _ _).trans hk
    | ⟨1, _⟩ => exact rhs_1 _ _)
  rw [truncf_apply, truncf_apply, el, er]
  rfl

/-- A block of rows of X against W gives those rows of X W: if entry y of the block sits at entry i of the
    result, the block's row (y 0) is row (i 0) of X, and column (y 1) of the block's W is column (i 1) of W. -/
theorem point_eq (X : Net.Mat 50000 512) (W : Net.Mat 512 128) (x0 : Vec Ideal S1000x512 .f32) (x1 : Vec Ideal S512x128 .f32)
    (y : S1000x128.Idx) (i : S50000x128.Idx)
    (h0 : ∀ k : Fin 512, x0 (ix2 (y 0) k) = X (ix2 (i 0) k))
    (h1 : ∀ k : Fin 512, x1 (ix2 k (y 1)) = W (ix2 k (i 1))) :
    k0_pay1 (F := Ideal) x0 x1 y = Net.mm X W i := by
  rw [pay_apply]
  unfold Net.mm
  exact Finset.sum_congr rfl fun k _ => by rw [h0 k, h1 k]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where the blocks sit, over the 50 points: block t of X and of the result is the t-th block of rows, all
    columns; W's block is the whole of W. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of X W. -/
theorem flushed_eq (c : Dev nD) (t : Fin cfg0.N) :
    (dat0 (F := Ideal) V c).flushed 2 t
      = ((cfg0.win 2).blk t).view.read (Elt Ideal)
          (Net.mm (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S1000x512) hz, View.ld_unit_zero (S := S512x128) hz]
  obtain ⟨e0, e1, e2, e3, e4, e5⟩ := idx_facts t
  funext j
  refine point_eq (V c (Pipeline.arrRef spec0 0)) (V c (Pipeline.arrRef spec0 1)) (iblk0 V c 0 t) (iblk0 V c 1 t)
    ((cfg0.win 2).xinj (grid0.coords t) j) (((cfg0.win 2).blk t).view.emb j) ?_ ?_
  · intro k
    unfold iblk0
    rw [View.read_apply]
    show V c (Pipeline.arrRef spec0 0) _ = V c (Pipeline.arrRef spec0 0) _
    refine congrArg _ (funext fun a => Fin.ext ?_)
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 512 + 1 * k.val = k.val; omega
  · intro k
    unfold iblk0
    rw [View.read_apply]
    show V c (Pipeline.arrRef spec0 1) _ = V c (Pipeline.arrRef spec0 1) _
    refine congrArg _ (funext fun a => Fin.ext ?_)
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega

/-- An entry of the result is in point t's block iff each coordinate is in the block's range on its axis. -/
theorem mem_blk (t : Fin cfg0.N) (i : S50000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v0).slice (win0_2.rect t)).set ↔ _
  rw [View.set_slice_whole, Rect.mem_set_unit]
  exact Iff.rfl

/-- Row r of the result is in the block of point r / 1000, which writes back. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 50 := N_0
  let t : Fin cfg0.N := ⟨(i 0).val / 1000, by rw [hN]; omega⟩
  obtain ⟨e0, e1, e2, e3, e4, e5⟩ := idx_facts t
  refine ⟨t, flush0_2 t, ?_⟩
  rw [mem_blk]
  intro a
  have ht : t.val = (i 0).val / 1000 := rfl
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- After the region the result array holds X W, of X and W as the region finds them. -/
theorem final (c : Dev nD) :
    (dat0 (F := Ideal) V c).arrAt 2 cfg0.N
      = Net.mm (V c (Pipeline.arrRef spec0 0)) (V c (Pipeline.arrRef spec0 1)) :=
  (dat0 (F := Ideal) V c).arrAt_eq_of_cover 2 _ (fun t _ => flushed_eq V c t) cover

end Cert.KernelIdeal.Mm0

end
-- ==== Proof.Mm3.lean ====
/-
  The second product, X W, by blocks of rows.

  The product of an array X of n rows and k columns with an array W of k rows and m columns has at (i, j) the sum
  over c of X i c * W c j: row i of the product depends on row i of X and on the whole of W.  Here X is the first layer's output,
  50000 rows of 128 columns, and W has 128 rows of 128 columns.  The region cuts the 50000 rows into 50 blocks of
  1000 rows.  At block t it reads rows 1000 t .. 1000 t + 999 of X and all of W, forms the 1000 by 128 product of the
  two (a change of float format is the identity on extended reals, and the product is accumulated from zero), and
  writes it to rows 1000 t .. 1000 t + 999 of the result.  Row r lies in block r / 1000, so the 50 blocks cover the
  result, which therefore ends holding X W.
-/
import proofs.«132746_j34668976013395_1_alg».proof.Proof.Gen.KernelIdeal.Frame
import proofs.«132746_j34668976013395_1_alg».proof.Proof.Net
import Idealize.ShloMosaic.Lib.Pipeline.Value
import Idealize.ShloMosaic.Lib.ValueIdx
import Idealize.ShloMosaic.PureOps.Ideal.Laws

noncomputable section

namespace Cert.KernelIdeal.Mm3

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One block's product at an entry -/

/-- The left operand is read at the entry's row … -/
theorem lhs_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- … and at the summation index's column; -/
theorem lhs_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- the right operand at the summation index's row … -/
theorem rhs_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- … and at the entry's column. -/
theorem rhs_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- What the body stores, at an entry: the sum over the 128 columns of the row block against the rows of W. -/
theorem pay_apply (x0 : Vec Ideal S1000x128 .f32) (x1 : Vec Ideal S128x128 .f32) (j : S1000x128.Idx) :
    k3_pay1 (F := Ideal) x0 x1 j = ∑ k : Fin 128, x0 (ix2 (j 0) k) * x1 (ix2 k (j 1)) := by
  unfold k3_pay1
  refine (Ideal.matmul_constant_zero_apply dot_S1000x128_S128x128_S1000x128_1_0_0_1_n_n none _ _ j).trans ?_
  rw [← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx j ((contrEquiv1 dot_S1000x128_S128x128_S1000x128_1_0_0_1_n_n 128 rfl rfl).symm k) = ix2 (j 0) k := funext fun a => Fin.ext (by
    match a with
    | ⟨0, _⟩ => exact lhs_0 _ _
    | ⟨1, _⟩ => exact (lhs_1 _ _).trans hk)
  have er : dot_S1000x128_S128x128_S1000x128_1_0_0_1_n_n.rhsIdx j ((contrEquiv1 dot_S1000x128_S128x128_S1000x128_1_0_0_1_n_n 128 rfl rfl).symm k) = ix2 k (j 1) := funext fun a => Fin.ext (by
    match a with
    | ⟨0, _⟩ => exact (rhs_0 _ _).trans hk
    | ⟨1, _⟩ => exact rhs_1 _ _)
  rw [truncf_apply, truncf_apply, shapeCast_self, el, er]
  rfl

/-- A block of rows of X against W gives those rows of X W: if entry y of the block sits at entry i of the
    result, the block's row (y 0) is row (i 0) of X, and column (y 1) of the block's W is column (i 1) of W. -/
theorem point_eq (X : Net.Mat 50000 128) (W : Net.Mat 128 128) (x0 : Vec Ideal S1000x128 .f32) (x1 : Vec Ideal S128x128 .f32)
    (y : S1000x128.Idx) (i : S50000x128.Idx)
    (h0 : ∀ k : Fin 128, x0 (ix2 (y 0) k) = X (ix2 (i 0) k))
    (h1 : ∀ k : Fin 128, x1 (ix2 k (y 1)) = W (ix2 k (i 1))) :
    k3_pay1 (F := Ideal) x0 x1 y = Net.mm X W i := by
  rw [pay_apply]
  unfold Net.mm
  exact Finset.sum_congr rfl fun k _ => by rw [h0 k, h1 k]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where the blocks sit, over the 50 points: block t of X and of the result is the t-th block of rows, all
    columns; W's block is the whole of W. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of X W. -/
theorem flushed_eq (c : Dev nD) (t : Fin cfg3.N) :
    (dat3 (F := Ideal) V c).flushed 2 t
      = ((cfg3.win 2).blk t).view.read (Elt Ideal)
          (Net.mm (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S1000x128) hz, View.ld_unit_zero (S := S128x128) hz]
  obtain ⟨e0, e1, e2, e3, e4, e5⟩ := idx_facts t
  funext j
  refine point_eq (V c (Pipeline.arrRef spec3 0)) (V c (Pipeline.arrRef spec3 1)) (iblk3 V c 0 t) (iblk3 V c 1 t)
    ((cfg3.win 2).xinj (grid3.coords t) j) (((cfg3.win 2).blk t).view.emb j) ?_ ?_
  · intro k
    unfold iblk3
    rw [View.read_apply]
    show V c (Pipeline.arrRef spec3 0) _ = V c (Pipeline.arrRef spec3 0) _
    refine congrArg _ (funext fun a => Fin.ext ?_)
    match a with
    | ⟨0, _⟩ => show win3_0.index t (0 : Fin 2) * 1000 + 1 * (j 0).val = win3_2.index t (0 : Fin 2) * 1000 + 1 * (j 0).val; omega
    | ⟨1, _⟩ => show win3_0.index t (1 : Fin 2) * 128 + 1 * k.val = k.val; omega
  · intro k
    unfold iblk3
    rw [View.read_apply]
    show V c (Pipeline.arrRef spec3 1) _ = V c (Pipeline.arrRef spec3 1) _
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega

/-- An entry of the result is in point t's block iff each coordinate is in the block's range on its axis. -/
theorem mem_blk (t : Fin cfg3.N) (i : S50000x128.Idx) :
    i ∈ ((cfg3.win 2).blk t).view.set ↔ ∀ a : Fin 2, win3_2.index t a * S1000x128.size a ≤ (i a).val ∧ (i a).val < win3_2.index t a * S1000x128.size a + S1000x128.size a := by
  show i ∈ ((View.whole main_v28).slice (win3_2.rect t)).set ↔ _
  rw [View.set_slice_whole, Rect.mem_set_unit]
  exact Iff.rfl

/-- Row r of the result is in the block of point r / 1000, which writes back. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 50 := N_3
  let t : Fin cfg3.N := ⟨(i 0).val / 1000, by rw [hN]; omega⟩
  obtain ⟨e0, e1, e2, e3, e4, e5⟩ := idx_facts t
  refine ⟨t, flush3_2 t, ?_⟩
  rw [mem_blk]
  intro a
  have ht : t.val = (i 0).val / 1000 := rfl
  match a with
  | ⟨0, _⟩ => show win3_2.index t (0 : Fin 2) * 1000 ≤ (i 0).val ∧ (i 0).val < win3_2.index t (0 : Fin 2) * 1000 + 1000; omega
  | ⟨1, _⟩ => show win3_2.index t (1 : Fin 2) * 128 ≤ (i 1).val ∧ (i 1).val < win3_2.index t (1 : Fin 2) * 128 + 128; omega

/-- After the region the result array holds X W, of X and W as the region finds them. -/
theorem final (c : Dev nD) :
    (dat3 (F := Ideal) V c).arrAt 2 cfg3.N
      = Net.mm (V c (Pipeline.arrRef spec3 0)) (V c (Pipeline.arrRef spec3 1)) :=
  (dat3 (F := Ideal) V c).arrAt_eq_of_cover 2 _ (fun t _ => flushed_eq V c t) cover

end Cert.KernelIdeal.Mm3

end
-- ==== Proof.Mm6.lean ====
/-
  The third product, X W, by blocks of rows.

  The product of an array X of n rows and k columns with an array W of k rows and m columns has at (i, j) the sum
  over c of X i c * W c j: row i of the product depends on row i of X and on the whole of W.  Here X is the second layer's output,
  50000 rows of 128 columns, and W has 128 rows of 128 columns.  The region cuts the 50000 rows into 50 blocks of
  1000 rows.  At block t it reads rows 1000 t .. 1000 t + 999 of X and all of W, forms the 1000 by 128 product of the
  two (a change of float format is the identity on extended reals, and the product is accumulated from zero), and
  writes it to rows 1000 t .. 1000 t + 999 of the result.  Row r lies in block r / 1000, so the 50 blocks cover the
  result, which therefore ends holding X W.
-/
import proofs.«132746_j34668976013395_1_alg».proof.Proof.Gen.KernelIdeal.Frame
import proofs.«132746_j34668976013395_1_alg».proof.Proof.Net
import Idealize.ShloMosaic.Lib.Pipeline.Value
import Idealize.ShloMosaic.Lib.ValueIdx
import Idealize.ShloMosaic.PureOps.Ideal.Laws

noncomputable section

namespace Cert.KernelIdeal.Mm6

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One block's product at an entry -/

/-- The left operand is read at the entry's row … -/
theorem lhs_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- … and at the summation index's column; -/
theorem lhs_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- the right operand at the summation index's row … -/
theorem rhs_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- … and at the entry's column. -/
theorem rhs_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- What the body stores, at an entry: the sum over the 128 columns of the row block against the rows of W. -/
theorem pay_apply (x0 : Vec Ideal S1000x128 .f32) (x1 : Vec Ideal S128x128 .f32) (j : S1000x128.Idx) :
    k6_pay1 (F := Ideal) x0 x1 j = ∑ k : Fin 128, x0 (ix2 (j 0) k) * x1 (ix2 k (j 1)) := by
  unfold k6_pay1
  refine (Ideal.matmul_constant_zero_apply dot_S1000x128_S128x128_S1000x128_1_0_0_1_n_n none _ _ j).trans ?_
  rw [← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx j ((contrEquiv1 dot_S1000x128_S128x128_S1000x128_1_0_0_1_n_n 128 rfl rfl).symm k) = ix2 (j 0) k := funext fun a => Fin.ext (by
    match a with
    | ⟨0, _⟩ => exact lhs_0 _ _
    | ⟨1, _⟩ => exact (lhs_1 _ _).trans hk)
  have er : dot_S1000x128_S128x128_S1000x128_1_0_0_1_n_n.rhsIdx j ((contrEquiv1 dot_S1000x128_S128x128_S1000x128_1_0_0_1_n_n 128 rfl rfl).symm k) = ix2 k (j 1) := funext fun a => Fin.ext (by
    match a with
    | ⟨0, _⟩ => exact (rhs_0 _ _).trans hk
    | ⟨1, _⟩ => exact rhs_1 _ _)
  rw [truncf_apply, truncf_apply, shapeCast_self, el, er]
  rfl

/-- A block of rows of X against W gives those rows of X W: if entry y of the block sits at entry i of the
    result, the block's row (y 0) is row (i 0) of X, and column (y 1) of the block's W is column (i 1) of W. -/
theorem point_eq (X : Net.Mat 50000 128) (W : Net.Mat 128 128) (x0 : Vec Ideal S1000x128 .f32) (x1 : Vec Ideal S128x128 .f32)
    (y : S1000x128.Idx) (i : S50000x128.Idx)
    (h0 : ∀ k : Fin 128, x0 (ix2 (y 0) k) = X (ix2 (i 0) k))
    (h1 : ∀ k : Fin 128, x1 (ix2 k (y 1)) = W (ix2 k (i 1))) :
    k6_pay1 (F := Ideal) x0 x1 y = Net.mm X W i := by
  rw [pay_apply]
  unfold Net.mm
  exact Finset.sum_congr rfl fun k _ => by rw [h0 k, h1 k]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where the blocks sit, over the 50 points: block t of X and of the result is the t-th block of rows, all
    columns; W's block is the whole of W. -/
theorem idx_facts : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- What point t writes back is block t of X W. -/
theorem flushed_eq (c : Dev nD) (t : Fin cfg6.N) :
    (dat6 (F := Ideal) V c).flushed 2 t
      = ((cfg6.win 2).blk t).view.read (Elt Ideal)
          (Net.mm (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S1000x128) hz, View.ld_unit_zero (S := S128x128) hz]
  obtain ⟨e0, e1, e2, e3, e4, e5⟩ := idx_facts t
  funext j
  refine point_eq (V c (Pipeline.arrRef spec6 0)) (V c (Pipeline.arrRef spec6 1)) (iblk6 V c 0 t) (iblk6 V c 1 t)
    ((cfg6.win 2).xinj (grid6.coords t) j) (((cfg6.win 2).blk t).view.emb j) ?_ ?_
  · intro k
    unfold iblk6
    rw [View.read_apply]
    show V c (Pipeline.arrRef spec6 0) _ = V c (Pipeline.arrRef spec6 0) _
    refine congrArg _ (funext fun a => Fin.ext ?_)
    match a with
    | ⟨0, _⟩ => show win6_0.index t (0 : Fin 2) * 1000 + 1 * (j 0).val = win6_2.index t (0 : Fin 2) * 1000 + 1 * (j 0).val; omega
    | ⟨1, _⟩ => show win6_0.index t (1 : Fin 2) * 128 + 1 * k.val = k.val; omega
  · intro k
    unfold iblk6
    rw [View.read_apply]
    show V c (Pipeline.arrRef spec6 1) _ = V c (Pipeline.arrRef spec6 1) _
    refine congrArg _ (funext fun a => Fin.ext ?_)
    match a with
    | ⟨0, _⟩ => show win6_1.index t (0 : Fin 2) * 128 + 1 * k.val = k.val; omega
    | ⟨1, _⟩ => show win6_1.index t (1 : Fin 2) * 128 + 1 * (j 1).val = win6_2.index t (1 : Fin 2) * 128 + 1 * (j 1).val; omega

/-- An entry of the result is in point t's block iff each coordinate is in the block's range on its axis. -/
theorem mem_blk (t : Fin cfg6.N) (i : S50000x128.Idx) :
    i ∈ ((cfg6.win 2).blk t).view.set ↔ ∀ a : Fin 2, win6_2.index t a * S1000x128.size a ≤ (i a).val ∧ (i a).val < win6_2.index t a * S1000x128.size a + S1000x128.size a := by
  show i ∈ ((View.whole main_v56).slice (win6_2.rect t)).set ↔ _
  rw [View.set_slice_whole, Rect.mem_set_unit]
  exact Iff.rfl

/-- Row r of the result is in the block of point r / 1000, which writes back. -/
theorem cover (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 50 := N_6
  let t : Fin cfg6.N := ⟨(i 0).val / 1000, by rw [hN]; omega⟩
  obtain ⟨e0, e1, e2, e3, e4, e5⟩ := idx_facts t
  refine ⟨t, flush6_2 t, ?_⟩
  rw [mem_blk]
  intro a
  have ht : t.val = (i 0).val / 1000 := rfl
  match a with
  | ⟨0, _⟩ => show win6_2.index t (0 : Fin 2) * 1000 ≤ (i 0).val ∧ (i 0).val < win6_2.index t (0 : Fin 2) * 1000 + 1000; omega
  | ⟨1, _⟩ => show win6_2.index t (1 : Fin 2) * 128 ≤ (i 1).val ∧ (i 1).val < win6_2.index t (1 : Fin 2) * 128 + 128; omega

/-- After the region the result array holds X W, of X and W as the region finds them. -/
theorem final (c : Dev nD) :
    (dat6 (F := Ideal) V c).arrAt 2 cfg6.N
      = Net.mm (V c (Pipeline.arrRef spec6 0)) (V c (Pipeline.arrRef spec6 1)) :=
  (dat6 (F := Ideal) V c).arrAt_eq_of_cover 2 _ (fun t _ => flushed_eq V c t) cover

end Cert.KernelIdeal.Mm6

end
-- ==== Proof.Mm9.lean ====
/-
  The last product, X W, by blocks of rows.

  The product of an array X of n rows and k columns with an array W of k rows and m columns has at (i, j) the sum
  over c of X i c * W c j: row i of the product depends on row i of X and on the whole of W.  Here X is the third layer's output,
  50000 rows of 128 columns, and W has 128 rows of 40 columns.  The region cuts the 50000 rows into 50 blocks of
  1000 rows.  At block t it reads rows 1000 t .. 1000 t + 999 of X and all of W, forms the 1000 by 40 product of the
  two (a change of float format is the identity on extended reals, and the product is accumulated from zero), and
  writes it to rows 1000 t .. 1000 t + 999 of the result.  Row r lies in block r / 1000, so the 50 blocks cover the
  result, which therefore ends holding X W.
-/
import proofs.«132746_j34668976013395_1_alg».proof.Proof.Gen.KernelIdeal.Frame
import proofs.«132746_j34668976013395_1_alg».proof.Proof.Net
import Idealize.ShloMosaic.Lib.Pipeline.Value
import Idealize.ShloMosaic.Lib.ValueIdx
import Idealize.ShloMosaic.PureOps.Ideal.Laws

noncomputable section

namespace Cert.KernelIdeal.Mm9

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One block's product at an entry -/

/-- The left operand is read at the entry's row … -/
theorem lhs_0 (i : S1000x40.Idx) (q : dot_S1000x128_S128x40_S1000x40_1_0_0_1_n_n.contr.Idx) :
    (dot_S1000x128_S128x40_S1000x40_1_0_0_1_n_n.lhsIdx i q 0).val = (i 0).val := by
  unfold DotDims.lhsIdx
  rw [dif_neg (show ¬(0 : Fin S1000x128.rank) ∈ dot_S1000x128_S128x40_S1000x40_1_0_0_1_n_n.lhsBatch by decide), dif_pos (show (0 : Fin S1000x128.rank) ∈ dot_S1000x128_S128x40_S1000x40_1_0_0_1_n_n.lhsNonContracting by decide)]
  rfl
/-- … and at the summation index's column; -/
theorem lhs_1 (i : S1000x40.Idx) (q : dot_S1000x128_S128x40_S1000x40_1_0_0_1_n_n.contr.Idx) :
    (dot_S1000x128_S128x40_S1000x40_1_0_0_1_n_n.lhsIdx i q 1).val = (q ⟨0, by decide⟩).val :=
  dot_S1000x128_S128x40_S1000x40_1_0_0_1_n_n.lhsIdx_val_of_single rfl i q
/-- the right operand at the summation index's row … -/
theorem rhs_0 (i : S1000x40.Idx) (q : dot_S1000x128_S128x40_S1000x40_1_0_0_1_n_n.contr.Idx) :
    (dot_S1000x128_S128x40_S1000x40_1_0_0_1_n_n.rhsIdx i q 0).val = (q ⟨0, by decide⟩).val :=
  dot_S1000x128_S128x40_S1000x40_1_0_0_1_n_n.rhsIdx_val_of_single rfl i q
/-- … and at the entry's column. -/
theorem rhs_1 (i : S1000x40.Idx) (q : dot_S1000x128_S128x40_S1000x40_1_0_0_1_n_n.contr.Idx) :
    (dot_S1000x128_S128x40_S1000x40_1_0_0_1_n_n.rhsIdx i q 1).val = (i 1).val := by
  unfold DotDims.rhsIdx
  rw [dif_neg (show ¬(1 : Fin S128x40.rank) ∈ dot_S1000x128_S128x40_S1000x40_1_0_0_1_n_n.rhsBatch by decide), dif_pos (show (1 : Fin S128x40.rank) ∈ dot_S1000x128_S128x40_S1000x40_1_0_0_1_n_n.rhsNonContracting by decide)]
  rfl

/-- What the body stores, at an entry: the sum over the 128 columns of the row block against the rows of W. -/
theorem pay_apply (x0 : Vec Ideal S1000x128 .f32) (x1 : Vec Ideal S128x40 .f32) (j : S1000x40.Idx) :
    k9_pay1 (F := Ideal) x0 x1 j = ∑ k : Fin 128, x0 (ix2 (j 0) k) * x1 (ix2 k (j 1)) := by
  unfold k9_pay1
  refine (Ideal.matmul_constant_zero_apply dot_S1000x128_S128x40_S1000x40_1_0_0_1_n_n none _ _ j).trans ?_
  rw [← Equiv.sum_comp (contrEquiv1 dot_S1000x128_S128x40_S1000x40_1_0_0_1_n_n 128 rfl rfl).symm]
  refine Finset.sum_congr rfl fun k _ => ?_
  have hk := contrEquiv1_symm_val dot_S1000x128_S128x40_S1000x40_1_0_0_1_n_n 128 rfl rfl k
  have el : dot_S1000x128_S128x40_S1000x40_1_0_0_1_n_n.lhsIdx j ((contrEquiv1 dot_S1000x128_S128x40_S1000x40_1_0_0_1_n_n 128 rfl rfl).symm k) = ix2 (j 0) k := funext fun a => Fin.ext (by
    match a with
    | ⟨0, _⟩ => exact lhs_0 _ _
    | ⟨1, _⟩ => exact (lhs_1 _ _).trans hk)
  have er : dot_S1000x128_S128x40_S1000x40_1_0_0_1_n_n.rhsIdx j ((contrEquiv1 dot_S1000x128_S128x40_S1000x40_1_0_0_1_n_n 128 rfl rfl).symm k) = ix2 k (j 1) := funext fun a => Fin.ext (by
    match a with
    | ⟨0, _⟩ => exact (rhs_0 _ _).trans hk
    | ⟨1, _⟩ => exact rhs_1 _ _)
  rw [truncf_apply, truncf_apply, shapeCast_self, el, er]
  rfl

/-- A block of rows of X against W gives those rows of X W: if entry y of the block sits at entry i of the
    result, the block's row (y 0) is row (i 0) of X, and column (y 1) of the block's W is column (i 1) of W. -/
theorem point_eq (X : Net.Mat 50000 128) (W : Net.Mat 128 40) (x0 : Vec Ideal S1000x128 .f32) (x1 : Vec Ideal S128x40 .f32)
    (y : S1000x40.Idx) (i : S50000x40.Idx)
    (h0 : ∀ k : Fin 128, x0 (ix2 (y 0) k) = X (ix2 (i 0) k))
    (h1 : ∀ k : Fin 128, x1 (ix2 k (y 1)) = W (ix2 k (i 1))) :
    k9_pay1 (F := Ideal) x0 x1 y = Net.mm X W i := by
  rw [pay_apply]
  unfold Net.mm
  exact Finset.sum_congr rfl fun k _ => by rw [h0 k, h1 k]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where the blocks sit, over the 50 points: block t of X and of the result is the t-th block of rows, all
    columns; W's block is the whole of W. -/
theorem idx_facts : ∀ t : Fin cfg9.N, win9_0.index t (0 : Fin 2) = t.val
    ∧ win9_0.index t (1 : Fin 2) = 0
    ∧ win9_1.index t (0 : Fin 2) = 0
    ∧ win9_1.index t (1 : Fin 2) = 0
    ∧ win9_2.index t (0 : Fin 2) = t.val
    ∧ win9_2.index t (1 : Fin 2) = 0 :=
  (by decide +kernel : ∀ t : Fin grid9.N, _)

/-- What point t writes back is block t of X W. -/
theorem flushed_eq (c : Dev nD) (t : Fin cfg9.N) :
    (dat9 (F := Ideal) V c).flushed 2 t
      = ((cfg9.win 2).blk t).view.read (Elt Ideal)
          (Net.mm (V c (Pipeline.arrRef spec9 0)) (V c (Pipeline.arrRef spec9 1))) := by
  show (cfg9.win 2).cut (grid9.coords t) ((dat9 V c).after 2 t) = _
  rw [after9_2]
  unfold out9_2
  rw [View.canon_unit_zero hz]
  simp only [View.ld_unit_zero (S := S1000x128) hz, View.ld_unit_zero (S := S128x40) hz]
  obtain ⟨e0, e1, e2, e3, e4, e5⟩ := idx_facts t
  funext j
  refine point_eq (V c (Pipeline.arrRef spec9 0)) (V c (Pipeline.arrRef spec9 1)) (iblk9 V c 0 t) (iblk9 V c 1 t)
    ((cfg9.win 2).xinj (grid9.coords t) j) (((cfg9.win 2).blk t).view.emb j) ?_ ?_
  · intro k
    unfold iblk9
    rw [View.read_apply]
    show V c (Pipeline.arrRef spec9 0) _ = V c (Pipeline.arrRef spec9 0) _
    refine congrArg _ (funext fun a => Fin.ext ?_)
    match a with
    | ⟨0, _⟩ => show win9_0.index t (0 : Fin 2) * 1000 + 1 * (j 0).val = win9_2.index t (0 : Fin 2) * 1000 + 1 * (j 0).val; omega
    | ⟨1, _⟩ => show win9_0.index t (1 : Fin 2) * 128 + 1 * k.val = k.val; omega
  · intro k
    unfold iblk9
    rw [View.read_apply]
    show V c (Pipeline.arrRef spec9 1) _ = V c (Pipeline.arrRef spec9 1) _
    refine congrArg _ (funext fun a => Fin.ext ?_)
    match a with
    | ⟨0, _⟩ => show win9_1.index t (0 : Fin 2) * 128 + 1 * k.val = k.val; omega
    | ⟨1, _⟩ => show win9_1.index t (1 : Fin 2) * 40 + 1 * (j 1).val = win9_2.index t (1 : Fin 2) * 40 + 1 * (j 1).val; omega

/-- An entry of the result is in point t's block iff each coordinate is in the block's range on its axis. -/
theorem mem_blk (t : Fin cfg9.N) (i : S50000x40.Idx) :
    i ∈ ((cfg9.win 2).blk t).view.set ↔ ∀ a : Fin 2, win9_2.index t a * S1000x40.size a ≤ (i a).val ∧ (i a).val < win9_2.index t a * S1000x40.size a + S1000x40.size a := by
  show i ∈ ((View.whole main_v84).slice (win9_2.rect t)).set ↔ _
  rw [View.set_slice_whole, Rect.mem_set_unit]
  exact Iff.rfl

/-- Row r of the result is in the block of point r / 1000, which writes back. -/
theorem cover (i : S50000x40.Idx) : ∃ t : Fin cfg9.N, (cfg9.win 2).flush t = true ∧ i ∈ ((cfg9.win 2).blk t).view.set := by
  have hi0 : (i 0).val < 50000 := (i 0).isLt
  have hi1 : (i 1).val < 40 := (i 1).isLt
  have hN : cfg9.N = 50 := N_9
  let t : Fin cfg9.N := ⟨(i 0).val / 1000, by rw [hN]; omega⟩
  obtain ⟨e0, e1, e2, e3, e4, e5⟩ := idx_facts t
  refine ⟨t, flush9_2 t, ?_⟩
  rw [mem_blk]
  intro a
  have ht : t.val = (i 0).val / 1000 := rfl
  match a with
  | ⟨0, _⟩ => show win9_2.index t (0 : Fin 2) * 1000 ≤ (i 0).val ∧ (i 0).val < win9_2.index t (0 : Fin 2) * 1000 + 1000; omega
  | ⟨1, _⟩ => show win9_2.index t (1 : Fin 2) * 40 ≤ (i 1).val ∧ (i 1).val < win9_2.index t (1 : Fin 2) * 40 + 40; omega

/-- After the region the result array holds X W, of X and W as the region finds them. -/
theorem final (c : Dev nD) :
    (dat9 (F := Ideal) V c).arrAt 2 cfg9.N
      = Net.mm (V c (Pipeline.arrRef spec9 0)) (V c (Pipeline.arrRef spec9 1)) :=
  (dat9 (F := Ideal) V c).arrAt_eq_of_cover 2 _ (fun t _ => flushed_eq V c t) cover

end Cert.KernelIdeal.Mm9

end
-- ==== Proof.Pn2.lean ====
/-
  The first layer's pointwise pass, by blocks of rows.

  With a bias row b, a row cm of column means and one number inv, the pass sends the entry A i j to
  max(((A i j + b j) - cm j) * inv, 0): an entry of the result depends on the same entry of A, on column j of the two
  rows and on inv.  The region cuts the 50000 rows into 50 blocks of 1000 rows; at block t it reads rows
  1000 t .. 1000 t + 999 of A and the whole of b, cm and inv (each laid along the block's rows), and writes rows
  1000 t .. 1000 t + 999 of the result.  Row r lies in block r / 1000, so the 50 blocks cover the result, which
  therefore ends holding the pass of A.
-/
import proofs.«132746_j34668976013395_1_alg».proof.Proof.Gen.KernelIdeal.Frame
import proofs.«132746_j34668976013395_1_alg».proof.Proof.Net
import Idealize.ShloMosaic.Lib.Pipeline.Value
import Idealize.ShloMosaic.Lib.ValueIdx
import Idealize.ShloMosaic.PureOps.Ideal.Laws

noncomputable section

namespace Cert.KernelIdeal.Pn2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One block's pass at an entry -/

/-- A row of 128 laid along the 1000 rows of a block reads, at an entry, the row's entry in that column. -/
theorem row_apply (v : Vec Ideal S1x128 .f32) (j : S1000x128.Idx) :
    broadcastTo S1000x128 v broadcasts_S1x128_S1000x128 j = v (ix2 0 (j 1)) :=
  broadcastTo_apply v broadcasts_S1x128_S1000x128 j (ix2 0 (j 1)) (fun a => by
    match a with
    | ⟨0, _⟩ => rfl
    | ⟨1, _⟩ => rfl)

/-- One number laid over a block reads that number at every entry. -/
theorem one_apply (v : Vec Ideal S1x1 .f32) (j : S1000x128.Idx) :
    broadcastTo S1000x128 v broadcasts_S1x1_S1000x128 j = v (ix2 0 0) :=
  broadcastTo_apply v broadcasts_S1x1_S1000x128 j (ix2 0 0) (fun a => by
    match a with
    | ⟨0, _⟩ => rfl
    | ⟨1, _⟩ => rfl)

/-- What the body stores, at an entry. -/
theorem pay_apply (v0 : Vec Ideal S1000x128 .f32) (v2 v5 : Vec Ideal S1x128 .f32) (v9 : Vec Ideal S1x1 .f32) (j : S1000x128.Idx) :
    k2_pay1 (F := Ideal) v0 v2 v5 v9 j = max (((v0 j + v2 (ix2 0 (j 1))) - v5 (ix2 0 (j 1))) * v9 (ix2 0 0)) 0 := by
  unfold k2_pay1
  show max (((shapeCast S1000x128 v0 shapeCasts_S1000x128_S1000x128 j + broadcastTo S1000x128 v2 broadcasts_S1x128_S1000x128 j)
      - broadcastTo S1000x128 (shapeCast S1x128 v5 shapeCasts_S1x128_S1x128) broadcasts_S1x128_S1000x128 j)
      * broadcastTo S1000x128 (shapeCast S1x1 v9 shapeCasts_S1x1_S1x1) broadcasts_S1x1_S1000x128 j) (Ideal.ofBits .f32 0x00000000#32) = _
  rw [shapeCast_self, shapeCast_self, shapeCast_self, row_apply, row_apply, one_apply, Ideal.ofBits_zero_f32]

/-- A block of rows of A gives those rows of the pass: if entry y of the block sits at entry i of the result, the
    block's entry y is A's entry i, and the rows and the number are read in i's column. -/
theorem point_eq (A : Net.Mat 50000 128) (b cm : Net.Mat 1 128) (inv : Net.Mat 1 1)
    (x0 : Vec Ideal S1000x128 .f32) (x1 x2 : Vec Ideal S1x128 .f32) (x3 : Vec Ideal S1x1 .f32)
    (y : S1000x128.Idx) (i : S50000x128.Idx)
    (h0 : x0 y = A i)
    (h1 : x1 (ix2 0 (y 1)) = b (ix2 0 (i 1)))
    (h2 : x2 (ix2 0 (y 1)) = cm (ix2 0 (i 1)))
    (h3 : x3 (ix2 0 0) = inv (ix2 0 0)) :
    k2_pay1 (F := Ideal) x0 x1 x2 x3 y = Net.pnPass A b cm inv i := by
  rw [pay_apply, h0, h1, h2, h3]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where the blocks sit, over the 50 points: block t of A and of the result is the t-th block of rows,
    all columns; the two rows and the number are whole. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

/-- Block t of A, at an entry of the result's block t, is A at that entry of the result. -/
theorem rd0 (c : Dev nD) (t : Fin cfg2.N) (j : ((cfg2.win 4).xblock (cfg2.grid.coords t)).Idx) :
    iblk2 V c 0 t ((cfg2.win 4).xinj (grid2.coords t) j) = V c (Pipeline.arrRef spec2 0) (((cfg2.win 4).blk t).view.emb j) := by
  obtain ⟨e0, e1, e2, e3, e4, e5, e6, e7, e8, e9⟩ := idx_facts t
  unfold iblk2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 1000 + 1 * (j 0).val = win2_4.index t (0 : Fin 2) * 1000 + 1 * (j 0).val; omega
  | ⟨1, _⟩ => show win2_0.index t (1 : Fin 2) * 128 + 1 * (j 1).val = win2_4.index t (1 : Fin 2) * 128 + 1 * (j 1).val; omega

/-- The bias row's block is the bias row: read in the column of the result's entry. -/
theorem rd1 (c : Dev nD) (t : Fin cfg2.N) (j : ((cfg2.win 4).xblock (cfg2.grid.coords t)).Idx) :
    iblk2 V c 1 t (ix2 0 (((cfg2.win 4).xinj (grid2.coords t) j) 1)) = V c (Pipeline.arrRef spec2 1) (ix2 0 ((((cfg2.win 4).blk t).view.emb j) 1)) := by
  obtain ⟨e0, e1, e2, e3, e4, e5, e6, e7, e8, e9⟩ := idx_facts t
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * (j 1).val = win2_4.index t (1 : Fin 2) * 128 + 1 * (j 1).val; omega

/-- The row of column means likewise. -/
theorem rd2 (c : Dev nD) (t : Fin cfg2.N) (j : ((cfg2.win 4).xblock (cfg2.grid.coords t)).Idx) :
    iblk2 V c 2 t (ix2 0 (((cfg2.win 4).xinj (grid2.coords t) j) 1)) = V c (Pipeline.arrRef spec2 2) (ix2 0 ((((cfg2.win 4).blk t).view.emb j) 1)) := by
  obtain ⟨e0, e1, e2, e3, e4, e5, e6, e7, e8, e9⟩ := idx_facts t
  unfold iblk2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * (j 1).val = win2_4.index t (1 : Fin 2) * 128 + 1 * (j 1).val; omega

/-- The number's block is the number. -/
theorem rd3 (c : Dev nD) (t : Fin cfg2.N) :
    iblk2 V c 3 t (ix2 0 0) = V c (Pipeline.arrRef spec2 3) (ix2 0 0) := by
  obtain ⟨e0, e1, e2, e3, e4, e5, e6, e7, e8, e9⟩ := idx_facts t
  unfold iblk2
  rw [View.read_apply]
  show V c (Pipeline.arrRef spec2 3) _ = V c (Pipeline.arrRef spec2 3) _
  refine congrArg _ (funext fun a => Fin.ext ?_)
  match a with
  | ⟨0, _⟩ => show win2_3.index t (0 : Fin 2) * 1 + 1 * 0 = 0; omega
  | ⟨1, _⟩ => show win2_3.index t (1 : Fin 2) * 1 + 1 * 0 = 0; omega

/-- What point t writes back is block t of the pass. -/
theorem flushed_eq (c : Dev nD) (t : Fin cfg2.N) :
    (dat2 (F := Ideal) V c).flushed 4 t
      = ((cfg2.win 4).blk t).view.read (Elt Ideal)
          (Net.pnPass (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero hz]
  simp only [View.ld_unit_zero (S := S1000x128) hz, View.ld_unit_zero (S := S1x128) hz, View.ld_unit_zero (S := S1x1) hz]
  funext j
  exact point_eq (V c (Pipeline.arrRef spec2 0)) (V c (Pipeline.arrRef spec2 1)) (V c (Pipeline.arrRef spec2 2)) (V c (Pipeline.arrRef spec2 3))
    (iblk2 V c 0 t) (iblk2 V c 1 t) (iblk2 V c 2 t) (iblk2 V c 3 t)
    ((cfg2.win 4).xinj (grid2.coords t) j) (((cfg2.win 4).blk t).view.emb j)
    (rd0 V c t j) (rd1 V c t j) (rd2 V c t j) (rd3 V c t)

/-- An entry of the result is in point t's block iff each coordinate is in the block's range on its axis. -/
theorem mem_blk (t : Fin cfg2.N) (i : S50000x128.Idx) :
    i ∈ ((cfg2.win 4).blk t).view.set ↔ ∀ a : Fin 2, win2_4.index t a * S1000x128.size a ≤ (i a).val ∧ (i a).val < win2_4.index t a * S1000x128.size a + S1000x128.size a := by
  show i ∈ ((View.whole main_v27).slice (win2_4.rect t)).set ↔ _
  rw [View.set_slice_whole, Rect.mem_set_unit]
  exact Iff.rfl

/-- Row r of the result is in the block of point r / 1000, which writes back. -/
theorem cover (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 50 := N_2
  let t : Fin cfg2.N := ⟨(i 0).val / 1000, by rw [hN]; omega⟩
  obtain ⟨e0, e1, e2, e3, e4, e5, e6, e7, e8, e9⟩ := idx_facts t
  refine ⟨t, flush2_4 t, ?_⟩
  rw [mem_blk]
  intro a
  have ht : t.val = (i 0).val / 1000 := rfl
  match a with
  | ⟨0, _⟩ => show win2_4.index t (0 : Fin 2) * 1000 ≤ (i 0).val ∧ (i 0).val < win2_4.index t (0 : Fin 2) * 1000 + 1000; omega
  | ⟨1, _⟩ => show win2_4.index t (1 : Fin 2) * 128 ≤ (i 1).val ∧ (i 1).val < win2_4.index t (1 : Fin 2) * 128 + 128; omega

/-- After the region the result array holds the pass of A, of the arrays as the region finds them. -/
theorem final (c : Dev nD) :
    (dat2 (F := Ideal) V c).arrAt 4 cfg2.N
      = Net.pnPass (V c (Pipeline.arrRef spec2 0)) (V c (Pipeline.arrRef spec2 1)) (V c (Pipeline.arrRef spec2 2)) (V c (Pipeline.arrRef spec2 3)) :=
  (dat2 (F := Ideal) V c).arrAt_eq_of_cover 4 _ (fun t _ => flushed_eq V c t) cover

end Cert.KernelIdeal.Pn2

end
-- ==== Proof.Pn5.lean ====
/-
  The second layer's pointwise pass, by blocks of rows.

  With a bias row b, a row cm of column means, one number inv and the previous layer's output old, the pass sends
  the entry A i j to max(((A i j + b j) - cm j) * inv, 0) + old i j: an entry of the result depends on the same entry
  of A and of old, on column j of the two rows and on inv.  The region cuts the 50000 rows into 50 blocks of 1000
  rows; at block t it reads rows 1000 t .. 1000 t + 999 of A and of old and the whole of b, cm and inv (each laid
  along the block's rows), and writes rows 1000 t .. 1000 t + 999 of the result.  Row r lies in block r / 1000, so the
  50 blocks cover the result, which therefore ends holding the pass of A.
-/
import proofs.«132746_j34668976013395_1_alg».proof.Proof.Gen.KernelIdeal.Frame
import proofs.«132746_j34668976013395_1_alg».proof.Proof.Net
import Idealize.ShloMosaic.Lib.Pipeline.Value
import Idealize.ShloMosaic.Lib.ValueIdx
import Idealize.ShloMosaic.PureOps.Ideal.Laws

noncomputable section

namespace Cert.KernelIdeal.Pn5

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One block's pass at an entry -/

/-- A row of 128 laid along the 1000 rows of a block reads, at an entry, the row's entry in that column. -/
theorem row_apply (v : Vec Ideal S1x128 .f32) (j : S1000x128.Idx) :
    broadcastTo S1000x128 v broadcasts_S1x128_S1000x128 j = v (ix2 0 (j 1)) :=
  broadcastTo_apply v broadcasts_S1x128_S1000x128 j (ix2 0 (j 1)) (fun a => by
    match a with
    | ⟨0, _⟩ => rfl
    | ⟨1, _⟩ => rfl)

/-- One number laid over a block reads that number at every entry. -/
theorem one_apply (v : Vec Ideal S1x1 .f32) (j : S1000x128.Idx) :
    broadcastTo S1000x128 v broadcasts_S1x1_S1000x128 j = v (ix2 0 0) :=
  broadcastTo_apply v broadcasts_S1x1_S1000x128 j (ix2 0 0) (fun a => by
    match a with
    | ⟨0, _⟩ => rfl
    | ⟨1, _⟩ => rfl)

/-- What the body stores, at an entry. -/
theorem pay_apply (v0 : Vec Ideal S1000x128 .f32) (v2 v5 : Vec Ideal S1x128 .f32) (v9 : Vec Ideal S1x1 .f32) (v15 : Vec Ideal S1000x128 .f32) (j : S1000x128.Idx) :
    k5_pay1 (F := Ideal) v0 v2 v5 v9 v15 j = max (((v0 j + v2 (ix2 0 (j 1))) - v5 (ix2 0 (j 1))) * v9 (ix2 0 0)) 0 + v15 j := by
  unfold k5_pay1
  show max (((shapeCast S1000x128 v0 shapeCasts_S1000x128_S1000x128 j + broadcastTo S1000x128 v2 broadcasts_S1x128_S1000x128 j)
      - broadcastTo S1000x128 (shapeCast S1x128 v5 shapeCasts_S1x128_S1x128) broadcasts_S1x128_S1000x128 j)
      * broadcastTo S1000x128 (shapeCast S1x1 v9 shapeCasts_S1x1_S1x1) broadcasts_S1x1_S1000x128 j) (Ideal.ofBits .f32 0x00000000#32)
      + shapeCast S1000x128 v15 shapeCasts_S1000x128_S1000x128 j = _
  rw [shapeCast_self, shapeCast_self, shapeCast_self, shapeCast_self, row_apply, row_apply, one_apply, Ideal.ofBits_zero_f32]

/-- A block of rows of A gives those rows of the pass: if entry y of the block sits at entry i of the result, the
    block's entry y is A's entry i (and likewise for the previous output), and the rows and the number are read in i's column. -/
theorem point_eq (A : Net.Mat 50000 128) (b cm : Net.Mat 1 128) (inv : Net.Mat 1 1) (old : Net.Mat 50000 128)
    (x0 : Vec Ideal S1000x128 .f32) (x1 x2 : Vec Ideal S1x128 .f32) (x3 : Vec Ideal S1x1 .f32) (x4 : Vec Ideal S1000x128 .f32)
    (y : S1000x128.Idx) (i : S50000x128.Idx)
    (h0 : x0 y = A i)
    (h1 : x1 (ix2 0 (y 1)) = b (ix2 0 (i 1)))
    (h2 : x2 (ix2 0 (y 1)) = cm (ix2 0 (i 1)))
    (h3 : x3 (ix2 0 0) = inv (ix2 0 0))
    (h4 : x4 y = old i) :
    k5_pay1 (F := Ideal) x0 x1 x2 x3 x4 y = Net.pnPassRes A b cm inv old i := by
  rw [pay_apply, h0, h1, h2, h3, h4]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where the blocks sit, over the 50 points: block t of A, of the previous output and of the result is the t-th block of rows,
    all columns; the two rows and the number are whole. -/
theorem idx_facts : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = t.val
    ∧ win5_4.index t (1 : Fin 2) = 0
    ∧ win5_5.index t (0 : Fin 2) = t.val
    ∧ win5_5.index t (1 : Fin 2) = 0 :=
  (by decide +kernel : ∀ t : Fin grid5.N, _)

/-- Block t of A, at an entry of the result's block t, is A at that entry of the result. -/
theorem rd0 (c : Dev nD) (t : Fin cfg5.N) (j : ((cfg5.win 5).xblock (cfg5.grid.coords t)).Idx) :
    iblk5 V c 0 t ((cfg5.win 5).xinj (grid5.coords t) j) = V c (Pipeline.arrRef spec5 0) (((cfg5.win 5).blk t).view.emb j) := by
  obtain ⟨e0, e1, e2, e3, e4, e5, e6, e7, e8, e9, e10, e11⟩ := idx_facts t
  unfold iblk5
  rw [View.read_apply]
  show V c (Pipeline.arrRef spec5 0) _ = V c (Pipeline.arrRef spec5 0) _
  refine congrArg _ (funext fun a => Fin.ext ?_)
  match a with
  | ⟨0, _⟩ => show win5_0.index t (0 : Fin 2) * 1000 + 1 * (j 0).val = win5_5.index t (0 : Fin 2) * 1000 + 1 * (j 0).val; omega
  | ⟨1, _⟩ => show win5_0.index t (1 : Fin 2) * 128 + 1 * (j 1).val = win5_5.index t (1 : Fin 2) * 128 + 1 * (j 1).val; omega

/-- The bias row's block is the bias row: read in the column of the result's entry. -/
theorem rd1 (c : Dev nD) (t : Fin cfg5.N) (j : ((cfg5.win 5).xblock (cfg5.grid.coords t)).Idx) :
    iblk5 V c 1 t (ix2 0 (((cfg5.win 5).xinj (grid5.coords t) j) 1)) = V c (Pipeline.arrRef spec5 1) (ix2 0 ((((cfg5.win 5).blk t).view.emb j) 1)) := by
  obtain ⟨e0, e1, e2, e3, e4, e5, e6, e7, e8, e9, e10, e11⟩ := idx_facts t
  unfold iblk5
  rw [View.read_apply]
  show V c (Pipeline.arrRef spec5 1) _ = V c (Pipeline.arrRef spec5 1) _
  refine congrArg _ (funext fun a => Fin.ext ?_)
  match a with
  | ⟨0, _⟩ => show win5_1.index t (0 : Fin 2) * 1 + 1 * 0 = 0; omega
  | ⟨1, _⟩ => show win5_1.index t (1 : Fin 2) * 128 + 1 * (j 1).val = win5_5.index t (1 : Fin 2) * 128 + 1 * (j 1).val; omega

/-- The row of column means likewise. -/
theorem rd2 (c : Dev nD) (t : Fin cfg5.N) (j : ((cfg5.win 5).xblock (cfg5.grid.coords t)).Idx) :
    iblk5 V c 2 t (ix2 0 (((cfg5.win 5).xinj (grid5.coords t) j) 1)) = V c (Pipeline.arrRef spec5 2) (ix2 0 ((((cfg5.win 5).blk t).view.emb j) 1)) := by
  obtain ⟨e0, e1, e2, e3, e4, e5, e6, e7, e8, e9, e10, e11⟩ := idx_facts t
  unfold iblk5
  rw [View.read_apply]
  show V c (Pipeline.arrRef spec5 2) _ = V c (Pipeline.arrRef spec5 2) _
  refine congrArg _ (funext fun a => Fin.ext ?_)
  match a with
  | ⟨0, _⟩ => show win5_2.index t (0 : Fin 2) * 1 + 1 * 0 = 0; omega
  | ⟨1, _⟩ => show win5_2.index t (1 : Fin 2) * 128 + 1 * (j 1).val = win5_5.index t (1 : Fin 2) * 128 + 1 * (j 1).val; omega

/-- The number's block is the number. -/
theorem rd3 (c : Dev nD) (t : Fin cfg5.N) :
    iblk5 V c 3 t (ix2 0 0) = V c (Pipeline.arrRef spec5 3) (ix2 0 0) := by
  obtain ⟨e0, e1, e2, e3, e4, e5, e6, e7, e8, e9, e10, e11⟩ := idx_facts t
  unfold iblk5
  rw [View.read_apply]
  show V c (Pipeline.arrRef spec5 3) _ = V c (Pipeline.arrRef spec5 3) _
  refine congrArg _ (funext fun a => Fin.ext ?_)
  match a with
  | ⟨0, _⟩ => show win5_3.index t (0 : Fin 2) * 1 + 1 * 0 = 0; omega
  | ⟨1, _⟩ => show win5_3.index t (1 : Fin 2) * 1 + 1 * 0 = 0; omega

/-- Block t of the previous output, at an entry of the result's block t, is the previous output there. -/
theorem rd4 (c : Dev nD) (t : Fin cfg5.N) (j : ((cfg5.win 5).xblock (cfg5.grid.coords t)).Idx) :
    iblk5 V c 4 t ((cfg5.win 5).xinj (grid5.coords t) j) = V c (Pipeline.arrRef spec5 4) (((cfg5.win 5).blk t).view.emb j) := by
  obtain ⟨e0, e1, e2, e3, e4, e5, e6, e7, e8, e9, e10, e11⟩ := idx_facts t
  unfold iblk5
  rw [View.read_apply]
  show V c (Pipeline.arrRef spec5 4) _ = V c (Pipeline.arrRef spec5 4) _
  refine congrArg _ (funext fun a => Fin.ext ?_)
  match a with
  | ⟨0, _⟩ => show win5_4.index t (0 : Fin 2) * 1000 + 1 * (j 0).val = win5_5.index t (0 : Fin 2) * 1000 + 1 * (j 0).val; omega
  | ⟨1, _⟩ => show win5_4.index t (1 : Fin 2) * 128 + 1 * (j 1).val = win5_5.index t (1 : Fin 2) * 128 + 1 * (j 1).val; omega

/-- What point t writes back is block t of the pass. -/
theorem flushed_eq (c : Dev nD) (t : Fin cfg5.N) :
    (dat5 (F := Ideal) V c).flushed 5 t
      = ((cfg5.win 5).blk t).view.read (Elt Ideal)
          (Net.pnPassRes (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero hz]
  simp only [View.ld_unit_zero (S := S1000x128) hz, View.ld_unit_zero (S := S1x128) hz, View.ld_unit_zero (S := S1x1) hz]
  funext j
  exact point_eq (V c (Pipeline.arrRef spec5 0)) (V c (Pipeline.arrRef spec5 1)) (V c (Pipeline.arrRef spec5 2)) (V c (Pipeline.arrRef spec5 3)) (V c (Pipeline.arrRef spec5 4))
    (iblk5 V c 0 t) (iblk5 V c 1 t) (iblk5 V c 2 t) (iblk5 V c 3 t) (iblk5 V c 4 t)
    ((cfg5.win 5).xinj (grid5.coords t) j) (((cfg5.win 5).blk t).view.emb j)
    (rd0 V c t j) (rd1 V c t j) (rd2 V c t j) (rd3 V c t) (rd4 V c t j)

/-- An entry of the result is in point t's block iff each coordinate is in the block's range on its axis. -/
theorem mem_blk (t : Fin cfg5.N) (i : S50000x128.Idx) :
    i ∈ ((cfg5.win 5).blk t).view.set ↔ ∀ a : Fin 2, win5_5.index t a * S1000x128.size a ≤ (i a).val ∧ (i a).val < win5_5.index t a * S1000x128.size a + S1000x128.size a := by
  show i ∈ ((View.whole main_v55).slice (win5_5.rect t)).set ↔ _
  rw [View.set_slice_whole, Rect.mem_set_unit]
  exact Iff.rfl

/-- Row r of the result is in the block of point r / 1000, which writes back. -/
theorem cover (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 50 := N_5
  let t : Fin cfg5.N := ⟨(i 0).val / 1000, by rw [hN]; omega⟩
  obtain ⟨e0, e1, e2, e3, e4, e5, e6, e7, e8, e9, e10, e11⟩ := idx_facts t
  refine ⟨t, flush5_5 t, ?_⟩
  rw [mem_blk]
  intro a
  have ht : t.val = (i 0).val / 1000 := rfl
  match a with
  | ⟨0, _⟩ => show win5_5.index t (0 : Fin 2) * 1000 ≤ (i 0).val ∧ (i 0).val < win5_5.index t (0 : Fin 2) * 1000 + 1000; omega
  | ⟨1, _⟩ => show win5_5.index t (1 : Fin 2) * 128 ≤ (i 1).val ∧ (i 1).val < win5_5.index t (1 : Fin 2) * 128 + 128; omega

/-- After the region the result array holds the pass of A, of the arrays as the region finds them. -/
theorem final (c : Dev nD) :
    (dat5 (F := Ideal) V c).arrAt 5 cfg5.N
      = Net.pnPassRes (V c (Pipeline.arrRef spec5 0)) (V c (Pipeline.arrRef spec5 1)) (V c (Pipeline.arrRef spec5 2)) (V c (Pipeline.arrRef spec5 3)) (V c (Pipeline.arrRef spec5 4)) :=
  (dat5 (F := Ideal) V c).arrAt_eq_of_cover 5 _ (fun t _ => flushed_eq V c t) cover

end Cert.KernelIdeal.Pn5

end
-- ==== Proof.Pn8.lean ====
/-
  The third layer's pointwise pass, by blocks of rows.

  With a bias row b, a row cm of column means, one number inv and the previous layer's output old, the pass sends
  the entry A i j to max(((A i j + b j) - cm j) * inv, 0) + old i j: an entry of the result depends on the same entry
  of A and of old, on column j of the two rows and on inv.  The region cuts the 50000 rows into 50 blocks of 1000
  rows; at block t it reads rows 1000 t .. 1000 t + 999 of A and of old and the whole of b, cm and inv (each laid
  along the block's rows), and writes rows 1000 t .. 1000 t + 999 of the result.  Row r lies in block r / 1000, so the
  50 blocks cover the result, which therefore ends holding the pass of A.
-/
import proofs.«132746_j34668976013395_1_alg».proof.Proof.Gen.KernelIdeal.Frame
import proofs.«132746_j34668976013395_1_alg».proof.Proof.Net
import Idealize.ShloMosaic.Lib.Pipeline.Value
import Idealize.ShloMosaic.Lib.ValueIdx
import Idealize.ShloMosaic.PureOps.Ideal.Laws

noncomputable section

namespace Cert.KernelIdeal.Pn8

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One block's pass at an entry -/

/-- A row of 128 laid along the 1000 rows of a block reads, at an entry, the row's entry in that column. -/
theorem row_apply (v : Vec Ideal S1x128 .f32) (j : S1000x128.Idx) :
    broadcastTo S1000x128 v broadcasts_S1x128_S1000x128 j = v (ix2 0 (j 1)) :=
  broadcastTo_apply v broadcasts_S1x128_S1000x128 j (ix2 0 (j 1)) (fun a => by
    match a with
    | ⟨0, _⟩ => rfl
    | ⟨1, _⟩ => rfl)

/-- One number laid over a block reads that number at every entry. -/
theorem one_apply (v : Vec Ideal S1x1 .f32) (j : S1000x128.Idx) :
    broadcastTo S1000x128 v broadcasts_S1x1_S1000x128 j = v (ix2 0 0) :=
  broadcastTo_apply v broadcasts_S1x1_S1000x128 j (ix2 0 0) (fun a => by
    match a with
    | ⟨0, _⟩ => rfl
    | ⟨1, _⟩ => rfl)

/-- What the body stores, at an entry. -/
theorem pay_apply (v0 : Vec Ideal S1000x128 .f32) (v2 v5 : Vec Ideal S1x128 .f32) (v9 : Vec Ideal S1x1 .f32) (v15 : Vec Ideal S1000x128 .f32) (j : S1000x128.Idx) :
    k8_pay1 (F := Ideal) v0 v2 v5 v9 v15 j = max (((v0 j + v2 (ix2 0 (j 1))) - v5 (ix2 0 (j 1))) * v9 (ix2 0 0)) 0 + v15 j := by
  unfold k8_pay1
  show max (((shapeCast S1000x128 v0 shapeCasts_S1000x128_S1000x128 j + broadcastTo S1000x128 v2 broadcasts_S1x128_S1000x128 j)
      - broadcastTo S1000x128 (shapeCast S1x128 v5 shapeCasts_S1x128_S1x128) broadcasts_S1x128_S1000x128 j)
      * broadcastTo S1000x128 (shapeCast S1x1 v9 shapeCasts_S1x1_S1x1) broadcasts_S1x1_S1000x128 j) (Ideal.ofBits .f32 0x00000000#32)
      + shapeCast S1000x128 v15 shapeCasts_S1000x128_S1000x128 j = _
  rw [shapeCast_self, shapeCast_self, shapeCast_self, shapeCast_self, row_apply, row_apply, one_apply, Ideal.ofBits_zero_f32]

/-- A block of rows of A gives those rows of the pass: if entry y of the block sits at entry i of the result, the
    block's entry y is A's entry i (and likewise for the previous output), and the rows and the number are read in i's column. -/
theorem point_eq (A : Net.Mat 50000 128) (b cm : Net.Mat 1 128) (inv : Net.Mat 1 1) (old : Net.Mat 50000 128)
    (x0 : Vec Ideal S1000x128 .f32) (x1 x2 : Vec Ideal S1x128 .f32) (x3 : Vec Ideal S1x1 .f32) (x4 : Vec Ideal S1000x128 .f32)
    (y : S1000x128.Idx) (i : S50000x128.Idx)
    (h0 : x0 y = A i)
    (h1 : x1 (ix2 0 (y 1)) = b (ix2 0 (i 1)))
    (h2 : x2 (ix2 0 (y 1)) = cm (ix2 0 (i 1)))
    (h3 : x3 (ix2 0 0) = inv (ix2 0 0))
    (h4 : x4 y = old i) :
    k8_pay1 (F := Ideal) x0 x1 x2 x3 x4 y = Net.pnPassRes A b cm inv old i := by
  rw [pay_apply, h0, h1, h2, h3, h4]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where the blocks sit, over the 50 points: block t of A, of the previous output and of the result is the t-th block of rows,
    all columns; the two rows and the number are whole. -/
theorem idx_facts : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = t.val
    ∧ win8_4.index t (1 : Fin 2) = 0
    ∧ win8_5.index t (0 : Fin 2) = t.val
    ∧ win8_5.index t (1 : Fin 2) = 0 :=
  (by decide +kernel : ∀ t : Fin grid8.N, _)

/-- Block t of A, at an entry of the result's block t, is A at that entry of the result. -/
theorem rd0 (c : Dev nD) (t : Fin cfg8.N) (j : ((cfg8.win 5).xblock (cfg8.grid.coords t)).Idx) :
    iblk8 V c 0 t ((cfg8.win 5).xinj (grid8.coords t) j) = V c (Pipeline.arrRef spec8 0) (((cfg8.win 5).blk t).view.emb j) := by
  obtain ⟨e0, e1, e2, e3, e4, e5, e6, e7, e8, e9, e10, e11⟩ := idx_facts t
  unfold iblk8
  rw [View.read_apply]
  show V c (Pipeline.arrRef spec8 0) _ = V c (Pipeline.arrRef spec8 0) _
  refine congrArg _ (funext fun a => Fin.ext ?_)
  match a with
  | ⟨0, _⟩ => show win8_0.index t (0 : Fin 2) * 1000 + 1 * (j 0).val = win8_5.index t (0 : Fin 2) * 1000 + 1 * (j 0).val; omega
  | ⟨1, _⟩ => show win8_0.index t (1 : Fin 2) * 128 + 1 * (j 1).val = win8_5.index t (1 : Fin 2) * 128 + 1 * (j 1).val; omega

/-- The bias row's block is the bias row: read in the column of the result's entry. -/
theorem rd1 (c : Dev nD) (t : Fin cfg8.N) (j : ((cfg8.win 5).xblock (cfg8.grid.coords t)).Idx) :
    iblk8 V c 1 t (ix2 0 (((cfg8.win 5).xinj (grid8.coords t) j) 1)) = V c (Pipeline.arrRef spec8 1) (ix2 0 ((((cfg8.win 5).blk t).view.emb j) 1)) := by
  obtain ⟨e0, e1, e2, e3, e4, e5, e6, e7, e8, e9, e10, e11⟩ := idx_facts t
  unfold iblk8
  rw [View.read_apply]
  show V c (Pipeline.arrRef spec8 1) _ = V c (Pipeline.arrRef spec8 1) _
  refine congrArg _ (funext fun a => Fin.ext ?_)
  match a with
  | ⟨0, _⟩ => show win8_1.index t (0 : Fin 2) * 1 + 1 * 0 = 0; omega
  | ⟨1, _⟩ => show win8_1.index t (1 : Fin 2) * 128 + 1 * (j 1).val = win8_5.index t (1 : Fin 2) * 128 + 1 * (j 1).val; omega

/-- The row of column means likewise. -/
theorem rd2 (c : Dev nD) (t : Fin cfg8.N) (j : ((cfg8.win 5).xblock (cfg8.grid.coords t)).Idx) :
    iblk8 V c 2 t (ix2 0 (((cfg8.win 5).xinj (grid8.coords t) j) 1)) = V c (Pipeline.arrRef spec8 2) (ix2 0 ((((cfg8.win 5).blk t).view.emb j) 1)) := by
  obtain ⟨e0, e1, e2, e3, e4, e5, e6, e7, e8, e9, e10, e11⟩ := idx_facts t
  unfold iblk8
  rw [View.read_apply]
  show V c (Pipeline.arrRef spec8 2) _ = V c (Pipeline.arrRef spec8 2) _
  refine congrArg _ (funext fun a => Fin.ext ?_)
  match a with
  | ⟨0, _⟩ => show win8_2.index t (0 : Fin 2) * 1 + 1 * 0 = 0; omega
  | ⟨1, _⟩ => show win8_2.index t (1 : Fin 2) * 128 + 1 * (j 1).val = win8_5.index t (1 : Fin 2) * 128 + 1 * (j 1).val; omega

/-- The number's block is the number. -/
theorem rd3 (c : Dev nD) (t : Fin cfg8.N) :
    iblk8 V c 3 t (ix2 0 0) = V c (Pipeline.arrRef spec8 3) (ix2 0 0) := by
  obtain ⟨e0, e1, e2, e3, e4, e5, e6, e7, e8, e9, e10, e11⟩ := idx_facts t
  unfold iblk8
  rw [View.read_apply]
  show V c (Pipeline.arrRef spec8 3) _ = V c (Pipeline.arrRef spec8 3) _
  refine congrArg _ (funext fun a => Fin.ext ?_)
  match a with
  | ⟨0, _⟩ => show win8_3.index t (0 : Fin 2) * 1 + 1 * 0 = 0; omega
  | ⟨1, _⟩ => show win8_3.index t (1 : Fin 2) * 1 + 1 * 0 = 0; omega

/-- Block t of the previous output, at an entry of the result's block t, is the previous output there. -/
theorem rd4 (c : Dev nD) (t : Fin cfg8.N) (j : ((cfg8.win 5).xblock (cfg8.grid.coords t)).Idx) :
    iblk8 V c 4 t ((cfg8.win 5).xinj (grid8.coords t) j) = V c (Pipeline.arrRef spec8 4) (((cfg8.win 5).blk t).view.emb j) := by
  obtain ⟨e0, e1, e2, e3, e4, e5, e6, e7, e8, e9, e10, e11⟩ := idx_facts t
  unfold iblk8
  rw [View.read_apply]
  show V c (Pipeline.arrRef spec8 4) _ = V c (Pipeline.arrRef spec8 4) _
  refine congrArg _ (funext fun a => Fin.ext ?_)
  match a with
  | ⟨0, _⟩ => show win8_4.index t (0 : Fin 2) * 1000 + 1 * (j 0).val = win8_5.index t (0 : Fin 2) * 1000 + 1 * (j 0).val; omega
  | ⟨1, _⟩ => show win8_4.index t (1 : Fin 2) * 128 + 1 * (j 1).val = win8_5.index t (1 : Fin 2) * 128 + 1 * (j 1).val; omega

/-- What point t writes back is block t of the pass. -/
theorem flushed_eq (c : Dev nD) (t : Fin cfg8.N) :
    (dat8 (F := Ideal) V c).flushed 5 t
      = ((cfg8.win 5).blk t).view.read (Elt Ideal)
          (Net.pnPassRes (V c (Pipeline.arrRef spec8 0)) (V c (Pipeline.arrRef spec8 1)) (V c (Pipeline.arrRef spec8 2)) (V c (Pipeline.arrRef spec8 3)) (V c (Pipeline.arrRef spec8 4))) := by
  show (cfg8.win 5).cut (grid8.coords t) ((dat8 V c).after 5 t) = _
  rw [after8_5]
  unfold out8_5
  rw [View.canon_unit_zero hz]
  simp only [View.ld_unit_zero (S := S1000x128) hz, View.ld_unit_zero (S := S1x128) hz, View.ld_unit_zero (S := S1x1) hz]
  funext j
  exact point_eq (V c (Pipeline.arrRef spec8 0)) (V c (Pipeline.arrRef spec8 1)) (V c (Pipeline.arrRef spec8 2)) (V c (Pipeline.arrRef spec8 3)) (V c (Pipeline.arrRef spec8 4))
    (iblk8 V c 0 t) (iblk8 V c 1 t) (iblk8 V c 2 t) (iblk8 V c 3 t) (iblk8 V c 4 t)
    ((cfg8.win 5).xinj (grid8.coords t) j) (((cfg8.win 5).blk t).view.emb j)
    (rd0 V c t j) (rd1 V c t j) (rd2 V c t j) (rd3 V c t) (rd4 V c t j)

/-- An entry of the result is in point t's block iff each coordinate is in the block's range on its axis. -/
theorem mem_blk (t : Fin cfg8.N) (i : S50000x128.Idx) :
    i ∈ ((cfg8.win 5).blk t).view.set ↔ ∀ a : Fin 2, win8_5.index t a * S1000x128.size a ≤ (i a).val ∧ (i a).val < win8_5.index t a * S1000x128.size a + S1000x128.size a := by
  show i ∈ ((View.whole main_v83).slice (win8_5.rect t)).set ↔ _
  rw [View.set_slice_whole, Rect.mem_set_unit]
  exact Iff.rfl

/-- Row r of the result is in the block of point r / 1000, which writes back. -/
theorem cover (i : S50000x128.Idx) : ∃ t : Fin cfg8.N, (cfg8.win 5).flush t = true ∧ i ∈ ((cfg8.win 5).blk t).view.set := by
  have hi0 : (i 0).val < 50000 := (i 0).isLt
  have hi1 : (i 1).val < 128 := (i 1).isLt
  have hN : cfg8.N = 50 := N_8
  let t : Fin cfg8.N := ⟨(i 0).val / 1000, by rw [hN]; omega⟩
  obtain ⟨e0, e1, e2, e3, e4, e5, e6, e7, e8, e9, e10, e11⟩ := idx_facts t
  refine ⟨t, flush8_5 t, ?_⟩
  rw [mem_blk]
  intro a
  have ht : t.val = (i 0).val / 1000 := rfl
  match a with
  | ⟨0, _⟩ => show win8_5.index t (0 : Fin 2) * 1000 ≤ (i 0).val ∧ (i 0).val < win8_5.index t (0 : Fin 2) * 1000 + 1000; omega
  | ⟨1, _⟩ => show win8_5.index t (1 : Fin 2) * 128 ≤ (i 1).val ∧ (i 1).val < win8_5.index t (1 : Fin 2) * 128 + 128; omega

/-- After the region the result array holds the pass of A, of the arrays as the region finds them. -/
theorem final (c : Dev nD) :
    (dat8 (F := Ideal) V c).arrAt 5 cfg8.N
      = Net.pnPassRes (V c (Pipeline.arrRef spec8 0)) (V c (Pipeline.arrRef spec8 1)) (V c (Pipeline.arrRef spec8 2)) (V c (Pipeline.arrRef spec8 3)) (V c (Pipeline.arrRef spec8 4)) :=
  (dat8 (F := Ideal) V c).arrAt_eq_of_cover 5 _ (fun t _ => flushed_eq V c t) cover

end Cert.KernelIdeal.Pn8

end
-- ==== Proof.StatsMath.lean ====
/-
  One pass of column sums and of the sum of squares over an array of 50000 rows, taken tile by tile.

  The array H = A + b (a bias row b added to every row of A) is visited in 50 tiles of 1000 consecutive rows.
  At a tile the running column sums grow, column by column, by the tile's column sums, and the running sum of
  squares grows by the sum over the tile's rows of each row's sum of squares.  Both start from zero.
  After tile n the running column sum at column j is the sum of H over the rows below 1000 (n + 1), and the
  running sum of squares is the sum over those rows of the row's sum of squares; after the last tile they are the
  sums over all 50000 rows.  Addition on the extended reals is commutative and associative and 0 + x = x, which is
  all that is used: nothing here asks an entry to be finite.

  The tile step is written with the vector operations a tile program uses (a shape cast, a row broadcast, a lane
  reduction, a keep-dimension cast), so that a program's printed step is this one up to the spelling of its shape
  facts; the step is then read at an index.
-/
import Idealize.ShloMosaic.PureOps.Ideal
import Idealize.ShloMosaic.PureOps.Ideal.Laws
import Idealize.ShloMosaic.Lib.ValueIdx
import Idealize.ShloMosaic.Lib.ValueLayout
import Mathlib.Algebra.BigOperators.Fin

noncomputable section

namespace Cert.Stats

open Idealize.ShloMosaic Idealize.ShloMosaic.ValueIdx
open scoped BigOperators

/-! ## Shapes -/

/-- A tile: 1000 rows of 128 columns. -/
abbrev Tile : Shape := ⟨2, ![1000, 128]⟩
/-- One row of 128 columns. -/
abbrev Row : Shape := ⟨2, ![1, 128]⟩
/-- One entry. -/
abbrev One : Shape := ⟨2, ![1, 1]⟩
/-- The whole array: 50000 rows of 128 columns. -/
abbrev Whole : Shape := ⟨2, ![50000, 128]⟩

/-! ## Two casts that keep a reduced dimension as a unit axis -/

/-- An [a] vector cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The tile step -/

/-- The tile with the bias row added to each of its rows. -/
def tileH (x0 : FVec Ideal Tile .f32) (x1 : FVec Ideal Row .f32) : FVec Ideal Tile .f32 :=
  addf (shapeCast Tile x0) (broadcastTo Tile x1)

/-- The running column sums after a tile: what they were plus the tile's column sums. -/
def colStep (x0 : FVec Ideal Tile .f32) (x1 : FVec Ideal Row .f32) (acc : FVec Ideal Row .f32) : FVec Ideal Row .f32 :=
  addf (shapeCast Row acc)
    (shapeCast Row (multiReduction .add [0] ⟨1, ![128]⟩ (tileH x0 x1) 0x00000000#32))

/-- The running sum of squares after a tile: what it was plus the sum over the tile's rows of the row's sum of squares. -/
def sqStep (x0 : FVec Ideal Tile .f32) (x1 : FVec Ideal Row .f32) (acc : FVec Ideal One .f32) : FVec Ideal One .f32 :=
  addf (shapeCast One acc)
    (shapeCast One (multiReduction .add [0] ⟨1, ![1]⟩
      (shapeCast ⟨2, ![1000, 1]⟩ (multiReduction .add [1] ⟨1, ![1000]⟩ (mulf (tileH x0 x1) (tileH x0 x1)) 0x00000000#32))
      0x00000000#32))

/-- The zero row and the zero entry the running values start from. -/
def zeroRow : FVec Ideal Row .f32 := broadcast Row (Scalar.ofBits .f32 0x00000000#32)
def zeroOne : FVec Ideal One .f32 := broadcast One (Scalar.ofBits .f32 0x00000000#32)

theorem zeroRow_apply (i : Row.Idx) : zeroRow i = 0 := Ideal.ofBits_zero_f32
theorem zeroOne_apply (i : One.Idx) : zeroOne i = 0 := Ideal.ofBits_zero_f32

/-- The tile plus bias at row r, column q. -/
theorem tileH_apply (x0 : FVec Ideal Tile .f32) (x1 : FVec Ideal Row .f32) (r : Fin 1000) (q : Fin 128) :
    tileH x0 x1 (ix2 r q) = x0 (ix2 r q) + x1 (ix2 (0 : Fin 1) q) := by
  unfold tileH
  rw [addf_apply, shapeCast_self, broadcastTo_1b_ab_apply]

/-- The column step at column j. -/
theorem colStep_apply (x0 : FVec Ideal Tile .f32) (x1 : FVec Ideal Row .f32) (acc : FVec Ideal Row .f32)
    (u : Fin 1) (j : Fin 128) :
    colStep x0 x1 acc (ix2 u j) = acc (ix2 u j) + ∑ r : Fin 1000, (x0 (ix2 r j) + x1 (ix2 (0 : Fin 1) j)) := by
  unfold colStep
  rw [addf_apply, shapeCast_self, shapeCast_a_1a_apply]
  refine congrArg (acc (ix2 u j) + ·) ?_
  refine (Ideal.multiReduction_add_single (tileH x0 x1) 0x00000000#32 _ _ _ (ix1 j)).trans ?_
  show ∑ r : Fin 1000, _ = _
  refine Finset.sum_congr rfl fun r _ => ?_
  refine Eq.trans (congrArg (tileH x0 x1) ?_) (tileH_apply x0 x1 r j)
  funext d
  match d with
  | ⟨0, _⟩ => rfl
  | ⟨1, _⟩ => rfl

/-- The square step at its one entry. -/
theorem sqStep_apply (x0 : FVec Ideal Tile .f32) (x1 : FVec Ideal Row .f32) (acc : FVec Ideal One .f32)
    (u v : Fin 1) :
    sqStep x0 x1 acc (ix2 u v)
      = acc (ix2 u v) + ∑ r : Fin 1000, ∑ q : Fin 128,
          (x0 (ix2 r q) + x1 (ix2 (0 : Fin 1) q)) * (x0 (ix2 r q) + x1 (ix2 (0 : Fin 1) q)) := by
  unfold sqStep
  rw [addf_apply, shapeCast_self, shapeCast_a_1a_apply]
  refine congrArg (acc (ix2 u v) + ·) ?_
  refine (Ideal.multiReduction_add_single _ 0x00000000#32 _ _ _ (ix1 v)).trans ?_
  show ∑ r : Fin 1000, _ = _
  refine Finset.sum_congr rfl fun r _ => ?_
  have e : (Shape.Reduces.lift (s := (⟨2, ![1000, 1]⟩ : Shape)) (t := (⟨1, ![1]⟩ : Shape)) (a := (0 : Fin 2)) (by decide) (ix1 v) r)
      = ix2 r v := by
    funext d
    match d with
    | ⟨0, _⟩ => rfl
    | ⟨1, _⟩ => rfl
  rw [e, shapeCast_a_a1_apply]
  refine (Ideal.multiReduction_add_single _ 0x00000000#32 _ _ _ (ix1 r)).trans ?_
  show ∑ q : Fin 128, _ = _
  refine Finset.sum_congr rfl fun q _ => ?_
  have e' : (Shape.Reduces.lift (s := Tile) (t := (⟨1, ![1000]⟩ : Shape)) (a := (1 : Fin 2)) (by decide) (ix1 r) q)
      = ix2 r q := by
    funext d
    match d with
    | ⟨0, _⟩ => rfl
    | ⟨1, _⟩ => rfl
  rw [e', mulf_apply, tileH_apply]

/-! ## Tiles regrouped into the whole -/

/-- A sum taken tile by tile and then over the tiles is the sum over everything: a tiles of b entries, entry r of
    tile p being entry p * b + r of the whole. -/
theorem sum_tiles {M : Type*} [AddCommMonoid M] (a b : ℕ) (g : ℕ → M) :
    ∑ p : Fin a, ∑ r : Fin b, g (p.val * b + r.val) = ∑ n : Fin (a * b), g n.val := by
  rw [← Fintype.sum_prod_type', ← (finProdFinEquiv (m := a) (n := b)).sum_comp]
  refine Finset.sum_congr rfl fun x _ => congrArg g ?_
  show x.1.val * b + x.2.val = x.2.val + b * x.1.val
  rw [Nat.add_comm, Nat.mul_comm]

/-- Row n of the whole array at column j, as a function of every natural n (zero past the last row). -/
def rowAt (H : Whole.Idx → EReal) (n : ℕ) (j : Fin 128) : EReal :=
  if h : n < 50000 then H (ix2 ⟨n, h⟩ j) else 0

theorem rowAt_of_lt (H : Whole.Idx → EReal) (n : ℕ) (h : n < 50000) (j : Fin 128) :
    rowAt H n j = H (ix2 ⟨n, h⟩ j) := dif_pos h

/-- The running column sum after tile n: the rows of tiles 0 … n. -/
def colAcc (H : Whole.Idx → EReal) (n : ℕ) (j : Fin 128) : EReal :=
  ∑ s ∈ Finset.range (n + 1), ∑ r : Fin 1000, rowAt H (s * 1000 + r.val) j

/-- The running sum of squares after tile n. -/
def sqAcc (H : Whole.Idx → EReal) (n : ℕ) : EReal :=
  ∑ s ∈ Finset.range (n + 1), ∑ r : Fin 1000, ∑ q : Fin 128, rowAt H (s * 1000 + r.val) q * rowAt H (s * 1000 + r.val) q

theorem colAcc_zero (H : Whole.Idx → EReal) (j : Fin 128) :
    colAcc H 0 j = 0 + ∑ r : Fin 1000, rowAt H (0 * 1000 + r.val) j := by
  unfold colAcc; rw [Finset.sum_range_one, zero_add]

theorem colAcc_succ (H : Whole.Idx → EReal) (n : ℕ) (j : Fin 128) :
    colAcc H (n + 1) j = colAcc H n j + ∑ r : Fin 1000, rowAt H ((n + 1) * 1000 + r.val) j := by
  unfold colAcc; rw [Finset.sum_range_succ _ (n + 1)]

theorem sqAcc_zero (H : Whole.Idx → EReal) :
    sqAcc H 0 = 0 + ∑ r : Fin 1000, ∑ q : Fin 128, rowAt H (0 * 1000 + r.val) q * rowAt H (0 * 1000 + r.val) q := by
  unfold sqAcc; rw [Finset.sum_range_one, zero_add]

theorem sqAcc_succ (H : Whole.Idx → EReal) (n : ℕ) :
    sqAcc H (n + 1) = sqAcc H n
      + ∑ r : Fin 1000, ∑ q : Fin 128, rowAt H ((n + 1) * 1000 + r.val) q * rowAt H ((n + 1) * 1000 + r.val) q := by
  unfold sqAcc; rw [Finset.sum_range_succ _ (n + 1)]

/-- After the last tile the running column sum is the column's sum over all 50000 rows. -/
theorem colAcc_last (H : Whole.Idx → EReal) (j : Fin 128) :
    colAcc H 49 j = ∑ p : Fin 50000, H (ix2 p j) := by
  unfold colAcc
  rw [← Fin.sum_univ_eq_sum_range (fun s => ∑ r : Fin 1000, rowAt H (s * 1000 + r.val) j) 50,
    sum_tiles 50 1000 (fun n => rowAt H n j)]
  show ∑ n : Fin 50000, rowAt H n.val j = _
  exact Finset.sum_congr rfl fun p _ => rowAt_of_lt H p.val p.isLt j

/-- After the last tile the running sum of squares is the sum over all 50000 rows of the row's sum of squares. -/
theorem sqAcc_last (H : Whole.Idx → EReal) :
    sqAcc H 49 = ∑ p : Fin 50000, ∑ q : Fin 128, H (ix2 p q) * H (ix2 p q) := by
  unfold sqAcc
  rw [← Fin.sum_univ_eq_sum_range (fun s => ∑ r : Fin 1000, ∑ q : Fin 128, rowAt H (s * 1000 + r.val) q * rowAt H (s * 1000 + r.val) q) 50,
    sum_tiles 50 1000 (fun n => ∑ q : Fin 128, rowAt H n q * rowAt H n q)]
  show ∑ n : Fin 50000, ∑ q : Fin 128, rowAt H n.val q * rowAt H n.val q = _
  exact Finset.sum_congr rfl fun p _ => Finset.sum_congr rfl fun q _ => by rw [rowAt_of_lt H p.val p.isLt q]

end Cert.Stats

end
-- ==== Proof.Stats1Body.lean ====
/-
  What one visit of the statistics pass leaves in its two running buffers, as values.

  At the first tile the pass stores a zero row and a zero entry, reads them back, and leaves the column step and the
  square step taken from zero; at every later tile it leaves the steps taken from what the buffers held.  The steps are
  functions of the tile, the bias row and the running value only: the buffers' addresses do not enter.
-/
import proofs.«132746_j34668976013395_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Stats1

open Cert.KernelIdeal Cert.KernelIdeal.Gen

variable {F : FTy → Type} [FloatOps F]

/-- The zero offsets of a whole-buffer access, however spelt. -/
theorem hz : (![0, 0] : Fin 2 → Nat) = fun _ => 0 := funext fun a => by fin_cases a <;> rfl

/-- A later tile: the running column sums become the column step of what they were. -/
theorem out_B_2 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x1 .f32) (h4 : a4.IsWhole) (hc : ¬cond1_0 i)
    (x0 : Vec F S1000x128 .f32) (x1 : Vec F S1x128 .f32) (xo2 : Vec F S1x128 .f32) (xo3 : Vec F S1x1 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h3.read_unread,
    View.ld_unit_zero (S := S1000x128) hz, View.ld_unit_zero (S := S1x128) hz]

/-- A later tile: the running sum of squares becomes the square step of what it was. -/
theorem out_B_3 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x1 .f32) (h4 : a4.IsWhole) (hc : ¬cond1_0 i)
    (x0 : Vec F S1000x128 .f32) (x1 : Vec F S1x128 .f32) (xo2 : Vec F S1x128 .f32) (xo3 : Vec F S1x1 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h4.read_unread,
    View.ld_unit_zero (S := S1000x128) hz, View.ld_unit_zero (S := S1x128) hz, View.ld_unit_zero (S := S1x1) hz]

/-- The first tile: the running column sums become the column step of the zero row. -/
theorem out_A_2 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x1 .f32) (h4 : a4.IsWhole) (hc : cond1_0 i)
    (x0 : Vec F S1000x128 .f32) (x1 : Vec F S1x128 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread,
    View.ld_unit_zero (S := S1000x128) hz, View.ld_unit_zero (S := S1x128) hz]

/-- The first tile: the running sum of squares becomes the square step of the zero entry. -/
theorem out_A_3 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x1 .f32) (h4 : a4.IsWhole) (hc : cond1_0 i)
    (x0 : Vec F S1000x128 .f32) (x1 : Vec F S1x128 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x1) hz, View.readCov_unit_zero (S := S1x1) _ hz]
  simp only [View.readAt_eq_ld, h1.read_unread, h2.read_unread,
    View.ld_unit_zero (S := S1000x128) hz, View.ld_unit_zero (S := S1x128) hz]

end Cert.KernelIdeal.Stats1

end
-- ==== Proof.Stats1.lean ====
/-
  The statistics pass over the whole array: what its two result arrays hold when it ends.

  The pass visits the array's 50 tiles of 1000 rows in order.  Its two results are one row of column sums and one
  entry, the sum of squares; each is a running value carried from tile to tile and written out after the last one.
  With H the array plus the bias row, the running column sum after tile n is the sum of H over the rows of tiles
  0 … n and the running sum of squares the sum over those rows of the row's squares (induction on the tile: the first
  tile starts from zero, each later tile adds its own rows).  After tile 49 these are the sums over all rows, and
  that is what the one write-back, after the last tile, leaves in the result arrays.
-/
import proofs.«132746_j34668976013395_1_alg».proof.Proof.Net
import proofs.«132746_j34668976013395_1_alg».proof.Proof.StatsMath
import proofs.«132746_j34668976013395_1_alg».proof.Proof.Stats1Body
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Stats1

open Cert.KernelIdeal Cert.KernelIdeal.Gen Cert.Stats

variable (V : (c : Dev nD) → (b : Ref sig .tc) → Buf (Elt Ideal) ((c : Thread nD τ).loc b))

/-- The array the pass sums, as the pass finds it. -/
abbrev arrA (c : Dev nD) : Net.Mat 50000 128 := V c (Pipeline.arrRef spec1 0)
/-- The bias row, as the pass finds it. -/
abbrev rowB (c : Dev nD) : Net.Mat 1 128 := V c (Pipeline.arrRef spec1 1)
/-- The array plus the bias row. -/
abbrev arrH (c : Dev nD) : Net.Mat 50000 128 := Net.addRow (arrA V c) (rowB V c)

/-! ## The printed steps are the tile steps -/

theorem pay4_eq (x0 : Vec Ideal S1000x128 .f32) (x1 : Vec Ideal S1x128 .f32) (acc : Vec Ideal S1x128 .f32) :
    k1_pay4 (F := Ideal) x0 x1 acc = colStep x0 x1 acc := rfl
theorem pay5_eq (x0 : Vec Ideal S1000x128 .f32) (x1 : Vec Ideal S1x128 .f32) (acc : Vec Ideal S1x1 .f32) :
    k1_pay5 (F := Ideal) x0 x1 acc = sqStep x0 x1 acc := rfl
theorem pay1_eq : k1_pay1 (F := Ideal) = zeroRow := rfl
theorem pay2_eq : k1_pay2 (F := Ideal) = zeroOne := rfl

/-! ## The tiles -/

/-- Where the windows' blocks sit: tile t of the array starts at row block t; the bias row and the two results have one
    block, at the origin. Decided over the 50 grid points. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Tile t of the array, and the bias window's block at point t, at their literal shapes. -/
abbrev tileAt (c : Dev nD) (t : Fin cfg1.N) : FVec Ideal Tile .f32 := iblk1 V c 0 t
abbrev biasAt (c : Dev nD) (t : Fin cfg1.N) : FVec Ideal Row .f32 := iblk1 V c 1 t

/-- Entry (r, q) of tile t is the array's entry at row 1000 t + r. -/
theorem tile_apply (c : Dev nD) (t : Fin cfg1.N) (r : Fin 1000) (q : Fin 128) (hlt : t.val * 1000 + r.val < 50000) :
    tileAt V c t (ix2 r q) = arrA V c (ix2 ⟨t.val * 1000 + r.val, hlt⟩ q) := by
  obtain ⟨e0, e1, -⟩ := idx_facts t
  show V c (Pipeline.arrRef spec1 0) (((cfg1.win 0).blk t).view.emb (ix2 r q)) = V c (Pipeline.arrRef spec1 0) _
  refine congrArg (V c (Pipeline.arrRef spec1 0)) (funext fun a => Fin.ext ?_)
  match a with
  | ⟨0, _⟩ => show win1_0.index t (0 : Fin 2) * 1000 + 1 * r.val = t.val * 1000 + r.val; omega
  | ⟨1, _⟩ => show win1_0.index t (1 : Fin 2) * 128 + 1 * q.val = q.val; omega

/-- The bias window's one block is the bias row. -/
theorem bias_apply (c : Dev nD) (t : Fin cfg1.N) (u : Fin 1) (q : Fin 128) :
    biasAt V c t (ix2 u q) = rowB V c (ix2 (0 : Fin 1) q) := by
  obtain ⟨-, -, e2, e3, -⟩ := idx_facts t
  have hu : u.val = 0 := by omega
  show V c (Pipeline.arrRef spec1 1) (((cfg1.win 1).blk t).view.emb (ix2 u q)) = V c (Pipeline.arrRef spec1 1) _
  refine congrArg (V c (Pipeline.arrRef spec1 1)) (funext fun a => Fin.ext ?_)
  match a with
  | ⟨0, _⟩ => show win1_1.index t (0 : Fin 2) * 1 + 1 * u.val = 0; omega
  | ⟨1, _⟩ => show win1_1.index t (1 : Fin 2) * 128 + 1 * q.val = q.val; omega

/-- So tile t's entry (r, q) plus the bias at q is H at row 1000 t + r. -/
theorem tile_entry (c : Dev nD) (t : Fin cfg1.N) (r : Fin 1000) (q : Fin 128) :
    tileAt V c t (ix2 r q) + biasAt V c t (ix2 (0 : Fin 1) q) = rowAt (arrH V c) (t.val * 1000 + r.val) q := by
  have hN : t.val < 50 := lt_of_lt_of_eq t.isLt (show cfg1.N = 50 from N_1)
  have hlt : t.val * 1000 + r.val < 50000 := by have := r.isLt; omega
  rw [rowAt_of_lt _ _ hlt, tile_apply V c t r q hlt, bias_apply V c t 0 q]
  rfl

/-! ## One visit, at an index -/

/-- The first tile leaves, at column j, zero plus the tile's column sum of H. -/
theorem visit_A_2 (c : Dev nD) (t : Fin cfg1.N) (hc : cond1_0 (grid1.coords t)) (u : Fin 1) (j : Fin 128) :
    out1_A_2 (F := Ideal) c (grid1.coords t) (ms1_0 t) (hs1_0 t) (ms1_1 t) (hs1_1 t) (ms1_2 t) (hs1_2 t) (ms1_3 t) (hs1_3 t) hc
        (iblk1 V c 0 t) (iblk1 V c 1 t) (ix2 u j)
      = 0 + ∑ r : Fin 1000, rowAt (arrH V c) (t.val * 1000 + r.val) j := by
  rw [out_A_2 (F := Ideal) c (grid1.coords t) (ms1_0 t) (hs1_0 t) (ms1_1 t) (hs1_1 t) (ms1_2 t) (hs1_2 t) (ms1_3 t) (hs1_3 t) hc
    (iblk1 V c 0 t) (iblk1 V c 1 t)]
  refine (colStep_apply (iblk1 V c 0 t) (iblk1 V c 1 t) zeroRow u j).trans ?_
  rw [zeroRow_apply]
  exact congrArg (0 + ·) (Finset.sum_congr rfl fun r _ => tile_entry V c t r j)

/-- The first tile leaves zero plus the tile's sum of squares of H. -/
theorem visit_A_3 (c : Dev nD) (t : Fin cfg1.N) (hc : cond1_0 (grid1.coords t)) (u v : Fin 1) :
    out1_A_3 (F := Ideal) c (grid1.coords t) (ms1_0 t) (hs1_0 t) (ms1_1 t) (hs1_1 t) (ms1_2 t) (hs1_2 t) (ms1_3 t) (hs1_3 t) hc
        (iblk1 V c 0 t) (iblk1 V c 1 t) (ix2 u v)
      = 0 + ∑ r : Fin 1000, ∑ q : Fin 128,
          rowAt (arrH V c) (t.val * 1000 + r.val) q * rowAt (arrH V c) (t.val * 1000 + r.val) q := by
  rw [out_A_3 (F := Ideal) c (grid1.coords t) (ms1_0 t) (hs1_0 t) (ms1_1 t) (hs1_1 t) (ms1_2 t) (hs1_2 t) (ms1_3 t) (hs1_3 t) hc
    (iblk1 V c 0 t) (iblk1 V c 1 t)]
  refine (sqStep_apply (iblk1 V c 0 t) (iblk1 V c 1 t) zeroOne u v).trans ?_
  rw [zeroOne_apply]
  exact congrArg (0 + ·) (Finset.sum_congr rfl fun r _ => Finset.sum_congr rfl fun q _ => by rw [tile_entry V c t r q])

/-- A later tile leaves, at column j, what was there plus the tile's column sum of H. -/
theorem visit_B_2 (c : Dev nD) (t : Fin cfg1.N) (hc : ¬cond1_0 (grid1.coords t))
    (p2 : Vec Ideal S1x128 .f32) (p3 : Vec Ideal S1x1 .f32) (u : Fin 1) (j : Fin 128) :
    out1_B_2 (F := Ideal) c (grid1.coords t) (ms1_0 t) (hs1_0 t) (ms1_1 t) (hs1_1 t) (ms1_2 t) (hs1_2 t) (ms1_3 t) (hs1_3 t) hc
        (iblk1 V c 0 t) (iblk1 V c 1 t) p2 p3 (ix2 u j)
      = p2 (ix2 u j) + ∑ r : Fin 1000, rowAt (arrH V c) (t.val * 1000 + r.val) j := by
  rw [out_B_2 (F := Ideal) c (grid1.coords t) (ms1_0 t) (hs1_0 t) (ms1_1 t) (hs1_1 t) (ms1_2 t) (hs1_2 t) (ms1_3 t) (hs1_3 t) hc
    (iblk1 V c 0 t) (iblk1 V c 1 t) p2 p3]
  refine (colStep_apply (iblk1 V c 0 t) (iblk1 V c 1 t) p2 u j).trans ?_
  exact congrArg (p2 (ix2 u j) + ·) (Finset.sum_congr rfl fun r _ => tile_entry V c t r j)

/-- A later tile leaves what was there plus the tile's sum of squares of H. -/
theorem visit_B_3 (c : Dev nD) (t : Fin cfg1.N) (hc : ¬cond1_0 (grid1.coords t))
    (p2 : Vec Ideal S1x128 .f32) (p3 : Vec Ideal S1x1 .f32) (u v : Fin 1) :
    out1_B_3 (F := Ideal) c (grid1.coords t) (ms1_0 t) (hs1_0 t) (ms1_1 t) (hs1_1 t) (ms1_2 t) (hs1_2 t) (ms1_3 t) (hs1_3 t) hc
        (iblk1 V c 0 t) (iblk1 V c 1 t) p2 p3 (ix2 u v)
      = p3 (ix2 u v) + ∑ r : Fin 1000, ∑ q : Fin 128,
          rowAt (arrH V c) (t.val * 1000 + r.val) q * rowAt (arrH V c) (t.val * 1000 + r.val) q := by
  rw [out_B_3 (F := Ideal) c (grid1.coords t) (ms1_0 t) (hs1_0 t) (ms1_1 t) (hs1_1 t) (ms1_2 t) (hs1_2 t) (ms1_3 t) (hs1_3 t) hc
    (iblk1 V c 0 t) (iblk1 V c 1 t) p2 p3]
  refine (sqStep_apply (iblk1 V c 0 t) (iblk1 V c 1 t) p3 u v).trans ?_
  exact congrArg (p3 (ix2 u v) + ·) (Finset.sum_congr rfl fun r _ => Finset.sum_congr rfl fun q _ => by rw [tile_entry V c t r q])

/-! ## The running values after every tile -/

/-- After tile n the first running buffer holds the column sums of H over the rows of tiles 0 … n and the second the
    sum of squares over those rows: by induction on the tile. -/
theorem outs_eq (c : Dev nD) : ∀ (n : ℕ) (hn : n < cfg1.N),
    (∀ (u : Fin 1) (j : Fin 128), ((outsAt1 V c n hn).1 : Vec Ideal S1x128 .f32) (ix2 u j) = colAcc (arrH V c) n j)
    ∧ (∀ (u v : Fin 1), ((outsAt1 V c n hn).2 : Vec Ideal S1x1 .f32) (ix2 u v) = sqAcc (arrH V c) n)
  | 0, hn => by
    have h0 : (⟨0, hn⟩ : Fin cfg1.N).val % 50 = 0 := rfl
    rw [outsAt1_A V c ⟨0, hn⟩ h0]
    dsimp only
    refine ⟨fun u j => ?_, fun u v => ?_⟩
    · rw [visit_A_2 V c ⟨0, hn⟩ ((hcond1_0 ⟨0, hn⟩).mpr h0) u j, colAcc_zero]
    · rw [visit_A_3 V c ⟨0, hn⟩ ((hcond1_0 ⟨0, hn⟩).mpr h0) u v, sqAcc_zero]
  | n + 1, hn => by
    have hN : n + 1 < 50 := lt_of_lt_of_eq hn (show cfg1.N = 50 from N_1)
    have hB : ¬(⟨n + 1, hn⟩ : Fin cfg1.N).val % 50 = 0 := by dsimp only; omega
    obtain ⟨ih2, ih3⟩ := outs_eq c n (Nat.lt_of_succ_lt hn)
    rw [outsAt1_B V c ⟨n + 1, hn⟩ hB]
    dsimp only
    refine ⟨fun u j => ?_, fun u v => ?_⟩
    · rw [visit_B_2 V c ⟨n + 1, hn⟩ (fun h => hB ((hcond1_0 ⟨n + 1, hn⟩).mp h)) _ _ u j, colAcc_succ]
      exact congrArg (· + _) (ih2 u j)
    · rw [visit_B_3 V c ⟨n + 1, hn⟩ (fun h => hB ((hcond1_0 ⟨n + 1, hn⟩).mp h)) _ _ u v, sqAcc_succ]
      exact congrArg (· + _) (ih3 u v)

/-! ## The result arrays -/

/-- The column sums of H, as the contents of the first result array. -/
abbrev colSums (c : Dev nD) : Buf (Elt Ideal) ((cfg1.win 2).arr.view.loc (c.tc : Thread nD τ)) :=
  fun i => Net.colSum (arrH V c) (i 1)
/-- The sum of squares of H, as the contents of the second result array. -/
abbrev sumSqs (c : Dev nD) : Buf (Elt Ideal) ((cfg1.win 3).arr.view.loc (c.tc : Thread nD τ)) :=
  fun _ => Net.sumSq (arrH V c)

/-- After the last tile the first running buffer holds the column sums of H over all rows. -/
theorem outs_last_2 (c : Dev nD) (t : Fin cfg1.N) (h49 : t.val = 49) :
    ((outsAt1 V c t.val t.isLt).1 : Vec Ideal S1x128 .f32) = fun i => Net.colSum (arrH V c) (i 1) := by
  funext i
  obtain ⟨u, j, rfl⟩ : ∃ (u : Fin 1) (j : Fin 128), i = ix2 u j := ⟨i 0, i 1, eq_ix2 i⟩
  rw [(outs_eq V c t.val t.isLt).1 u j, h49]
  exact colAcc_last (arrH V c) j

/-- After the last tile the second running buffer holds the sum of squares of H over all rows. -/
theorem outs_last_3 (c : Dev nD) (t : Fin cfg1.N) (h49 : t.val = 49) :
    ((outsAt1 V c t.val t.isLt).2 : Vec Ideal S1x1 .f32) = fun _ => Net.sumSq (arrH V c) := by
  funext i
  obtain ⟨u, v, rfl⟩ : ∃ (u : Fin 1) (v : Fin 1), i = ix2 u v := ⟨i 0, i 1, eq_ix2 i⟩
  rw [(outs_eq V c t.val t.isLt).2 u v, h49]
  exact sqAcc_last (arrH V c)

/-- The one write-back of the first result, after the last tile, writes the column sums: its block is the whole array. -/
theorem flushed2_eq (c : Dev nD) (t : Fin cfg1.N) (hf : (cfg1.win 2).flush t = true) :
    (dat1 V c).flushed 2 t = ((cfg1.win 2).blk t).view.read (Elt Ideal) (colSums V c) := by
  have hN : t.val < 50 := lt_of_lt_of_eq t.isLt (show cfg1.N = 50 from N_1)
  have h49 : t.val = 49 := by have := (flush1_2 t).mp hf; omega
  obtain ⟨-, -, -, -, e4, e5, -⟩ := idx_facts t
  show (cfg1.win 2).cut (grid1.coords t) ((dat1 V c).after 2 t) = _
  rw [after1_2, outs_last_2 V c t h49]
  have hz' : (fun a => win1_2.index t a * main_v14_0.ty.shape.size a) = fun _ => 0 := funext fun a => by
    match a with
    | ⟨0, _⟩ => show win1_2.index t (0 : Fin 2) * 1 = 0; omega
    | ⟨1, _⟩ => show win1_2.index t (1 : Fin 2) * 128 = 0; omega
  exact (Memref.read_access_unit_zero (Elt Ideal) main_v14_0 hz' (fun a => by rw [congrFun hz' a]; simp) (colSums V c)).symm

/-- The one write-back of the second result writes the sum of squares. -/
theorem flushed3_eq (c : Dev nD) (t : Fin cfg1.N) (hf : (cfg1.win 3).flush t = true) :
    (dat1 V c).flushed 3 t = ((cfg1.win 3).blk t).view.read (Elt Ideal) (sumSqs V c) := by
  have hN : t.val < 50 := lt_of_lt_of_eq t.isLt (show cfg1.N = 50 from N_1)
  have h49 : t.val = 49 := by have := (flush1_3 t).mp hf; omega
  obtain ⟨-, -, -, -, -, -, e6, e7⟩ := idx_facts t
  show (cfg1.win 3).cut (grid1.coords t) ((dat1 V c).after 3 t) = _
  rw [after1_3, outs_last_3 V c t h49]
  have hz' : (fun a => win1_3.index t a * main_v14_1.ty.shape.size a) = fun _ => 0 := funext fun a => by
    match a with
    | ⟨0, _⟩ => show win1_3.index t (0 : Fin 2) * 1 = 0; omega
    | ⟨1, _⟩ => show win1_3.index t (1 : Fin 2) * 1 = 0; omega
  exact (Memref.read_access_unit_zero (Elt Ideal) main_v14_1 hz' (fun a => by rw [congrFun hz' a]; simp) (sumSqs V c)).symm

/-- The last grid point. -/
def tLast : Fin cfg1.N := ⟨49, by rw [show cfg1.N = 50 from N_1]; decide⟩

/-- THE FIRST RESULT: when the pass ends its array holds, at column j, the sum of H's column j over all 50000 rows. -/
theorem colsum (c : Dev nD) :
    (dat1 (F := Ideal) V c).arrAt 2 cfg1.N
      = fun i => Net.colSum (Net.addRow (V c (Pipeline.arrRef spec1 0)) (V c (Pipeline.arrRef spec1 1))) (i 1) :=
  (dat1 V c).arrAt_eq_of_cover 2 (colSums V c) (flushed2_eq V c) fun i =>
    ⟨tLast, (flush1_2 tLast).mpr rfl, by
      obtain ⟨-, -, -, -, e4, e5, -⟩ := idx_facts tLast
      show i ∈ ((View.whole main_v14_0).slice (win1_2.rect tLast)).set
      rw [View.set_slice_whole, Rect.mem_set_unit]
      intro a
      have h0 : (i 0 : Nat) < 1 := (i 0).isLt
      have h1 : (i 1 : Nat) < 128 := (i 1).isLt
      match a with
      | ⟨0, _⟩ => show win1_2.index tLast 0 * 1 ≤ (i 0 : Nat) ∧ (i 0 : Nat) < win1_2.index tLast 0 * 1 + 1; omega
      | ⟨1, _⟩ => show win1_2.index tLast 1 * 128 ≤ (i 1 : Nat) ∧ (i 1 : Nat) < win1_2.index tLast 1 * 128 + 128; omega⟩

/-- THE SECOND RESULT: when the pass ends its array holds the sum of the squares of all entries of H. -/
theorem sumsq (c : Dev nD) :
    (dat1 (F := Ideal) V c).arrAt 3 cfg1.N
      = fun _ => Net.sumSq (Net.addRow (V c (Pipeline.arrRef spec1 0)) (V c (Pipeline.arrRef spec1 1))) :=
  (dat1 V c).arrAt_eq_of_cover 3 (sumSqs V c) (flushed3_eq V c) fun i =>
    ⟨tLast, (flush1_3 tLast).mpr rfl, by
      obtain ⟨-, -, -, -, -, -, e6, e7⟩ := idx_facts tLast
      show i ∈ ((View.whole main_v14_1).slice (win1_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_3.index tLast 0 * 1 ≤ (i 0 : Nat) ∧ (i 0 : Nat) < win1_3.index tLast 0 * 1 + 1; omega
      | ⟨1, _⟩ => show win1_3.index tLast 1 * 1 ≤ (i 1 : Nat) ∧ (i 1 : Nat) < win1_3.index tLast 1 * 1 + 1; omega⟩

end Cert.KernelIdeal.Stats1

end
-- ==== Proof.Stats4Body.lean ====
/-
  What one visit of the statistics pass leaves in its two running buffers, as values.

  At the first tile the pass stores a zero row and a zero entry, reads them back, and leaves the column step and the
  square step taken from zero; at every later tile it leaves the steps taken from what the buffers held.  The steps are
  functions of the tile, the bias row and the running value only: the buffers' addresses do not enter.
-/
import proofs.«132746_j34668976013395_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Stats4

open Cert.KernelIdeal Cert.KernelIdeal.Gen

variable {F : FTy → Type} [FloatOps F]

/-- The zero offsets of a whole-buffer access, however spelt. -/
theorem hz : (![0, 0] : Fin 2 → Nat) = fun _ => 0 := funext fun a => by fin_cases a <;> rfl

/-- A later tile: the running column sums become the column step of what they were. -/
theorem out_B_2 (c : Dev nD) (i : grid4.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x1 .f32) (h4 : a4.IsWhole) (hc : ¬cond4_0 i)
    (x0 : Vec F S1000x128 .f32) (x1 : Vec F S1x128 .f32) (xo2 : Vec F S1x128 .f32) (xo3 : Vec F S1x1 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  sl_unfold_words
  rw [View.canon_unit_zero hz]
  simp only [View.readAt_eq_ld, h1.read_unread, h2.read_unread, h3.read_unread,
    View.ld_unit_zero (S := S1000x128) hz, View.ld_unit_zero (S := S1x128) hz]

/-- A later tile: the running sum of squares becomes the square step of what it was. -/
theorem out_B_3 (c : Dev nD) (i : grid4.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x1 .f32) (h4 : a4.IsWhole) (hc : ¬cond4_0 i)
    (x0 : Vec F S1000x128 .f32) (x1 : Vec F S1x128 .f32) (xo2 : Vec F S1x128 .f32) (xo3 : Vec F S1x1 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  sl_unfold_words
  rw [View.canon_unit_zero hz]
  simp only [View.readAt_eq_ld, h1.read_unread, h2.read_unread, h4.read_unread,
    View.ld_unit_zero (S := S1000x128) hz, View.ld_unit_zero (S := S1x128) hz, View.ld_unit_zero (S := S1x1) hz]

/-- The first tile: the running column sums become the column step of the zero row. -/
theorem out_A_2 (c : Dev nD) (i : grid4.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x1 .f32) (h4 : a4.IsWhole) (hc : cond4_0 i)
    (x0 : Vec F S1000x128 .f32) (x1 : Vec F S1x128 .f32) :
    out4_A_2 c i a1 h1 a2 h2 a3 h3 a4 h4 hc x0 x1 = k4_pay4 x0 x1 k4_pay1 := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread,
    View.ld_unit_zero (S := S1000x128) hz, View.ld_unit_zero (S := S1x128) hz]

/-- The first tile: the running sum of squares becomes the square step of the zero entry. -/
theorem out_A_3 (c : Dev nD) (i : grid4.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x1 .f32) (h4 : a4.IsWhole) (hc : cond4_0 i)
    (x0 : Vec F S1000x128 .f32) (x1 : Vec F S1x128 .f32) :
    out4_A_3 c i a1 h1 a2 h2 a3 h3 a4 h4 hc x0 x1 = k4_pay5 x0 x1 k4_pay2 := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x1) hz, View.readCov_unit_zero (S := S1x1) _ hz]
  simp only [View.readAt_eq_ld, h1.read_unread, h2.read_unread,
    View.ld_unit_zero (S := S1000x128) hz, View.ld_unit_zero (S := S1x128) hz]

end Cert.KernelIdeal.Stats4

end
-- ==== Proof.Stats4.lean ====
/-
  The statistics pass over the whole array: what its two result arrays hold when it ends.

  The pass visits the array's 50 tiles of 1000 rows in order.  Its two results are one row of column sums and one
  entry, the sum of squares; each is a running value carried from tile to tile and written out after the last one.
  With H the array plus the bias row, the running column sum after tile n is the sum of H over the rows of tiles
  0 … n and the running sum of squares the sum over those rows of the row's squares (induction on the tile: the first
  tile starts from zero, each later tile adds its own rows).  After tile 49 these are the sums over all rows, and
  that is what the one write-back, after the last tile, leaves in the result arrays.
-/
import proofs.«132746_j34668976013395_1_alg».proof.Proof.Net
import proofs.«132746_j34668976013395_1_alg».proof.Proof.StatsMath
import proofs.«132746_j34668976013395_1_alg».proof.Proof.Stats4Body
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Stats4

open Cert.KernelIdeal Cert.KernelIdeal.Gen Cert.Stats

variable (V : (c : Dev nD) → (b : Ref sig .tc) → Buf (Elt Ideal) ((c : Thread nD τ).loc b))

/-- The array the pass sums, as the pass finds it. -/
abbrev arrA (c : Dev nD) : Net.Mat 50000 128 := V c (Pipeline.arrRef spec4 0)
/-- The bias row, as the pass finds it. -/
abbrev rowB (c : Dev nD) : Net.Mat 1 128 := V c (Pipeline.arrRef spec4 1)
/-- The array plus the bias row. -/
abbrev arrH (c : Dev nD) : Net.Mat 50000 128 := Net.addRow (arrA V c) (rowB V c)

/-! ## The printed steps are the tile steps -/

theorem pay4_eq (x0 : Vec Ideal S1000x128 .f32) (x1 : Vec Ideal S1x128 .f32) (acc : Vec Ideal S1x128 .f32) :
    k4_pay4 (F := Ideal) x0 x1 acc = colStep x0 x1 acc := rfl
theorem pay5_eq (x0 : Vec Ideal S1000x128 .f32) (x1 : Vec Ideal S1x128 .f32) (acc : Vec Ideal S1x1 .f32) :
    k4_pay5 (F := Ideal) x0 x1 acc = sqStep x0 x1 acc := rfl
theorem pay1_eq : k4_pay1 (F := Ideal) = zeroRow := rfl
theorem pay2_eq : k4_pay2 (F := Ideal) = zeroOne := rfl

/-! ## The tiles -/

/-- Where the windows' blocks sit: tile t of the array starts at row block t; the bias row and the two results have one
    block, at the origin. Decided over the 50 grid points. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- Tile t of the array, and the bias window's block at point t, at their literal shapes. -/
abbrev tileAt (c : Dev nD) (t : Fin cfg4.N) : FVec Ideal Tile .f32 := iblk4 V c 0 t
abbrev biasAt (c : Dev nD) (t : Fin cfg4.N) : FVec Ideal Row .f32 := iblk4 V c 1 t

/-- Entry (r, q) of tile t is the array's entry at row 1000 t + r. -/
theorem tile_apply (c : Dev nD) (t : Fin cfg4.N) (r : Fin 1000) (q : Fin 128) (hlt : t.val * 1000 + r.val < 50000) :
    tileAt V c t (ix2 r q) = arrA V c (ix2 ⟨t.val * 1000 + r.val, hlt⟩ q) := by
  obtain ⟨e0, e1, -⟩ := idx_facts t
  show V c (Pipeline.arrRef spec4 0) (((cfg4.win 0).blk t).view.emb (ix2 r q)) = V c (Pipeline.arrRef spec4 0) _
  refine congrArg (V c (Pipeline.arrRef spec4 0)) (funext fun a => Fin.ext ?_)
  match a with
  | ⟨0, _⟩ => show win4_0.index t (0 : Fin 2) * 1000 + 1 * r.val = t.val * 1000 + r.val; omega
  | ⟨1, _⟩ => show win4_0.index t (1 : Fin 2) * 128 + 1 * q.val = q.val; omega

/-- The bias window's one block is the bias row. -/
theorem bias_apply (c : Dev nD) (t : Fin cfg4.N) (u : Fin 1) (q : Fin 128) :
    biasAt V c t (ix2 u q) = rowB V c (ix2 (0 : Fin 1) q) := by
  obtain ⟨-, -, e2, e3, -⟩ := idx_facts t
  have hu : u.val = 0 := by omega
  show V c (Pipeline.arrRef spec4 1) (((cfg4.win 1).blk t).view.emb (ix2 u q)) = V c (Pipeline.arrRef spec4 1) _
  refine congrArg (V c (Pipeline.arrRef spec4 1)) (funext fun a => Fin.ext ?_)
  match a with
  | ⟨0, _⟩ => show win4_1.index t (0 : Fin 2) * 1 + 1 * u.val = 0; omega
  | ⟨1, _⟩ => show win4_1.index t (1 : Fin 2) * 128 + 1 * q.val = q.val; omega

/-- So tile t's entry (r, q) plus the bias at q is H at row 1000 t + r. -/
theorem tile_entry (c : Dev nD) (t : Fin cfg4.N) (r : Fin 1000) (q : Fin 128) :
    tileAt V c t (ix2 r q) + biasAt V c t (ix2 (0 : Fin 1) q) = rowAt (arrH V c) (t.val * 1000 + r.val) q := by
  have hN : t.val < 50 := lt_of_lt_of_eq t.isLt (show cfg4.N = 50 from N_4)
  have hlt : t.val * 1000 + r.val < 50000 := by have := r.isLt; omega
  rw [rowAt_of_lt _ _ hlt, tile_apply V c t r q hlt, bias_apply V c t 0 q]
  rfl

/-! ## One visit, at an index -/

/-- The first tile leaves, at column j, zero plus the tile's column sum of H. -/
theorem visit_A_2 (c : Dev nD) (t : Fin cfg4.N) (hc : cond4_0 (grid4.coords t)) (u : Fin 1) (j : Fin 128) :
    out4_A_2 (F := Ideal) c (grid4.coords t) (ms4_0 t) (hs4_0 t) (ms4_1 t) (hs4_1 t) (ms4_2 t) (hs4_2 t) (ms4_3 t) (hs4_3 t) hc
        (iblk4 V c 0 t) (iblk4 V c 1 t) (ix2 u j)
      = 0 + ∑ r : Fin 1000, rowAt (arrH V c) (t.val * 1000 + r.val) j := by
  rw [out_A_2 (F := Ideal) c (grid4.coords t) (ms4_0 t) (hs4_0 t) (ms4_1 t) (hs4_1 t) (ms4_2 t) (hs4_2 t) (ms4_3 t) (hs4_3 t) hc
    (iblk4 V c 0 t) (iblk4 V c 1 t)]
  refine (colStep_apply (iblk4 V c 0 t) (iblk4 V c 1 t) zeroRow u j).trans ?_
  rw [zeroRow_apply]
  exact congrArg (0 + ·) (Finset.sum_congr rfl fun r _ => tile_entry V c t r j)

/-- The first tile leaves zero plus the tile's sum of squares of H. -/
theorem visit_A_3 (c : Dev nD) (t : Fin cfg4.N) (hc : cond4_0 (grid4.coords t)) (u v : Fin 1) :
    out4_A_3 (F := Ideal) c (grid4.coords t) (ms4_0 t) (hs4_0 t) (ms4_1 t) (hs4_1 t) (ms4_2 t) (hs4_2 t) (ms4_3 t) (hs4_3 t) hc
        (iblk4 V c 0 t) (iblk4 V c 1 t) (ix2 u v)
      = 0 + ∑ r : Fin 1000, ∑ q : Fin 128,
          rowAt (arrH V c) (t.val * 1000 + r.val) q * rowAt (arrH V c) (t.val * 1000 + r.val) q := by
  rw [out_A_3 (F := Ideal) c (grid4.coords t) (ms4_0 t) (hs4_0 t) (ms4_1 t) (hs4_1 t) (ms4_2 t) (hs4_2 t) (ms4_3 t) (hs4_3 t) hc
    (iblk4 V c 0 t) (iblk4 V c 1 t)]
  refine (sqStep_apply (iblk4 V c 0 t) (iblk4 V c 1 t) zeroOne u v).trans ?_
  rw [zeroOne_apply]
  exact congrArg (0 + ·) (Finset.sum_congr rfl fun r _ => Finset.sum_congr rfl fun q _ => by rw [tile_entry V c t r q])

/-- A later tile leaves, at column j, what was there plus the tile's column sum of H. -/
theorem visit_B_2 (c : Dev nD) (t : Fin cfg4.N) (hc : ¬cond4_0 (grid4.coords t))
    (p2 : Vec Ideal S1x128 .f32) (p3 : Vec Ideal S1x1 .f32) (u : Fin 1) (j : Fin 128) :
    out4_B_2 (F := Ideal) c (grid4.coords t) (ms4_0 t) (hs4_0 t) (ms4_1 t) (hs4_1 t) (ms4_2 t) (hs4_2 t) (ms4_3 t) (hs4_3 t) hc
        (iblk4 V c 0 t) (iblk4 V c 1 t) p2 p3 (ix2 u j)
      = p2 (ix2 u j) + ∑ r : Fin 1000, rowAt (arrH V c) (t.val * 1000 + r.val) j := by
  rw [out_B_2 (F := Ideal) c (grid4.coords t) (ms4_0 t) (hs4_0 t) (ms4_1 t) (hs4_1 t) (ms4_2 t) (hs4_2 t) (ms4_3 t) (hs4_3 t) hc
    (iblk4 V c 0 t) (iblk4 V c 1 t) p2 p3]
  refine (colStep_apply (iblk4 V c 0 t) (iblk4 V c 1 t) p2 u j).trans ?_
  exact congrArg (p2 (ix2 u j) + ·) (Finset.sum_congr rfl fun r _ => tile_entry V c t r j)

/-- A later tile leaves what was there plus the tile's sum of squares of H. -/
theorem visit_B_3 (c : Dev nD) (t : Fin cfg4.N) (hc : ¬cond4_0 (grid4.coords t))
    (p2 : Vec Ideal S1x128 .f32) (p3 : Vec Ideal S1x1 .f32) (u v : Fin 1) :
    out4_B_3 (F := Ideal) c (grid4.coords t) (ms4_0 t) (hs4_0 t) (ms4_1 t) (hs4_1 t) (ms4_2 t) (hs4_2 t) (ms4_3 t) (hs4_3 t) hc
        (iblk4 V c 0 t) (iblk4 V c 1 t) p2 p3 (ix2 u v)
      = p3 (ix2 u v) + ∑ r : Fin 1000, ∑ q : Fin 128,
          rowAt (arrH V c) (t.val * 1000 + r.val) q * rowAt (arrH V c) (t.val * 1000 + r.val) q := by
  rw [out_B_3 (F := Ideal) c (grid4.coords t) (ms4_0 t) (hs4_0 t) (ms4_1 t) (hs4_1 t) (ms4_2 t) (hs4_2 t) (ms4_3 t) (hs4_3 t) hc
    (iblk4 V c 0 t) (iblk4 V c 1 t) p2 p3]
  refine (sqStep_apply (iblk4 V c 0 t) (iblk4 V c 1 t) p3 u v).trans ?_
  exact congrArg (p3 (ix2 u v) + ·) (Finset.sum_congr rfl fun r _ => Finset.sum_congr rfl fun q _ => by rw [tile_entry V c t r q])

/-! ## The running values after every tile -/

/-- After tile n the first running buffer holds the column sums of H over the rows of tiles 0 … n and the second the
    sum of squares over those rows: by induction on the tile. -/
theorem outs_eq (c : Dev nD) : ∀ (n : ℕ) (hn : n < cfg4.N),
    (∀ (u : Fin 1) (j : Fin 128), ((outsAt4 V c n hn).1 : Vec Ideal S1x128 .f32) (ix2 u j) = colAcc (arrH V c) n j)
    ∧ (∀ (u v : Fin 1), ((outsAt4 V c n hn).2 : Vec Ideal S1x1 .f32) (ix2 u v) = sqAcc (arrH V c) n)
  | 0, hn => by
    have h0 : (⟨0, hn⟩ : Fin cfg4.N).val % 50 = 0 := rfl
    rw [outsAt4_A V c ⟨0, hn⟩ h0]
    dsimp only
    refine ⟨fun u j => ?_, fun u v => ?_⟩
    · rw [visit_A_2 V c ⟨0, hn⟩ ((hcond4_0 ⟨0, hn⟩).mpr h0) u j, colAcc_zero]
    · rw [visit_A_3 V c ⟨0, hn⟩ ((hcond4_0 ⟨0, hn⟩).mpr h0) u v, sqAcc_zero]
  | n + 1, hn => by
    have hN : n + 1 < 50 := lt_of_lt_of_eq hn (show cfg4.N = 50 from N_4)
    have hB : ¬(⟨n + 1, hn⟩ : Fin cfg4.N).val % 50 = 0 := by dsimp only; omega
    obtain ⟨ih2, ih3⟩ := outs_eq c n (Nat.lt_of_succ_lt hn)
    rw [outsAt4_B V c ⟨n + 1, hn⟩ hB]
    dsimp only
    refine ⟨fun u j => ?_, fun u v => ?_⟩
    · rw [visit_B_2 V c ⟨n + 1, hn⟩ (fun h => hB ((hcond4_0 ⟨n + 1, hn⟩).mp h)) _ _ u j, colAcc_succ]
      exact congrArg (· + _) (ih2 u j)
    · rw [visit_B_3 V c ⟨n + 1, hn⟩ (fun h => hB ((hcond4_0 ⟨n + 1, hn⟩).mp h)) _ _ u v, sqAcc_succ]
      exact congrArg (· + _) (ih3 u v)

/-! ## The result arrays -/

/-- The column sums of H, as the contents of the first result array. -/
abbrev colSums (c : Dev nD) : Buf (Elt Ideal) ((cfg4.win 2).arr.view.loc (c.tc : Thread nD τ)) :=
  fun i => Net.colSum (arrH V c) (i 1)
/-- The sum of squares of H, as the contents of the second result array. -/
abbrev sumSqs (c : Dev nD) : Buf (Elt Ideal) ((cfg4.win 3).arr.view.loc (c.tc : Thread nD τ)) :=
  fun _ => Net.sumSq (arrH V c)

/-- After the last tile the first running buffer holds the column sums of H over all rows. -/
theorem outs_last_2 (c : Dev nD) (t : Fin cfg4.N) (h49 : t.val = 49) :
    ((outsAt4 V c t.val t.isLt).1 : Vec Ideal S1x128 .f32) = fun i => Net.colSum (arrH V c) (i 1) := by
  funext i
  obtain ⟨u, j, rfl⟩ : ∃ (u : Fin 1) (j : Fin 128), i = ix2 u j := ⟨i 0, i 1, eq_ix2 i⟩
  rw [(outs_eq V c t.val t.isLt).1 u j, h49]
  exact colAcc_last (arrH V c) j

/-- After the last tile the second running buffer holds the sum of squares of H over all rows. -/
theorem outs_last_3 (c : Dev nD) (t : Fin cfg4.N) (h49 : t.val = 49) :
    ((outsAt4 V c t.val t.isLt).2 : Vec Ideal S1x1 .f32) = fun _ => Net.sumSq (arrH V c) := by
  funext i
  obtain ⟨u, v, rfl⟩ : ∃ (u : Fin 1) (v : Fin 1), i = ix2 u v := ⟨i 0, i 1, eq_ix2 i⟩
  rw [(outs_eq V c t.val t.isLt).2 u v, h49]
  exact sqAcc_last (arrH V c)

/-- The one write-back of the first result, after the last tile, writes the column sums: its block is the whole array. -/
theorem flushed2_eq (c : Dev nD) (t : Fin cfg4.N) (hf : (cfg4.win 2).flush t = true) :
    (dat4 V c).flushed 2 t = ((cfg4.win 2).blk t).view.read (Elt Ideal) (colSums V c) := by
  have hN : t.val < 50 := lt_of_lt_of_eq t.isLt (show cfg4.N = 50 from N_4)
  have h49 : t.val = 49 := by have := (flush4_2 t).mp hf; omega
  obtain ⟨-, -, -, -, e4, e5, -⟩ := idx_facts t
  show (cfg4.win 2).cut (grid4.coords t) ((dat4 V c).after 2 t) = _
  rw [after4_2, outs_last_2 V c t h49]
  have hz' : (fun a => win4_2.index t a * main_v42_0.ty.shape.size a) = fun _ => 0 := funext fun a => by
    match a with
    | ⟨0, _⟩ => show win4_2.index t (0 : Fin 2) * 1 = 0; omega
    | ⟨1, _⟩ => show win4_2.index t (1 : Fin 2) * 128 = 0; omega
  exact (Memref.read_access_unit_zero (Elt Ideal) main_v42_0 hz' (fun a => by rw [congrFun hz' a]; simp) (colSums V c)).symm

/-- The one write-back of the second result writes the sum of squares. -/
theorem flushed3_eq (c : Dev nD) (t : Fin cfg4.N) (hf : (cfg4.win 3).flush t = true) :
    (dat4 V c).flushed 3 t = ((cfg4.win 3).blk t).view.read (Elt Ideal) (sumSqs V c) := by
  have hN : t.val < 50 := lt_of_lt_of_eq t.isLt (show cfg4.N = 50 from N_4)
  have h49 : t.val = 49 := by have := (flush4_3 t).mp hf; omega
  obtain ⟨-, -, -, -, -, -, e6, e7⟩ := idx_facts t
  show (cfg4.win 3).cut (grid4.coords t) ((dat4 V c).after 3 t) = _
  rw [after4_3, outs_last_3 V c t h49]
  have hz' : (fun a => win4_3.index t a * main_v42_1.ty.shape.size a) = fun _ => 0 := funext fun a => by
    match a with
    | ⟨0, _⟩ => show win4_3.index t (0 : Fin 2) * 1 = 0; omega
    | ⟨1, _⟩ => show win4_3.index t (1 : Fin 2) * 1 = 0; omega
  exact (Memref.read_access_unit_zero (Elt Ideal) main_v42_1 hz' (fun a => by rw [congrFun hz' a]; simp) (sumSqs V c)).symm

/-- The last grid point. -/
def tLast : Fin cfg4.N := ⟨49, by rw [show cfg4.N = 50 from N_4]; decide⟩

/-- THE FIRST RESULT: when the pass ends its array holds, at column j, the sum of H's column j over all 50000 rows. -/
theorem colsum (c : Dev nD) :
    (dat4 (F := Ideal) V c).arrAt 2 cfg4.N
      = fun i => Net.colSum (Net.addRow (V c (Pipeline.arrRef spec4 0)) (V c (Pipeline.arrRef spec4 1))) (i 1) :=
  (dat4 V c).arrAt_eq_of_cover 2 (colSums V c) (flushed2_eq V c) fun i =>
    ⟨tLast, (flush4_2 tLast).mpr rfl, by
      obtain ⟨-, -, -, -, e4, e5, -⟩ := idx_facts tLast
      show i ∈ ((View.whole main_v42_0).slice (win4_2.rect tLast)).set
      rw [View.set_slice_whole, Rect.mem_set_unit]
      intro a
      have h0 : (i 0 : Nat) < 1 := (i 0).isLt
      have h1 : (i 1 : Nat) < 128 := (i 1).isLt
      match a with
      | ⟨0, _⟩ => show win4_2.index tLast 0 * 1 ≤ (i 0 : Nat) ∧ (i 0 : Nat) < win4_2.index tLast 0 * 1 + 1; omega
      | ⟨1, _⟩ => show win4_2.index tLast 1 * 128 ≤ (i 1 : Nat) ∧ (i 1 : Nat) < win4_2.index tLast 1 * 128 + 128; omega⟩

/-- THE SECOND RESULT: when the pass ends its array holds the sum of the squares of all entries of H. -/
theorem sumsq (c : Dev nD) :
    (dat4 (F := Ideal) V c).arrAt 3 cfg4.N
      = fun _ => Net.sumSq (Net.addRow (V c (Pipeline.arrRef spec4 0)) (V c (Pipeline.arrRef spec4 1))) :=
  (dat4 V c).arrAt_eq_of_cover 3 (sumSqs V c) (flushed3_eq V c) fun i =>
    ⟨tLast, (flush4_3 tLast).mpr rfl, by
      obtain ⟨-, -, -, -, -, -, e6, e7⟩ := idx_facts tLast
      show i ∈ ((View.whole main_v42_1).slice (win4_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win4_3.index tLast 0 * 1 ≤ (i 0 : Nat) ∧ (i 0 : Nat) < win4_3.index tLast 0 * 1 + 1; omega
      | ⟨1, _⟩ => show win4_3.index tLast 1 * 1 ≤ (i 1 : Nat) ∧ (i 1 : Nat) < win4_3.index tLast 1 * 1 + 1; omega⟩

end Cert.KernelIdeal.Stats4

end
-- ==== Proof.Stats7Body.lean ====
/-
  What one visit of the statistics pass leaves in its two running buffers, as values.

  At the first tile the pass stores a zero row and a zero entry, reads them back, and leaves the column step and the
  square step taken from zero; at every later tile it leaves the steps taken from what the buffers held.  The steps are
  functions of the tile, the bias row and the running value only: the buffers' addresses do not enter.
-/
import proofs.«132746_j34668976013395_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Stats7

open Cert.KernelIdeal Cert.KernelIdeal.Gen

variable {F : FTy → Type} [FloatOps F]

/-- The zero offsets of a whole-buffer access, however spelt. -/
theorem hz : (![0, 0] : Fin 2 → Nat) = fun _ => 0 := funext fun a => by fin_cases a <;> rfl

/-- A later tile: the running column sums become the column step of what they were. -/
theorem out_B_2 (c : Dev nD) (i : grid7.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x1 .f32) (h4 : a4.IsWhole) (hc : ¬cond7_0 i)
    (x0 : Vec F S1000x128 .f32) (x1 : Vec F S1x128 .f32) (xo2 : Vec F S1x128 .f32) (xo3 : Vec F S1x1 .f32) :
    out7_B_2 c i a1 h1 a2 h2 a3 h3 a4 h4 hc x0 x1 xo2 xo3 = k7_pay4 x0 x1 xo2 := by
  unfold out7_B_2
  rw [View.read_writes_eq_canon _ _ _ (cover7_B_2 c i a1 h1 a2 h2 a3 h3 a4 h4 hc x0 x1 xo2 xo3)]
  unfold kernelRun7_B
  dsimp only
  sl_unfold_words
  rw [View.canon_unit_zero hz]
  simp only [View.readAt_eq_ld, h1.read_unread, h2.read_unread, h3.read_unread,
    View.ld_unit_zero (S := S1000x128) hz, View.ld_unit_zero (S := S1x128) hz]

/-- A later tile: the running sum of squares becomes the square step of what it was. -/
theorem out_B_3 (c : Dev nD) (i : grid7.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x1 .f32) (h4 : a4.IsWhole) (hc : ¬cond7_0 i)
    (x0 : Vec F S1000x128 .f32) (x1 : Vec F S1x128 .f32) (xo2 : Vec F S1x128 .f32) (xo3 : Vec F S1x1 .f32) :
    out7_B_3 c i a1 h1 a2 h2 a3 h3 a4 h4 hc x0 x1 xo2 xo3 = k7_pay5 x0 x1 xo3 := by
  unfold out7_B_3
  rw [View.read_writes_eq_canon _ _ _ (cover7_B_3 c i a1 h1 a2 h2 a3 h3 a4 h4 hc x0 x1 xo2 xo3)]
  unfold kernelRun7_B
  dsimp only
  sl_unfold_words
  rw [View.canon_unit_zero hz]
  simp only [View.readAt_eq_ld, h1.read_unread, h2.read_unread, h4.read_unread,
    View.ld_unit_zero (S := S1000x128) hz, View.ld_unit_zero (S := S1x128) hz, View.ld_unit_zero (S := S1x1) hz]

/-- The first tile: the running column sums become the column step of the zero row. -/
theorem out_A_2 (c : Dev nD) (i : grid7.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x1 .f32) (h4 : a4.IsWhole) (hc : cond7_0 i)
    (x0 : Vec F S1000x128 .f32) (x1 : Vec F S1x128 .f32) :
    out7_A_2 c i a1 h1 a2 h2 a3 h3 a4 h4 hc x0 x1 = k7_pay4 x0 x1 k7_pay1 := by
  unfold out7_A_2
  rw [View.read_writes_eq_canon _ _ _ (cover7_A_2 c i a1 h1 a2 h2 a3 h3 a4 h4 hc x0 x1)]
  unfold kernelRun7_A
  dsimp only
  sl_unfold_words
  rw [View.canon_cons_unit_zero (S := S1x128) hz, View.readCov_unit_zero (S := S1x128) _ hz]
  simp only [View.readAt_eq_ld, h1.read_unread, h2.read_unread,
    View.ld_unit_zero (S := S1000x128) hz, View.ld_unit_zero (S := S1x128) hz]

/-- The first tile: the running sum of squares becomes the square step of the zero entry. -/
theorem out_A_3 (c : Dev nD) (i : grid7.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x1 .f32) (h4 : a4.IsWhole) (hc : cond7_0 i)
    (x0 : Vec F S1000x128 .f32) (x1 : Vec F S1x128 .f32) :
    out7_A_3 c i a1 h1 a2 h2 a3 h3 a4 h4 hc x0 x1 = k7_pay5 x0 x1 k7_pay2 := by
  unfold out7_A_3
  rw [View.read_writes_eq_canon _ _ _ (cover7_A_3 c i a1 h1 a2 h2 a3 h3 a4 h4 hc x0 x1)]
  unfold kernelRun7_A
  dsimp only
  sl_unfold_words
  rw [View.canon_cons_unit_zero (S := S1x1) hz, View.readCov_unit_zero (S := S1x1) _ hz]
  simp only [View.readAt_eq_ld, h1.read_unread, h2.read_unread,
    View.ld_unit_zero (S := S1000x128) hz, View.ld_unit_zero (S := S1x128) hz]

end Cert.KernelIdeal.Stats7

end
-- ==== Proof.Stats7.lean ====
/-
  The statistics pass over the whole array: what its two result arrays hold when it ends.

  The pass visits the array's 50 tiles of 1000 rows in order.  Its two results are one row of column sums and one
  entry, the sum of squares; each is a running value carried from tile to tile and written out after the last one.
  With H the array plus the bias row, the running column sum after tile n is the sum of H over the rows of tiles
  0 … n and the running sum of squares the sum over those rows of the row's squares (induction on the tile: the first
  tile starts from zero, each later tile adds its own rows).  After tile 49 these are the sums over all rows, and
  that is what the one write-back, after the last tile, leaves in the result arrays.
-/
import proofs.«132746_j34668976013395_1_alg».proof.Proof.Net
import proofs.«132746_j34668976013395_1_alg».proof.Proof.StatsMath
import proofs.«132746_j34668976013395_1_alg».proof.Proof.Stats7Body
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Stats7

open Cert.KernelIdeal Cert.KernelIdeal.Gen Cert.Stats

variable (V : (c : Dev nD) → (b : Ref sig .tc) → Buf (Elt Ideal) ((c : Thread nD τ).loc b))

/-- The array the pass sums, as the pass finds it. -/
abbrev arrA (c : Dev nD) : Net.Mat 50000 128 := V c (Pipeline.arrRef spec7 0)
/-- The bias row, as the pass finds it. -/
abbrev rowB (c : Dev nD) : Net.Mat 1 128 := V c (Pipeline.arrRef spec7 1)
/-- The array plus the bias row. -/
abbrev arrH (c : Dev nD) : Net.Mat 50000 128 := Net.addRow (arrA V c) (rowB V c)

/-! ## The printed steps are the tile steps -/

theorem pay4_eq (x0 : Vec Ideal S1000x128 .f32) (x1 : Vec Ideal S1x128 .f32) (acc : Vec Ideal S1x128 .f32) :
    k7_pay4 (F := Ideal) x0 x1 acc = colStep x0 x1 acc := rfl
theorem pay5_eq (x0 : Vec Ideal S1000x128 .f32) (x1 : Vec Ideal S1x128 .f32) (acc : Vec Ideal S1x1 .f32) :
    k7_pay5 (F := Ideal) x0 x1 acc = sqStep x0 x1 acc := rfl
theorem pay1_eq : k7_pay1 (F := Ideal) = zeroRow := rfl
theorem pay2_eq : k7_pay2 (F := Ideal) = zeroOne := rfl

/-! ## The tiles -/

/-- Where the windows' blocks sit: tile t of the array starts at row block t; the bias row and the two results have one
    block, at the origin. Decided over the 50 grid points. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- Tile t of the array, and the bias window's block at point t, at their literal shapes. -/
abbrev tileAt (c : Dev nD) (t : Fin cfg7.N) : FVec Ideal Tile .f32 := iblk7 V c 0 t
abbrev biasAt (c : Dev nD) (t : Fin cfg7.N) : FVec Ideal Row .f32 := iblk7 V c 1 t

/-- Entry (r, q) of tile t is the array's entry at row 1000 t + r. -/
theorem tile_apply (c : Dev nD) (t : Fin cfg7.N) (r : Fin 1000) (q : Fin 128) (hlt : t.val * 1000 + r.val < 50000) :
    tileAt V c t (ix2 r q) = arrA V c (ix2 ⟨t.val * 1000 + r.val, hlt⟩ q) := by
  obtain ⟨e0, e1, -⟩ := idx_facts t
  show V c (Pipeline.arrRef spec7 0) (((cfg7.win 0).blk t).view.emb (ix2 r q)) = V c (Pipeline.arrRef spec7 0) _
  refine congrArg (V c (Pipeline.arrRef spec7 0)) (funext fun a => Fin.ext ?_)
  match a with
  | ⟨0, _⟩ => show win7_0.index t (0 : Fin 2) * 1000 + 1 * r.val = t.val * 1000 + r.val; omega
  | ⟨1, _⟩ => show win7_0.index t (1 : Fin 2) * 128 + 1 * q.val = q.val; omega

/-- The bias window's one block is the bias row. -/
theorem bias_apply (c : Dev nD) (t : Fin cfg7.N) (u : Fin 1) (q : Fin 128) :
    biasAt V c t (ix2 u q) = rowB V c (ix2 (0 : Fin 1) q) := by
  obtain ⟨-, -, e2, e3, -⟩ := idx_facts t
  have hu : u.val = 0 := by omega
  show V c (Pipeline.arrRef spec7 1) (((cfg7.win 1).blk t).view.emb (ix2 u q)) = V c (Pipeline.arrRef spec7 1) _
  refine congrArg (V c (Pipeline.arrRef spec7 1)) (funext fun a => Fin.ext ?_)
  match a with
  | ⟨0, _⟩ => show win7_1.index t (0 : Fin 2) * 1 + 1 * u.val = 0; omega
  | ⟨1, _⟩ => show win7_1.index t (1 : Fin 2) * 128 + 1 * q.val = q.val; omega

/-- So tile t's entry (r, q) plus the bias at q is H at row 1000 t + r. -/
theorem tile_entry (c : Dev nD) (t : Fin cfg7.N) (r : Fin 1000) (q : Fin 128) :
    tileAt V c t (ix2 r q) + biasAt V c t (ix2 (0 : Fin 1) q) = rowAt (arrH V c) (t.val * 1000 + r.val) q := by
  have hN : t.val < 50 := lt_of_lt_of_eq t.isLt (show cfg7.N = 50 from N_7)
  have hlt : t.val * 1000 + r.val < 50000 := by have := r.isLt; omega
  rw [rowAt_of_lt _ _ hlt, tile_apply V c t r q hlt, bias_apply V c t 0 q]
  rfl

/-! ## One visit, at an index -/

/-- The first tile leaves, at column j, zero plus the tile's column sum of H. -/
theorem visit_A_2 (c : Dev nD) (t : Fin cfg7.N) (hc : cond7_0 (grid7.coords t)) (u : Fin 1) (j : Fin 128) :
    out7_A_2 (F := Ideal) c (grid7.coords t) (ms7_0 t) (hs7_0 t) (ms7_1 t) (hs7_1 t) (ms7_2 t) (hs7_2 t) (ms7_3 t) (hs7_3 t) hc
        (iblk7 V c 0 t) (iblk7 V c 1 t) (ix2 u j)
      = 0 + ∑ r : Fin 1000, rowAt (arrH V c) (t.val * 1000 + r.val) j := by
  rw [out_A_2 (F := Ideal) c (grid7.coords t) (ms7_0 t) (hs7_0 t) (ms7_1 t) (hs7_1 t) (ms7_2 t) (hs7_2 t) (ms7_3 t) (hs7_3 t) hc
    (iblk7 V c 0 t) (iblk7 V c 1 t)]
  refine (colStep_apply (iblk7 V c 0 t) (iblk7 V c 1 t) zeroRow u j).trans ?_
  rw [zeroRow_apply]
  exact congrArg (0 + ·) (Finset.sum_congr rfl fun r _ => tile_entry V c t r j)

/-- The first tile leaves zero plus the tile's sum of squares of H. -/
theorem visit_A_3 (c : Dev nD) (t : Fin cfg7.N) (hc : cond7_0 (grid7.coords t)) (u v : Fin 1) :
    out7_A_3 (F := Ideal) c (grid7.coords t) (ms7_0 t) (hs7_0 t) (ms7_1 t) (hs7_1 t) (ms7_2 t) (hs7_2 t) (ms7_3 t) (hs7_3 t) hc
        (iblk7 V c 0 t) (iblk7 V c 1 t) (ix2 u v)
      = 0 + ∑ r : Fin 1000, ∑ q : Fin 128,
          rowAt (arrH V c) (t.val * 1000 + r.val) q * rowAt (arrH V c) (t.val * 1000 + r.val) q := by
  rw [out_A_3 (F := Ideal) c (grid7.coords t) (ms7_0 t) (hs7_0 t) (ms7_1 t) (hs7_1 t) (ms7_2 t) (hs7_2 t) (ms7_3 t) (hs7_3 t) hc
    (iblk7 V c 0 t) (iblk7 V c 1 t)]
  refine (sqStep_apply (iblk7 V c 0 t) (iblk7 V c 1 t) zeroOne u v).trans ?_
  rw [zeroOne_apply]
  exact congrArg (0 + ·) (Finset.sum_congr rfl fun r _ => Finset.sum_congr rfl fun q _ => by rw [tile_entry V c t r q])

/-- A later tile leaves, at column j, what was there plus the tile's column sum of H. -/
theorem visit_B_2 (c : Dev nD) (t : Fin cfg7.N) (hc : ¬cond7_0 (grid7.coords t))
    (p2 : Vec Ideal S1x128 .f32) (p3 : Vec Ideal S1x1 .f32) (u : Fin 1) (j : Fin 128) :
    out7_B_2 (F := Ideal) c (grid7.coords t) (ms7_0 t) (hs7_0 t) (ms7_1 t) (hs7_1 t) (ms7_2 t) (hs7_2 t) (ms7_3 t) (hs7_3 t) hc
        (iblk7 V c 0 t) (iblk7 V c 1 t) p2 p3 (ix2 u j)
      = p2 (ix2 u j) + ∑ r : Fin 1000, rowAt (arrH V c) (t.val * 1000 + r.val) j := by
  rw [out_B_2 (F := Ideal) c (grid7.coords t) (ms7_0 t) (hs7_0 t) (ms7_1 t) (hs7_1 t) (ms7_2 t) (hs7_2 t) (ms7_3 t) (hs7_3 t) hc
    (iblk7 V c 0 t) (iblk7 V c 1 t) p2 p3]
  refine (colStep_apply (iblk7 V c 0 t) (iblk7 V c 1 t) p2 u j).trans ?_
  exact congrArg (p2 (ix2 u j) + ·) (Finset.sum_congr rfl fun r _ => tile_entry V c t r j)

/-- A later tile leaves what was there plus the tile's sum of squares of H. -/
theorem visit_B_3 (c : Dev nD) (t : Fin cfg7.N) (hc : ¬cond7_0 (grid7.coords t))
    (p2 : Vec Ideal S1x128 .f32) (p3 : Vec Ideal S1x1 .f32) (u v : Fin 1) :
    out7_B_3 (F := Ideal) c (grid7.coords t) (ms7_0 t) (hs7_0 t) (ms7_1 t) (hs7_1 t) (ms7_2 t) (hs7_2 t) (ms7_3 t) (hs7_3 t) hc
        (iblk7 V c 0 t) (iblk7 V c 1 t) p2 p3 (ix2 u v)
      = p3 (ix2 u v) + ∑ r : Fin 1000, ∑ q : Fin 128,
          rowAt (arrH V c) (t.val * 1000 + r.val) q * rowAt (arrH V c) (t.val * 1000 + r.val) q := by
  rw [out_B_3 (F := Ideal) c (grid7.coords t) (ms7_0 t) (hs7_0 t) (ms7_1 t) (hs7_1 t) (ms7_2 t) (hs7_2 t) (ms7_3 t) (hs7_3 t) hc
    (iblk7 V c 0 t) (iblk7 V c 1 t) p2 p3]
  refine (sqStep_apply (iblk7 V c 0 t) (iblk7 V c 1 t) p3 u v).trans ?_
  exact congrArg (p3 (ix2 u v) + ·) (Finset.sum_congr rfl fun r _ => Finset.sum_congr rfl fun q _ => by rw [tile_entry V c t r q])

/-! ## The running values after every tile -/

/-- After tile n the first running buffer holds the column sums of H over the rows of tiles 0 … n and the second the
    sum of squares over those rows: by induction on the tile. -/
theorem outs_eq (c : Dev nD) : ∀ (n : ℕ) (hn : n < cfg7.N),
    (∀ (u : Fin 1) (j : Fin 128), ((outsAt7 V c n hn).1 : Vec Ideal S1x128 .f32) (ix2 u j) = colAcc (arrH V c) n j)
    ∧ (∀ (u v : Fin 1), ((outsAt7 V c n hn).2 : Vec Ideal S1x1 .f32) (ix2 u v) = sqAcc (arrH V c) n)
  | 0, hn => by
    have h0 : (⟨0, hn⟩ : Fin cfg7.N).val % 50 = 0 := rfl
    rw [outsAt7_A V c ⟨0, hn⟩ h0]
    dsimp only
    refine ⟨fun u j => ?_, fun u v => ?_⟩
    · rw [visit_A_2 V c ⟨0, hn⟩ ((hcond7_0 ⟨0, hn⟩).mpr h0) u j, colAcc_zero]
    · rw [visit_A_3 V c ⟨0, hn⟩ ((hcond7_0 ⟨0, hn⟩).mpr h0) u v, sqAcc_zero]
  | n + 1, hn => by
    have hN : n + 1 < 50 := lt_of_lt_of_eq hn (show cfg7.N = 50 from N_7)
    have hB : ¬(⟨n + 1, hn⟩ : Fin cfg7.N).val % 50 = 0 := by dsimp only; omega
    obtain ⟨ih2, ih3⟩ := outs_eq c n (Nat.lt_of_succ_lt hn)
    rw [outsAt7_B V c ⟨n + 1, hn⟩ hB]
    dsimp only
    refine ⟨fun u j => ?_, fun u v => ?_⟩
    · rw [visit_B_2 V c ⟨n + 1, hn⟩ (fun h => hB ((hcond7_0 ⟨n + 1, hn⟩).mp h)) _ _ u j, colAcc_succ]
      exact congrArg (· + _) (ih2 u j)
    · rw [visit_B_3 V c ⟨n + 1, hn⟩ (fun h => hB ((hcond7_0 ⟨n + 1, hn⟩).mp h)) _ _ u v, sqAcc_succ]
      exact congrArg (· + _) (ih3 u v)

/-! ## The result arrays -/

/-- The column sums of H, as the contents of the first result array. -/
abbrev colSums (c : Dev nD) : Buf (Elt Ideal) ((cfg7.win 2).arr.view.loc (c.tc : Thread nD τ)) :=
  fun i => Net.colSum (arrH V c) (i 1)
/-- The sum of squares of H, as the contents of the second result array. -/
abbrev sumSqs (c : Dev nD) : Buf (Elt Ideal) ((cfg7.win 3).arr.view.loc (c.tc : Thread nD τ)) :=
  fun _ => Net.sumSq (arrH V c)

/-- After the last tile the first running buffer holds the column sums of H over all rows. -/
theorem outs_last_2 (c : Dev nD) (t : Fin cfg7.N) (h49 : t.val = 49) :
    ((outsAt7 V c t.val t.isLt).1 : Vec Ideal S1x128 .f32) = fun i => Net.colSum (arrH V c) (i 1) := by
  funext i
  obtain ⟨u, j, rfl⟩ : ∃ (u : Fin 1) (j : Fin 128), i = ix2 u j := ⟨i 0, i 1, eq_ix2 i⟩
  rw [(outs_eq V c t.val t.isLt).1 u j, h49]
  exact colAcc_last (arrH V c) j

/-- After the last tile the second running buffer holds the sum of squares of H over all rows. -/
theorem outs_last_3 (c : Dev nD) (t : Fin cfg7.N) (h49 : t.val = 49) :
    ((outsAt7 V c t.val t.isLt).2 : Vec Ideal S1x1 .f32) = fun _ => Net.sumSq (arrH V c) := by
  funext i
  obtain ⟨u, v, rfl⟩ : ∃ (u : Fin 1) (v : Fin 1), i = ix2 u v := ⟨i 0, i 1, eq_ix2 i⟩
  rw [(outs_eq V c t.val t.isLt).2 u v, h49]
  exact sqAcc_last (arrH V c)

/-- The one write-back of the first result, after the last tile, writes the column sums: its block is the whole array. -/
theorem flushed2_eq (c : Dev nD) (t : Fin cfg7.N) (hf : (cfg7.win 2).flush t = true) :
    (dat7 V c).flushed 2 t = ((cfg7.win 2).blk t).view.read (Elt Ideal) (colSums V c) := by
  have hN : t.val < 50 := lt_of_lt_of_eq t.isLt (show cfg7.N = 50 from N_7)
  have h49 : t.val = 49 := by have := (flush7_2 t).mp hf; omega
  obtain ⟨-, -, -, -, e4, e5, -⟩ := idx_facts t
  show (cfg7.win 2).cut (grid7.coords t) ((dat7 V c).after 2 t) = _
  rw [after7_2, outs_last_2 V c t h49]
  have hz' : (fun a => win7_2.index t a * main_v70_0.ty.shape.size a) = fun _ => 0 := funext fun a => by
    match a with
    | ⟨0, _⟩ => show win7_2.index t (0 : Fin 2) * 1 = 0; omega
    | ⟨1, _⟩ => show win7_2.index t (1 : Fin 2) * 128 = 0; omega
  exact (Memref.read_access_unit_zero (Elt Ideal) main_v70_0 hz' (fun a => by rw [congrFun hz' a]; simp) (colSums V c)).symm

/-- The one write-back of the second result writes the sum of squares. -/
theorem flushed3_eq (c : Dev nD) (t : Fin cfg7.N) (hf : (cfg7.win 3).flush t = true) :
    (dat7 V c).flushed 3 t = ((cfg7.win 3).blk t).view.read (Elt Ideal) (sumSqs V c) := by
  have hN : t.val < 50 := lt_of_lt_of_eq t.isLt (show cfg7.N = 50 from N_7)
  have h49 : t.val = 49 := by have := (flush7_3 t).mp hf; omega
  obtain ⟨-, -, -, -, -, -, e6, e7⟩ := idx_facts t
  show (cfg7.win 3).cut (grid7.coords t) ((dat7 V c).after 3 t) = _
  rw [after7_3, outs_last_3 V c t h49]
  have hz' : (fun a => win7_3.index t a * main_v70_1.ty.shape.size a) = fun _ => 0 := funext fun a => by
    match a with
    | ⟨0, _⟩ => show win7_3.index t (0 : Fin 2) * 1 = 0; omega
    | ⟨1, _⟩ => show win7_3.index t (1 : Fin 2) * 1 = 0; omega
  exact (Memref.read_access_unit_zero (Elt Ideal) main_v70_1 hz' (fun a => by rw [congrFun hz' a]; simp) (sumSqs V c)).symm

/-- The last grid point. -/
def tLast : Fin cfg7.N := ⟨49, by rw [show cfg7.N = 50 from N_7]; decide⟩

/-- THE FIRST RESULT: when the pass ends its array holds, at column j, the sum of H's column j over all 50000 rows. -/
theorem colsum (c : Dev nD) :
    (dat7 (F := Ideal) V c).arrAt 2 cfg7.N
      = fun i => Net.colSum (Net.addRow (V c (Pipeline.arrRef spec7 0)) (V c (Pipeline.arrRef spec7 1))) (i 1) :=
  (dat7 V c).arrAt_eq_of_cover 2 (colSums V c) (flushed2_eq V c) fun i =>
    ⟨tLast, (flush7_2 tLast).mpr rfl, by
      obtain ⟨-, -, -, -, e4, e5, -⟩ := idx_facts tLast
      show i ∈ ((View.whole main_v70_0).slice (win7_2.rect tLast)).set
      rw [View.set_slice_whole, Rect.mem_set_unit]
      intro a
      have h0 : (i 0 : Nat) < 1 := (i 0).isLt
      have h1 : (i 1 : Nat) < 128 := (i 1).isLt
      match a with
      | ⟨0, _⟩ => show win7_2.index tLast 0 * 1 ≤ (i 0 : Nat) ∧ (i 0 : Nat) < win7_2.index tLast 0 * 1 + 1; omega
      | ⟨1, _⟩ => show win7_2.index tLast 1 * 128 ≤ (i 1 : Nat) ∧ (i 1 : Nat) < win7_2.index tLast 1 * 128 + 128; omega⟩

/-- THE SECOND RESULT: when the pass ends its array holds the sum of the squares of all entries of H. -/
theorem sumsq (c : Dev nD) :
    (dat7 (F := Ideal) V c).arrAt 3 cfg7.N
      = fun _ => Net.sumSq (Net.addRow (V c (Pipeline.arrRef spec7 0)) (V c (Pipeline.arrRef spec7 1))) :=
  (dat7 V c).arrAt_eq_of_cover 3 (sumSqs V c) (flushed3_eq V c) fun i =>
    ⟨tLast, (flush7_3 tLast).mpr rfl, by
      obtain ⟨-, -, -, -, -, -, e6, e7⟩ := idx_facts tLast
      show i ∈ ((View.whole main_v70_1).slice (win7_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win7_3.index tLast 0 * 1 ≤ (i 0 : Nat) ∧ (i 0 : Nat) < win7_3.index tLast 0 * 1 + 1; omega
      | ⟨1, _⟩ => show win7_3.index tLast 1 * 1 ≤ (i 1 : Nat) ∧ (i 1 : Nat) < win7_3.index tLast 1 * 1 + 1; omega⟩

end Cert.KernelIdeal.Stats7

end
-- ==== Proof.Chain.lean ====
/-
  The idealized kernel's result as a function of its arguments.

  Boundary by boundary through the program's seventeen segments, every buffer the next segment consumes is named as a
  function of the twelve argument arrays: a dense product where a matmul region wrote it, the aggregation over the edges
  where the host's gather-scale-scatter stretch wrote it, the column sums and the sum of squares after a statistics
  region, the column means and the reciprocal root after the host's scalar stretch, a layer's output after a pointwise
  region.  A buffer consumed later than it is produced is carried across the segments in between unchanged.
-/
import proofs.«132746_j34668976013395_1_alg».proof.Proof.Gen.KernelIdeal.Frame
import proofs.«132746_j34668976013395_1_alg».proof.Proof.KNet
import proofs.«132746_j34668976013395_1_alg».proof.Proof.Glue
import proofs.«132746_j34668976013395_1_alg».proof.Proof.Keep
import proofs.«132746_j34668976013395_1_alg».proof.Proof.Mm0
import proofs.«132746_j34668976013395_1_alg».proof.Proof.Mm3
import proofs.«132746_j34668976013395_1_alg».proof.Proof.Mm6
import proofs.«132746_j34668976013395_1_alg».proof.Proof.Mm9
import proofs.«132746_j34668976013395_1_alg».proof.Proof.Pn2
import proofs.«132746_j34668976013395_1_alg».proof.Proof.Pn5
import proofs.«132746_j34668976013395_1_alg».proof.Proof.Pn8
import proofs.«132746_j34668976013395_1_alg».proof.Proof.Stats1
import proofs.«132746_j34668976013395_1_alg».proof.Proof.Stats4
import proofs.«132746_j34668976013395_1_alg».proof.Proof.Stats7
import Idealize.ShloMosaic.Lib.StableHlo.Run

set_option maxRecDepth 16384
set_option maxHeartbeats 4000000

noncomputable section

namespace Cert.KernelIdeal.Chain

open Cert.KernelIdeal Cert.KernelIdeal.Facts₀ Cert.KernelIdeal.Gen Cert.KNet
open Idealize.ShloMosaic Idealize.ShloMosaic.TcCoe Idealize.ShloMosaic.Tactic Idealize.ShloMosaic.ValueIdx Idealize.SL.Sem
open Idealize.ShloMosaic.StableHlo

variable (m : (ℓ : Loc nD τ sig) → Buf (Elt Ideal) ℓ) (ρ : Dev nD → PrngReg) (c : Dev nD)

/-! ## Layer 1 -/

/-- The first product, as region 0 leaves it. -/
theorem mm1 : W1 m ρ c (Proc.devRef .tc main_v0) = (Net.mm (m ((c : Thread nD τ).loc main_arg0)) (m ((c : Thread nD τ).loc main_arg4))) :=
  (W1_arr m ρ c 2).trans (Cert.KernelIdeal.Mm0.final (V0 m ρ) c)

set_option maxHeartbeats 8000000 in
/-- Layer 1's aggregated features, as the host stretch leaves them. -/
theorem agg1 : W2 m ρ c (Proc.devRef .tc main_v13) = (agg128 (m ((c : Thread nD τ).loc main_arg1)) (m ((c : Thread nD τ).loc main_arg2)) (m ((c : Thread nD τ).loc main_arg3)) (Net.mm (m ((c : Thread nD τ).loc main_arg0)) (m ((c : Thread nD τ).loc main_arg4)))) := by
  have h : W2 m ρ c (Proc.devRef .tc main_v13)
      = agg128 (W1 m ρ c (Proc.devRef .tc main_arg1)) (W1 m ρ c (Proc.devRef .tc main_arg2)) (W1 m ρ c (Proc.devRef .tc main_arg3)) (W1 m ρ c (Proc.devRef .tc main_v0)) := by
    show StableHlo.after hostOps1 (W1 m ρ c) (Proc.devRef .tc main_v13) = _
    after_results
    rfl
  rw [h, Cert.KernelIdeal.Keep.keep_main_arg1_0_1 m ρ c, Cert.KernelIdeal.Keep.keep_main_arg2_0_1 m ρ c,
    Cert.KernelIdeal.Keep.keep_main_arg3_0_1 m ρ c, mm1 m ρ c]

/-- Layer 1's column sums and sum of squares, as region 1 leaves them. -/
theorem cs1 : W3 m ρ c (Proc.devRef .tc main_v14_0) = fun i => Net.colSum (Net.addRow (agg128 (m ((c : Thread nD τ).loc main_arg1)) (m ((c : Thread nD τ).loc main_arg2)) (m ((c : Thread nD τ).loc main_arg3)) (Net.mm (m ((c : Thread nD τ).loc main_arg0)) (m ((c : Thread nD τ).loc main_arg4)))) (m ((c : Thread nD τ).loc main_arg5))) (i 1) := by
  have h := (W3_arr m ρ c 2).trans (Cert.KernelIdeal.Stats1.colsum (V2 m ρ) c)
  have e0 : V2 m ρ c (Pipeline.arrRef spec1 0) = (agg128 (m ((c : Thread nD τ).loc main_arg1)) (m ((c : Thread nD τ).loc main_arg2)) (m ((c : Thread nD τ).loc main_arg3)) (Net.mm (m ((c : Thread nD τ).loc main_arg0)) (m ((c : Thread nD τ).loc main_arg4)))) := agg1 m ρ c
  have e1 : V2 m ρ c (Pipeline.arrRef spec1 1) = (m ((c : Thread nD τ).loc main_arg5)) := Cert.KernelIdeal.Keep.keep_main_arg5_0_2 m ρ c
  rw [e0, e1] at h
  exact h

theorem ss1 : W3 m ρ c (Proc.devRef .tc main_v14_1) = fun _ => Net.sumSq (Net.addRow (agg128 (m ((c : Thread nD τ).loc main_arg1)) (m ((c : Thread nD τ).loc main_arg2)) (m ((c : Thread nD τ).loc main_arg3)) (Net.mm (m ((c : Thread nD τ).loc main_arg0)) (m ((c : Thread nD τ).loc main_arg4)))) (m ((c : Thread nD τ).loc main_arg5))) := by
  have h := (W3_arr m ρ c 3).trans (Cert.KernelIdeal.Stats1.sumsq (V2 m ρ) c)
  have e0 : V2 m ρ c (Pipeline.arrRef spec1 0) = (agg128 (m ((c : Thread nD τ).loc main_arg1)) (m ((c : Thread nD τ).loc main_arg2)) (m ((c : Thread nD τ).loc main_arg3)) (Net.mm (m ((c : Thread nD τ).loc main_arg0)) (m ((c : Thread nD τ).loc main_arg4)))) := agg1 m ρ c
  have e1 : V2 m ρ c (Pipeline.arrRef spec1 1) = (m ((c : Thread nD τ).loc main_arg5)) := Cert.KernelIdeal.Keep.keep_main_arg5_0_2 m ρ c
  rw [e0, e1] at h
  exact h

/-- Layer 1's column means and reciprocal root, as the host's scalar stretch leaves them. -/
theorem cm1 : W4 m ρ c (Proc.devRef .tc main_v16) = fun i => Net.colMeanK (Net.addRow (agg128 (m ((c : Thread nD τ).loc main_arg1)) (m ((c : Thread nD τ).loc main_arg2)) (m ((c : Thread nD τ).loc main_arg3)) (Net.mm (m ((c : Thread nD τ).loc main_arg0)) (m ((c : Thread nD τ).loc main_arg4)))) (m ((c : Thread nD τ).loc main_arg5))) (i 1) := by
  have h : W4 m ρ c (Proc.devRef .tc main_v16) = Cert.KGlue.cmRow (W3 m ρ c (Proc.devRef .tc main_v14_0)) := by
    show StableHlo.after hostOps2 (W3 m ρ c) (Proc.devRef .tc main_v16) = _
    after_results
    rfl
  rw [h, cs1 m ρ c]
  exact Cert.KGlue.cmRow_apply _

theorem inv1 : W4 m ρ c (Proc.devRef .tc main_v26) = fun _ => Net.invNormK (Net.addRow (agg128 (m ((c : Thread nD τ).loc main_arg1)) (m ((c : Thread nD τ).loc main_arg2)) (m ((c : Thread nD τ).loc main_arg3)) (Net.mm (m ((c : Thread nD τ).loc main_arg0)) (m ((c : Thread nD τ).loc main_arg4)))) (m ((c : Thread nD τ).loc main_arg5))) := by
  have h : W4 m ρ c (Proc.devRef .tc main_v26) = Cert.KGlue.invCell (W3 m ρ c (Proc.devRef .tc main_v14_0)) (W3 m ρ c (Proc.devRef .tc main_v14_1)) := by
    show StableHlo.after hostOps2 (W3 m ρ c) (Proc.devRef .tc main_v26) = _
    after_results
    rfl
  rw [h, cs1 m ρ c, ss1 m ρ c]
  exact Cert.KGlue.invCell_apply _

/-- Layer 1's output, as region 2 leaves it. -/
theorem out1 : W5 m ρ c (Proc.devRef .tc main_v27) = (kL1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have h := (W5_arr m ρ c 4).trans (Cert.KernelIdeal.Pn2.final (V4 m ρ) c)
  have e0 : V4 m ρ c (Pipeline.arrRef spec2 0) = (agg128 (m ((c : Thread nD τ).loc main_arg1)) (m ((c : Thread nD τ).loc main_arg2)) (m ((c : Thread nD τ).loc main_arg3)) (Net.mm (m ((c : Thread nD τ).loc main_arg0)) (m ((c : Thread nD τ).loc main_arg4)))) :=
    (Cert.KernelIdeal.Keep.keep_main_v13_2_4 m ρ c).trans (agg1 m ρ c)
  have e1 : V4 m ρ c (Pipeline.arrRef spec2 1) = (m ((c : Thread nD τ).loc main_arg5)) := Cert.KernelIdeal.Keep.keep_main_arg5_0_4 m ρ c
  have e2 : V4 m ρ c (Pipeline.arrRef spec2 2) = fun i => Net.colMeanK (Net.addRow (agg128 (m ((c : Thread nD τ).loc main_arg1)) (m ((c : Thread nD τ).loc main_arg2)) (m ((c : Thread nD τ).loc main_arg3)) (Net.mm (m ((c : Thread nD τ).loc main_arg0)) (m ((c : Thread nD τ).loc main_arg4)))) (m ((c : Thread nD τ).loc main_arg5))) (i 1) := cm1 m ρ c
  have e3 : V4 m ρ c (Pipeline.arrRef spec2 3) = fun _ => Net.invNormK (Net.addRow (agg128 (m ((c : Thread nD τ).loc main_arg1)) (m ((c : Thread nD τ).loc main_arg2)) (m ((c : Thread nD τ).loc main_arg3)) (Net.mm (m ((c : Thread nD τ).loc main_arg0)) (m ((c : Thread nD τ).loc main_arg4)))) (m ((c : Thread nD τ).loc main_arg5))) := inv1 m ρ c
  rw [e0, e1, e2, e3] at h
  exact h

/-! ## Layer 2 -/

/-- Layer 2's product, as region 3 leaves it. -/
theorem mm2 : W6 m ρ c (Proc.devRef .tc main_v28) = (Net.mm (kL1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) := by
  have h := (W6_arr m ρ c 2).trans (Cert.KernelIdeal.Mm3.final (V5 m ρ) c)
  have e0 : V5 m ρ c (Pipeline.arrRef spec3 0) = (kL1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := out1 m ρ c
  have e1 : V5 m ρ c (Pipeline.arrRef spec3 1) = (m ((c : Thread nD τ).loc main_arg6)) := Cert.KernelIdeal.Keep.keep_main_arg6_0_5 m ρ c
  rw [e0, e1] at h
  exact h

set_option maxHeartbeats 8000000 in
/-- Layer 2's aggregated features, as the host stretch leaves them. -/
theorem agg2 : W7 m ρ c (Proc.devRef .tc main_v41) = (agg128 (m ((c : Thread nD τ).loc main_arg1)) (m ((c : Thread nD τ).loc main_arg2)) (m ((c : Thread nD τ).loc main_arg3)) (Net.mm (kL1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)))) := by
  have h : W7 m ρ c (Proc.devRef .tc main_v41)
      = agg128 (W6 m ρ c (Proc.devRef .tc main_arg1)) (W6 m ρ c (Proc.devRef .tc main_arg2)) (W6 m ρ c (Proc.devRef .tc main_arg3)) (W6 m ρ c (Proc.devRef .tc main_v28)) := by
    show StableHlo.after hostOps4 (W6 m ρ c) (Proc.devRef .tc main_v41) = _
    after_results
    rfl
  rw [h, Cert.KernelIdeal.Keep.keep_main_arg1_0_6 m ρ c, Cert.KernelIdeal.Keep.keep_main_arg2_0_6 m ρ c,
    Cert.KernelIdeal.Keep.keep_main_arg3_0_6 m ρ c, mm2 m ρ c]

/-- Layer 2's column sums and sum of squares, as region 4 leaves them. -/
theorem cs2 : W8 m ρ c (Proc.devRef .tc main_v42_0) = fun i => Net.colSum (Net.addRow (agg128 (m ((c : Thread nD τ).loc main_arg1)) (m ((c : Thread nD τ).loc main_arg2)) (m ((c : Thread nD τ).loc main_arg3)) (Net.mm (kL1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)))) (m ((c : Thread nD τ).loc main_arg7))) (i 1) := by
  have h := (W8_arr m ρ c 2).trans (Cert.KernelIdeal.Stats4.colsum (V7 m ρ) c)
  have e0 : V7 m ρ c (Pipeline.arrRef spec4 0) = (agg128 (m ((c : Thread nD τ).loc main_arg1)) (m ((c : Thread nD τ).loc main_arg2)) (m ((c : Thread nD τ).loc main_arg3)) (Net.mm (kL1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)))) := agg2 m ρ c
  have e1 : V7 m ρ c (Pipeline.arrRef spec4 1) = (m ((c : Thread nD τ).loc main_arg7)) := Cert.KernelIdeal.Keep.keep_main_arg7_0_7 m ρ c
  rw [e0, e1] at h
  exact h

theorem ss2 : W8 m ρ c (Proc.devRef .tc main_v42_1) = fun _ => Net.sumSq (Net.addRow (agg128 (m ((c : Thread nD τ).loc main_arg1)) (m ((c : Thread nD τ).loc main_arg2)) (m ((c : Thread nD τ).loc main_arg3)) (Net.mm (kL1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)))) (m ((c : Thread nD τ).loc main_arg7))) := by
  have h := (W8_arr m ρ c 3).trans (Cert.KernelIdeal.Stats4.sumsq (V7 m ρ) c)
  have e0 : V7 m ρ c (Pipeline.arrRef spec4 0) = (agg128 (m ((c : Thread nD τ).loc main_arg1)) (m ((c : Thread nD τ).loc main_arg2)) (m ((c : Thread nD τ).loc main_arg3)) (Net.mm (kL1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)))) := agg2 m ρ c
  have e1 : V7 m ρ c (Pipeline.arrRef spec4 1) = (m ((c : Thread nD τ).loc main_arg7)) := Cert.KernelIdeal.Keep.keep_main_arg7_0_7 m ρ c
  rw [e0, e1] at h
  exact h

/-- Layer 2's column means and reciprocal root, as the host's scalar stretch leaves them. -/
theorem cm2 : W9 m ρ c (Proc.devRef .tc main_v44) = fun i => Net.colMeanK (Net.addRow (agg128 (m ((c : Thread nD τ).loc main_arg1)) (m ((c : Thread nD τ).loc main_arg2)) (m ((c : Thread nD τ).loc main_arg3)) (Net.mm (kL1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)))) (m ((c : Thread nD τ).loc main_arg7))) (i 1) := by
  have h : W9 m ρ c (Proc.devRef .tc main_v44) = Cert.KGlue.cmRow (W8 m ρ c (Proc.devRef .tc main_v42_0)) := by
    show StableHlo.after hostOps5 (W8 m ρ c) (Proc.devRef .tc main_v44) = _
    after_results
    rfl
  rw [h, cs2 m ρ c]
  exact Cert.KGlue.cmRow_apply _

theorem inv2 : W9 m ρ c (Proc.devRef .tc main_v54) = fun _ => Net.invNormK (Net.addRow (agg128 (m ((c : Thread nD τ).loc main_arg1)) (m ((c : Thread nD τ).loc main_arg2)) (m ((c : Thread nD τ).loc main_arg3)) (Net.mm (kL1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)))) (m ((c : Thread nD τ).loc main_arg7))) := by
  have h : W9 m ρ c (Proc.devRef .tc main_v54) = Cert.KGlue.invCell (W8 m ρ c (Proc.devRef .tc main_v42_0)) (W8 m ρ c (Proc.devRef .tc main_v42_1)) := by
    show StableHlo.after hostOps5 (W8 m ρ c) (Proc.devRef .tc main_v54) = _
    after_results
    rfl
  rw [h, cs2 m ρ c, ss2 m ρ c]
  exact Cert.KGlue.invCell_apply _

/-- Layer 2's output, as region 5 leaves it. -/
theorem out2 : W10 m ρ c (Proc.devRef .tc main_v55) = (kL2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have h := (W10_arr m ρ c 5).trans (Cert.KernelIdeal.Pn5.final (V9 m ρ) c)
  have e0 : V9 m ρ c (Pipeline.arrRef spec5 0) = (agg128 (m ((c : Thread nD τ).loc main_arg1)) (m ((c : Thread nD τ).loc main_arg2)) (m ((c : Thread nD τ).loc main_arg3)) (Net.mm (kL1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)))) :=
    (Cert.KernelIdeal.Keep.keep_main_v41_7_9 m ρ c).trans (agg2 m ρ c)
  have e1 : V9 m ρ c (Pipeline.arrRef spec5 1) = (m ((c : Thread nD τ).loc main_arg7)) := Cert.KernelIdeal.Keep.keep_main_arg7_0_9 m ρ c
  have e2 : V9 m ρ c (Pipeline.arrRef spec5 2) = fun i => Net.colMeanK (Net.addRow (agg128 (m ((c : Thread nD τ).loc main_arg1)) (m ((c : Thread nD τ).loc main_arg2)) (m ((c : Thread nD τ).loc main_arg3)) (Net.mm (kL1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)))) (m ((c : Thread nD τ).loc main_arg7))) (i 1) := cm2 m ρ c
  have e3 : V9 m ρ c (Pipeline.arrRef spec5 3) = fun _ => Net.invNormK (Net.addRow (agg128 (m ((c : Thread nD τ).loc main_arg1)) (m ((c : Thread nD τ).loc main_arg2)) (m ((c : Thread nD τ).loc main_arg3)) (Net.mm (kL1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)))) (m ((c : Thread nD τ).loc main_arg7))) := inv2 m ρ c
  have e4 : V9 m ρ c (Pipeline.arrRef spec5 4) = (kL1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    (Cert.KernelIdeal.Keep.keep_main_v27_5_9 m ρ c).trans (out1 m ρ c)
  rw [e0, e1, e2, e3, e4] at h
  exact h

/-! ## Layer 3 -/

/-- Layer 3's product, as region 6 leaves it. -/
theorem mm3 : W11 m ρ c (Proc.devRef .tc main_v56) = (Net.mm (kL2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) := by
  have h := (W11_arr m ρ c 2).trans (Cert.KernelIdeal.Mm6.final (V10 m ρ) c)
  have e0 : V10 m ρ c (Pipeline.arrRef spec6 0) = (kL2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := out2 m ρ c
  have e1 : V10 m ρ c (Pipeline.arrRef spec6 1) = (m ((c : Thread nD τ).loc main_arg8)) := Cert.KernelIdeal.Keep.keep_main_arg8_0_10 m ρ c
  rw [e0, e1] at h
  exact h

set_option maxHeartbeats 8000000 in
/-- Layer 3's aggregated features, as the host stretch leaves them. -/
theorem agg3 : W12 m ρ c (Proc.devRef .tc main_v69) = (agg128 (m ((c : Thread nD τ).loc main_arg1)) (m ((c : Thread nD τ).loc main_arg2)) (m ((c : Thread nD τ).loc main_arg3)) (Net.mm (kL2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)))) := by
  have h : W12 m ρ c (Proc.devRef .tc main_v69)
      = agg128 (W11 m ρ c (Proc.devRef .tc main_arg1)) (W11 m ρ c (Proc.devRef .tc main_arg2)) (W11 m ρ c (Proc.devRef .tc main_arg3)) (W11 m ρ c (Proc.devRef .tc main_v56)) := by
    show StableHlo.after hostOps7 (W11 m ρ c) (Proc.devRef .tc main_v69) = _
    after_results
    rfl
  rw [h, Cert.KernelIdeal.Keep.keep_main_arg1_0_11 m ρ c, Cert.KernelIdeal.Keep.keep_main_arg2_0_11 m ρ c,
    Cert.KernelIdeal.Keep.keep_main_arg3_0_11 m ρ c, mm3 m ρ c]

/-- Layer 3's column sums and sum of squares, as region 7 leaves them. -/
theorem cs3 : W13 m ρ c (Proc.devRef .tc main_v70_0) = fun i => Net.colSum (Net.addRow (agg128 (m ((c : Thread nD τ).loc main_arg1)) (m ((c : Thread nD τ).loc main_arg2)) (m ((c : Thread nD τ).loc main_arg3)) (Net.mm (kL2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)))) (m ((c : Thread nD τ).loc main_arg9))) (i 1) := by
  have h := (W13_arr m ρ c 2).trans (Cert.KernelIdeal.Stats7.colsum (V12 m ρ) c)
  have e0 : V12 m ρ c (Pipeline.arrRef spec7 0) = (agg128 (m ((c : Thread nD τ).loc main_arg1)) (m ((c : Thread nD τ).loc main_arg2)) (m ((c : Thread nD τ).loc main_arg3)) (Net.mm (kL2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)))) := agg3 m ρ c
  have e1 : V12 m ρ c (Pipeline.arrRef spec7 1) = (m ((c : Thread nD τ).loc main_arg9)) := Cert.KernelIdeal.Keep.keep_main_arg9_0_12 m ρ c
  rw [e0, e1] at h
  exact h

theorem ss3 : W13 m ρ c (Proc.devRef .tc main_v70_1) = fun _ => Net.sumSq (Net.addRow (agg128 (m ((c : Thread nD τ).loc main_arg1)) (m ((c : Thread nD τ).loc main_arg2)) (m ((c : Thread nD τ).loc main_arg3)) (Net.mm (kL2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)))) (m ((c : Thread nD τ).loc main_arg9))) := by
  have h := (W13_arr m ρ c 3).trans (Cert.KernelIdeal.Stats7.sumsq (V12 m ρ) c)
  have e0 : V12 m ρ c (Pipeline.arrRef spec7 0) = (agg128 (m ((c : Thread nD τ).loc main_arg1)) (m ((c : Thread nD τ).loc main_arg2)) (m ((c : Thread nD τ).loc main_arg3)) (Net.mm (kL2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)))) := agg3 m ρ c
  have e1 : V12 m ρ c (Pipeline.arrRef spec7 1) = (m ((c : Thread nD τ).loc main_arg9)) := Cert.KernelIdeal.Keep.keep_main_arg9_0_12 m ρ c
  rw [e0, e1] at h
  exact h

/-- Layer 3's column means and reciprocal root, as the host's scalar stretch leaves them. -/
theorem cm3 : W14 m ρ c (Proc.devRef .tc main_v72) = fun i => Net.colMeanK (Net.addRow (agg128 (m ((c : Thread nD τ).loc main_arg1)) (m ((c : Thread nD τ).loc main_arg2)) (m ((c : Thread nD τ).loc main_arg3)) (Net.mm (kL2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)))) (m ((c : Thread nD τ).loc main_arg9))) (i 1) := by
  have h : W14 m ρ c (Proc.devRef .tc main_v72) = Cert.KGlue.cmRow (W13 m ρ c (Proc.devRef .tc main_v70_0)) := by
    show StableHlo.after hostOps8 (W13 m ρ c) (Proc.devRef .tc main_v72) = _
    after_results
    rfl
  rw [h, cs3 m ρ c]
  exact Cert.KGlue.cmRow_apply _

theorem inv3 : W14 m ρ c (Proc.devRef .tc main_v82) = fun _ => Net.invNormK (Net.addRow (agg128 (m ((c : Thread nD τ).loc main_arg1)) (m ((c : Thread nD τ).loc main_arg2)) (m ((c : Thread nD τ).loc main_arg3)) (Net.mm (kL2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)))) (m ((c : Thread nD τ).loc main_arg9))) := by
  have h : W14 m ρ c (Proc.devRef .tc main_v82) = Cert.KGlue.invCell (W13 m ρ c (Proc.devRef .tc main_v70_0)) (W13 m ρ c (Proc.devRef .tc main_v70_1)) := by
    show StableHlo.after hostOps8 (W13 m ρ c) (Proc.devRef .tc main_v82) = _
    after_results
    rfl
  rw [h, cs3 m ρ c, ss3 m ρ c]
  exact Cert.KGlue.invCell_apply _

/-- Layer 3's output, as region 8 leaves it. -/
theorem out3 : W15 m ρ c (Proc.devRef .tc main_v83) = (kL3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  have h := (W15_arr m ρ c 5).trans (Cert.KernelIdeal.Pn8.final (V14 m ρ) c)
  have e0 : V14 m ρ c (Pipeline.arrRef spec8 0) = (agg128 (m ((c : Thread nD τ).loc main_arg1)) (m ((c : Thread nD τ).loc main_arg2)) (m ((c : Thread nD τ).loc main_arg3)) (Net.mm (kL2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)))) :=
    (Cert.KernelIdeal.Keep.keep_main_v69_12_14 m ρ c).trans (agg3 m ρ c)
  have e1 : V14 m ρ c (Pipeline.arrRef spec8 1) = (m ((c : Thread nD τ).loc main_arg9)) := Cert.KernelIdeal.Keep.keep_main_arg9_0_14 m ρ c
  have e2 : V14 m ρ c (Pipeline.arrRef spec8 2) = fun i => Net.colMeanK (Net.addRow (agg128 (m ((c : Thread nD τ).loc main_arg1)) (m ((c : Thread nD τ).loc main_arg2)) (m ((c : Thread nD τ).loc main_arg3)) (Net.mm (kL2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)))) (m ((c : Thread nD τ).loc main_arg9))) (i 1) := cm3 m ρ c
  have e3 : V14 m ρ c (Pipeline.arrRef spec8 3) = fun _ => Net.invNormK (Net.addRow (agg128 (m ((c : Thread nD τ).loc main_arg1)) (m ((c : Thread nD τ).loc main_arg2)) (m ((c : Thread nD τ).loc main_arg3)) (Net.mm (kL2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)))) (m ((c : Thread nD τ).loc main_arg9))) := inv3 m ρ c
  have e4 : V14 m ρ c (Pipeline.arrRef spec8 4) = (kL2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
    (Cert.KernelIdeal.Keep.keep_main_v55_10_14 m ρ c).trans (out2 m ρ c)
  rw [e0, e1, e2, e3, e4] at h
  exact h

/-! ## The output layer -/

/-- The output layer's product, as region 9 leaves it. -/
theorem mm4 : W16 m ρ c (Proc.devRef .tc main_v84) = Net.mm (kL3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) := by
  have h := (W16_arr m ρ c 2).trans (Cert.KernelIdeal.Mm9.final (V15 m ρ) c)
  have e0 : V15 m ρ c (Pipeline.arrRef spec9 0) = (kL3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := out3 m ρ c
  have e1 : V15 m ρ c (Pipeline.arrRef spec9 1) = (m ((c : Thread nD τ).loc main_arg10)) := Cert.KernelIdeal.Keep.keep_main_arg10_0_15 m ρ c
  rw [e0, e1] at h
  exact h

/-- A bias row broadcast along the rows and added is Net.addRow. -/
theorem addf_bias (X : FVec Ideal S50000x40 .f32) (b : FVec Ideal S1x40 .f32) :
    addf X (broadcastInDim S50000x40 ![0, 1] Facts₀.bcast_S1x40_S50000x40_0_1 b) = Net.addRow X b := by
  funext i
  show X i + broadcastInDim S50000x40 ![0, 1] Facts₀.bcast_S1x40_S50000x40_0_1 b i = X i + b (ix2 0 (i 1))
  refine congrArg (X i + ·) ?_
  unfold broadcastInDim
  refine congrArg b ?_
  funext a
  match a with
  | ⟨0, _⟩ => exact Fin.ext (by simp)
  | ⟨1, _⟩ => exact Fin.ext (by simp)

set_option maxHeartbeats 8000000 in
/-- The result buffer at the last boundary is the kernel's network of the arguments. -/
theorem result : W17 m ρ c (Proc.devRef .tc main_v99)
    = netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h : W17 m ρ c (Proc.devRef .tc main_v99)
      = addf (agg40 (W16 m ρ c (Proc.devRef .tc main_arg1)) (W16 m ρ c (Proc.devRef .tc main_arg2)) (W16 m ρ c (Proc.devRef .tc main_arg3)) (W16 m ρ c (Proc.devRef .tc main_v84)))
          (broadcastInDim S50000x40 ![0, 1] Facts₀.bcast_S1x40_S50000x40_0_1 (W16 m ρ c (Proc.devRef .tc main_arg11))) := by
    show StableHlo.after hostOps10 (W16 m ρ c) (Proc.devRef .tc main_v99) = _
    after_results
    rfl
  rw [h, Cert.KernelIdeal.Keep.keep_main_arg1_0_16 m ρ c, Cert.KernelIdeal.Keep.keep_main_arg2_0_16 m ρ c,
    Cert.KernelIdeal.Keep.keep_main_arg3_0_16 m ρ c, Cert.KernelIdeal.Keep.keep_main_arg11_0_16 m ρ c, mm4 m ρ c, addf_bias]
  rfl

end Cert.KernelIdeal.Chain

end
-- ==== Proof.RefStages.lean ====
/-
  The reference's four matrix products and its last bias addition, read entry by entry.

  Each product stage at (p, q) is the sum over c of the left operand at (p, c) times the weight at (c, q); the last
  stage adds the bias row to every row of the aggregated array.
-/
import proofs.«132746_j34668976013395_1_alg».proof.Proof.Gen.ReferenceIdeal.Read
import proofs.«132746_j34668976013395_1_alg».proof.Proof.Net

noncomputable section

namespace Cert.RefStages

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open scoped BigOperators

variable (x0 : (⟨S50000x512, .f32⟩ : BufTy).Contents (Elt Ideal)) (x1 x2 : (⟨S800000, .i32⟩ : BufTy).Contents (Elt Ideal))
  (x3 : (⟨S800000, .f32⟩ : BufTy).Contents (Elt Ideal)) (x4 : (⟨S512x128, .f32⟩ : BufTy).Contents (Elt Ideal))
  (x5 : (⟨S1x128, .f32⟩ : BufTy).Contents (Elt Ideal)) (x6 : (⟨S128x128, .f32⟩ : BufTy).Contents (Elt Ideal))
  (x7 : (⟨S1x128, .f32⟩ : BufTy).Contents (Elt Ideal)) (x8 : (⟨S128x128, .f32⟩ : BufTy).Contents (Elt Ideal))
  (x9 : (⟨S1x128, .f32⟩ : BufTy).Contents (Elt Ideal)) (x10 : (⟨S128x40, .f32⟩ : BufTy).Contents (Elt Ideal))
  (x11 : (⟨S1x40, .f32⟩ : BufTy).Contents (Elt Ideal))

/-- The first product: the input features times the first weight. -/
theorem stage_v0 :
    val_main_v0 (F := Ideal) x0 x4 = Net.mm (n := 50000) (k := 512) (m := 128) (x0) x4 := by
  funext i
  obtain ⟨p, q, rfl⟩ : ∃ (p : Fin 50000) (q : Fin 128), i = ix2 p q := ⟨i 0, i 1, eq_ix2 i⟩
  rw [val_main_v0_apply]
  unfold Net.mm
  refine Finset.sum_congr rfl fun c _ => ?_
  have el : lidx_main_v0 (ix2 p q) c = ix2 p c := funext fun a => Fin.ext (by match a with | ⟨0, _⟩ => rfl | ⟨1, _⟩ => rfl)
  have er : ridx_main_v0 (ix2 p q) c = ix2 c q := funext fun a => Fin.ext (by match a with | ⟨0, _⟩ => rfl | ⟨1, _⟩ => rfl)
  rw [el, er]

/-- The second product: the first layer's output times the second weight. -/
theorem stage_v35 :
    val_main_v35 (F := Ideal) x0 x1 x2 x3 x4 x5 x6 = Net.mm (n := 50000) (k := 128) (m := 128) (val_main_v34 (F := Ideal) x0 x1 x2 x3 x4 x5) x6 := by
  funext i
  obtain ⟨p, q, rfl⟩ : ∃ (p : Fin 50000) (q : Fin 128), i = ix2 p q := ⟨i 0, i 1, eq_ix2 i⟩
  rw [val_main_v35_apply]
  unfold Net.mm
  refine Finset.sum_congr rfl fun c _ => ?_
  have el : lidx_main_v35 (ix2 p q) c = ix2 p c := funext fun a => Fin.ext (by match a with | ⟨0, _⟩ => rfl | ⟨1, _⟩ => rfl)
  have er : ridx_main_v35 (ix2 p q) c = ix2 c q := funext fun a => Fin.ext (by match a with | ⟨0, _⟩ => rfl | ⟨1, _⟩ => rfl)
  rw [el, er]

/-- The third product: the second layer's output times the third weight. -/
theorem stage_v69 :
    val_main_v69 (F := Ideal) x0 x1 x2 x3 x4 x5 x6 x7 x8 = Net.mm (n := 50000) (k := 128) (m := 128) (val_main_v68 (F := Ideal) x0 x1 x2 x3 x4 x5 x6 x7) x8 := by
  funext i
  obtain ⟨p, q, rfl⟩ : ∃ (p : Fin 50000) (q : Fin 128), i = ix2 p q := ⟨i 0, i 1, eq_ix2 i⟩
  rw [val_main_v69_apply]
  unfold Net.mm
  refine Finset.sum_congr rfl fun c _ => ?_
  have el : lidx_main_v69 (ix2 p q) c = ix2 p c := funext fun a => Fin.ext (by match a with | ⟨0, _⟩ => rfl | ⟨1, _⟩ => rfl)
  have er : ridx_main_v69 (ix2 p q) c = ix2 c q := funext fun a => Fin.ext (by match a with | ⟨0, _⟩ => rfl | ⟨1, _⟩ => rfl)
  rw [el, er]

/-- The last product: the third layer's output times the output weight. -/
theorem stage_v103 :
    val_main_v103 (F := Ideal) x0 x1 x2 x3 x4 x5 x6 x7 x8 x9 x10 = Net.mm (n := 50000) (k := 128) (m := 40) (val_main_v102 (F := Ideal) x0 x1 x2 x3 x4 x5 x6 x7 x8 x9) x10 := by
  funext i
  obtain ⟨p, q, rfl⟩ : ∃ (p : Fin 50000) (q : Fin 40), i = ix2 p q := ⟨i 0, i 1, eq_ix2 i⟩
  rw [val_main_v103_apply]
  unfold Net.mm
  refine Finset.sum_congr rfl fun c _ => ?_
  have el : lidx_main_v103 (ix2 p q) c = ix2 p c := funext fun a => Fin.ext (by match a with | ⟨0, _⟩ => rfl | ⟨1, _⟩ => rfl)
  have er : ridx_main_v103 (ix2 p q) c = ix2 c q := funext fun a => Fin.ext (by match a with | ⟨0, _⟩ => rfl | ⟨1, _⟩ => rfl)
  rw [el, er]

/-- The result: the aggregated array with the bias row added to every row. -/
theorem stage_v118 :
    val_main_v118 (F := Ideal) x0 x1 x2 x3 x4 x5 x6 x7 x8 x9 x10 x11
      = Net.addRow (n := 50000) (d := 40) (val_main_v116 (F := Ideal) x0 x1 x2 x3 x4 x5 x6 x7 x8 x9 x10) x11 := by
  funext i
  obtain ⟨p, q, rfl⟩ : ∃ (p : Fin 50000) (q : Fin 40), i = ix2 p q := ⟨i 0, i 1, eq_ix2 i⟩
  rw [val_main_v118_apply, val_main_v117_apply, Ideal.addf_def]
  have e : idx_main_v117 (ix2 p q) = ix2 0 q := funext fun a => Fin.ext (by match a with | ⟨0, _⟩ => rfl | ⟨1, _⟩ => rfl)
  rw [e]
  rfl

end Cert.RefStages

end
-- ==== Proof.RefIdx.lean ====
/-
  A sum over the indices of a one-axis array is the sum over the axis's coordinates.
-/
import Idealize.ShloMosaic.Lib.ValueIdx

namespace Cert.RefStages

open Idealize.ShloMosaic Idealize.ShloMosaic.ValueIdx
open scoped BigOperators

/-- The indices of a one-axis array are its coordinates: `ix1` is a bijection from `Fin n`. -/
def idxEquiv1 {n : ℕ} : Fin n ≃ (⟨1, ![n]⟩ : Shape).Idx where
  toFun a := ix1 a
  invFun j := j 0
  left_inv _ := rfl
  right_inv j := (eq_ix1 j).symm

/-- So a sum over the indices is the sum over the coordinates. -/
theorem sum_idx1 {M : Type*} [AddCommMonoid M] {n : ℕ} (f : (⟨1, ![n]⟩ : Shape).Idx → M) :
    ∑ j, f j = ∑ a : Fin n, f (ix1 a) :=
  (Equiv.sum_comp (idxEquiv1 (n := n)) f).symm

end Cert.RefStages
-- ==== Proof.RefStages1.lean ====
/-
  The reference's first layer, read entry by entry: it is the layer of the shared specification applied to the
  aggregated features, the layer's bias row and the zero array (the first layer has no previous output).

  The stages are read in the program's order: the bias added to every row; every column's mean (the column's sum from
  zero over the number of rows); the centred array; the mean over the rows of the squared row norms of the centred array;
  one times the centred entry over the root of eps plus that mean; the maximum with zero, plus the previous output.
-/
import proofs.«132746_j34668976013395_1_alg».proof.Proof.Gen.ReferenceIdeal.Read
import proofs.«132746_j34668976013395_1_alg».proof.Proof.Net
import proofs.«132746_j34668976013395_1_alg».proof.Proof.RefIdx

noncomputable section

namespace Cert.RefStages

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open scoped BigOperators

variable (x0 : (⟨S50000x512, .f32⟩ : BufTy).Contents (Elt Ideal)) (x1 x2 : (⟨S800000, .i32⟩ : BufTy).Contents (Elt Ideal))
  (x3 : (⟨S800000, .f32⟩ : BufTy).Contents (Elt Ideal)) (x4 : (⟨S512x128, .f32⟩ : BufTy).Contents (Elt Ideal))
  (x5 : (⟨S1x128, .f32⟩ : BufTy).Contents (Elt Ideal)) (x6 : (⟨S128x128, .f32⟩ : BufTy).Contents (Elt Ideal))
  (x7 : (⟨S1x128, .f32⟩ : BufTy).Contents (Elt Ideal)) (x8 : (⟨S128x128, .f32⟩ : BufTy).Contents (Elt Ideal))
  (x9 : (⟨S1x128, .f32⟩ : BufTy).Contents (Elt Ideal)) (x10 : (⟨S128x40, .f32⟩ : BufTy).Contents (Elt Ideal))
  (x11 : (⟨S1x40, .f32⟩ : BufTy).Contents (Elt Ideal))

/-- The bias row added to every row of the aggregated features. -/
theorem stage_v15 :
    val_main_v15 (F := Ideal) x0 x1 x2 x3 x4 x5 = Net.addRow (n := 50000) (d := 128) (val_main_v13 (F := Ideal) x0 x1 x2 x3 x4) x5 := by
  funext i
  obtain ⟨p, q, rfl⟩ : ∃ (p : Fin 50000) (q : Fin 128), i = ix2 p q := ⟨i 0, i 1, eq_ix2 i⟩
  rw [val_main_v15_apply, val_main_v14_apply, Ideal.addf_def]
  have e : idx_main_v14 (ix2 p q) = ix2 0 q := funext fun a => Fin.ext (by match a with | ⟨0, _⟩ => rfl | ⟨1, _⟩ => rfl)
  rw [e]
  rfl

/-- Column j's mean: the column's sum from zero, over the number of rows. -/
theorem stage_v18 (j : Fin 128) :
    val_main_v18 (F := Ideal) x0 x1 x2 x3 x4 x5 (ix1 j) = Net.colMean (n := 50000) (d := 128) (val_main_v15 (F := Ideal) x0 x1 x2 x3 x4 x5) j := by
  simp only [val_main_v18_apply, val_main_v16_apply, val_main_v17_apply, val_main_cst_1_apply, val_main_cst_2_apply,
    Ideal.hostDivf_def, Ideal.ofBits_def, Ideal.ofBits_zero_f32]
  have hs : ∑ k : Fin 50000, val_main_v15 (F := Ideal) x0 x1 x2 x3 x4 x5 (idx_main_v16 (ix1 j) k)
      = ∑ p : Fin 50000, val_main_v15 (F := Ideal) x0 x1 x2 x3 x4 x5 (ix2 p j) :=
    Finset.sum_congr rfl fun k _ => congrArg _ (funext fun a => Fin.ext (by match a with | ⟨0, _⟩ => rfl | ⟨1, _⟩ => rfl))
  rw [hs]
  rfl

/-- The array with every column centred at its mean. -/
theorem stage_v21 :
    val_main_v21 (F := Ideal) x0 x1 x2 x3 x4 x5 = Net.centred (n := 50000) (d := 128) (val_main_v15 (F := Ideal) x0 x1 x2 x3 x4 x5) := by
  funext i
  obtain ⟨p, q, rfl⟩ : ∃ (p : Fin 50000) (q : Fin 128), i = ix2 p q := ⟨i 0, i 1, eq_ix2 i⟩
  rw [val_main_v21_apply, val_main_v20_apply, val_main_v19_apply, Ideal.subf_def]
  have e : idx_main_v19 (idx_main_v20 (ix2 p q)) = ix1 q := funext fun a => Fin.ext (by match a with | ⟨0, _⟩ => rfl)
  rw [e, stage_v18]
  rfl

/-- A row's sum, from zero, of the squares of its centred entries. -/
theorem stage_v23 (p : Fin 50000) :
    val_main_v23 (F := Ideal) x0 x1 x2 x3 x4 x5 (ix1 p)
      = 0 + ∑ q : Fin 128, Net.centred (n := 50000) (d := 128) (val_main_v15 (F := Ideal) x0 x1 x2 x3 x4 x5) (ix2 p q)
          * Net.centred (n := 50000) (d := 128) (val_main_v15 (F := Ideal) x0 x1 x2 x3 x4 x5) (ix2 p q) := by
  rw [val_main_v23_apply, val_main_cst_3_apply, Ideal.ofBits_def, Ideal.ofBits_zero_f32]
  refine congrArg (fun s => (0 : EReal) + s) (Finset.sum_congr rfl fun q _ => ?_)
  have e : idx_main_v23 (ix1 p) q = ix2 p q := funext fun a => Fin.ext (by match a with | ⟨0, _⟩ => rfl | ⟨1, _⟩ => rfl)
  rw [e, val_main_v22_apply, Ideal.mulf_def, stage_v21]

/-- The mean over the rows of the squared row norms of the centred array. -/
theorem stage_v25 (i : S_.Idx) :
    val_main_v25 (F := Ideal) x0 x1 x2 x3 x4 x5 i = Net.meanSq (n := 50000) (d := 128) (val_main_v15 (F := Ideal) x0 x1 x2 x3 x4 x5) := by
  simp only [val_main_v25_apply, val_main_v24_apply, val_main_cst_4_apply, val_main_cst_5_apply,
    Ideal.hostDivf_def, Ideal.ofBits_def, Ideal.ofBits_zero_f32]
  rw [sum_idx1]
  simp only [stage_v23]
  rfl

/-- The normalised array: one times the centred entry, over the root of eps plus the mean of squared row norms. -/
theorem stage_v31 :
    val_main_v31 (F := Ideal) x0 x1 x2 x3 x4 x5 = Net.pairNormR (n := 50000) (d := 128) (val_main_v15 (F := Ideal) x0 x1 x2 x3 x4 x5) := by
  funext i
  rw [val_main_v31_apply, val_main_v29_apply, val_main_v28_apply, val_main_cst_7_apply, val_main_v30_apply,
    val_main_v27_apply, val_main_v26_apply, val_main_cst_6_apply, stage_v25, stage_v21,
    Ideal.hostDivf_def, Ideal.mulf_def, Ideal.addf_def, Ideal.hostUnary_sqrt_def, Ideal.ofBits_def, Ideal.ofBits_def]
  rfl

/-- The layer's output: the maximum of the normalised entry and zero, plus the previous output. -/
theorem stage_v34 :
    val_main_v34 (F := Ideal) x0 x1 x2 x3 x4 x5
      = Net.layerR (n := 50000) (d := 128) (val_main_v13 (F := Ideal) x0 x1 x2 x3 x4) x5 (fun _ => 0) := by
  funext i
  simp only [val_main_v34_apply, val_main_v32_apply, val_main_v33_apply, val_main_cst_8_apply,
    val_main_call0_v0_apply, val_main_call0_cst_apply, Ideal.addf_def, Ideal.maximumf_def, Ideal.ofBits_def,
    Ideal.ofBits_zero_f32, stage_v31, stage_v15]
  rfl

end Cert.RefStages

end
-- ==== Proof.RefStages2.lean ====
/-
  The reference's second layer, read entry by entry: it is the layer of the shared specification applied to the
  aggregated features, the layer's bias row and the first layer's output.

  The stages are read in the program's order: the bias added to every row; every column's mean (the column's sum from
  zero over the number of rows); the centred array; the mean over the rows of the squared row norms of the centred array;
  one times the centred entry over the root of eps plus that mean; the maximum with zero, plus the previous output.
-/
import proofs.«132746_j34668976013395_1_alg».proof.Proof.Gen.ReferenceIdeal.Read
import proofs.«132746_j34668976013395_1_alg».proof.Proof.Net
import proofs.«132746_j34668976013395_1_alg».proof.Proof.RefIdx

noncomputable section

namespace Cert.RefStages

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open scoped BigOperators

variable (x0 : (⟨S50000x512, .f32⟩ : BufTy).Contents (Elt Ideal)) (x1 x2 : (⟨S800000, .i32⟩ : BufTy).Contents (Elt Ideal))
  (x3 : (⟨S800000, .f32⟩ : BufTy).Contents (Elt Ideal)) (x4 : (⟨S512x128, .f32⟩ : BufTy).Contents (Elt Ideal))
  (x5 : (⟨S1x128, .f32⟩ : BufTy).Contents (Elt Ideal)) (x6 : (⟨S128x128, .f32⟩ : BufTy).Contents (Elt Ideal))
  (x7 : (⟨S1x128, .f32⟩ : BufTy).Contents (Elt Ideal)) (x8 : (⟨S128x128, .f32⟩ : BufTy).Contents (Elt Ideal))
  (x9 : (⟨S1x128, .f32⟩ : BufTy).Contents (Elt Ideal)) (x10 : (⟨S128x40, .f32⟩ : BufTy).Contents (Elt Ideal))
  (x11 : (⟨S1x40, .f32⟩ : BufTy).Contents (Elt Ideal))

/-- The bias row added to every row of the aggregated features. -/
theorem stage_v50 :
    val_main_v50 (F := Ideal) x0 x1 x2 x3 x4 x5 x6 x7 = Net.addRow (n := 50000) (d := 128) (val_main_v48 (F := Ideal) x0 x1 x2 x3 x4 x5 x6) x7 := by
  funext i
  obtain ⟨p, q, rfl⟩ : ∃ (p : Fin 50000) (q : Fin 128), i = ix2 p q := ⟨i 0, i 1, eq_ix2 i⟩
  rw [val_main_v50_apply, val_main_v49_apply, Ideal.addf_def]
  have e : idx_main_v49 (ix2 p q) = ix2 0 q := funext fun a => Fin.ext (by match a with | ⟨0, _⟩ => rfl | ⟨1, _⟩ => rfl)
  rw [e]
  rfl

/-- Column j's mean: the column's sum from zero, over the number of rows. -/
theorem stage_v53 (j : Fin 128) :
    val_main_v53 (F := Ideal) x0 x1 x2 x3 x4 x5 x6 x7 (ix1 j) = Net.colMean (n := 50000) (d := 128) (val_main_v50 (F := Ideal) x0 x1 x2 x3 x4 x5 x6 x7) j := by
  simp only [val_main_v53_apply, val_main_v51_apply, val_main_v52_apply, val_main_cst_12_apply, val_main_cst_13_apply,
    Ideal.hostDivf_def, Ideal.ofBits_def, Ideal.ofBits_zero_f32]
  have hs : ∑ k : Fin 50000, val_main_v50 (F := Ideal) x0 x1 x2 x3 x4 x5 x6 x7 (idx_main_v51 (ix1 j) k)
      = ∑ p : Fin 50000, val_main_v50 (F := Ideal) x0 x1 x2 x3 x4 x5 x6 x7 (ix2 p j) :=
    Finset.sum_congr rfl fun k _ => congrArg _ (funext fun a => Fin.ext (by match a with | ⟨0, _⟩ => rfl | ⟨1, _⟩ => rfl))
  rw [hs]
  rfl

/-- The array with every column centred at its mean. -/
theorem stage_v56 :
    val_main_v56 (F := Ideal) x0 x1 x2 x3 x4 x5 x6 x7 = Net.centred (n := 50000) (d := 128) (val_main_v50 (F := Ideal) x0 x1 x2 x3 x4 x5 x6 x7) := by
  funext i
  obtain ⟨p, q, rfl⟩ : ∃ (p : Fin 50000) (q : Fin 128), i = ix2 p q := ⟨i 0, i 1, eq_ix2 i⟩
  rw [val_main_v56_apply, val_main_v55_apply, val_main_v54_apply, Ideal.subf_def]
  have e : idx_main_v54 (idx_main_v55 (ix2 p q)) = ix1 q := funext fun a => Fin.ext (by match a with | ⟨0, _⟩ => rfl)
  rw [e, stage_v53]
  rfl

/-- A row's sum, from zero, of the squares of its centred entries. -/
theorem stage_v58 (p : Fin 50000) :
    val_main_v58 (F := Ideal) x0 x1 x2 x3 x4 x5 x6 x7 (ix1 p)
      = 0 + ∑ q : Fin 128, Net.centred (n := 50000) (d := 128) (val_main_v50 (F := Ideal) x0 x1 x2 x3 x4 x5 x6 x7) (ix2 p q)
          * Net.centred (n := 50000) (d := 128) (val_main_v50 (F := Ideal) x0 x1 x2 x3 x4 x5 x6 x7) (ix2 p q) := by
  rw [val_main_v58_apply, val_main_cst_14_apply, Ideal.ofBits_def, Ideal.ofBits_zero_f32]
  refine congrArg (fun s => (0 : EReal) + s) (Finset.sum_congr rfl fun q _ => ?_)
  have e : idx_main_v58 (ix1 p) q = ix2 p q := funext fun a => Fin.ext (by match a with | ⟨0, _⟩ => rfl | ⟨1, _⟩ => rfl)
  rw [e, val_main_v57_apply, Ideal.mulf_def, stage_v56]

/-- The mean over the rows of the squared row norms of the centred array. -/
theorem stage_v60 (i : S_.Idx) :
    val_main_v60 (F := Ideal) x0 x1 x2 x3 x4 x5 x6 x7 i = Net.meanSq (n := 50000) (d := 128) (val_main_v50 (F := Ideal) x0 x1 x2 x3 x4 x5 x6 x7) := by
  simp only [val_main_v60_apply, val_main_v59_apply, val_main_cst_15_apply, val_main_cst_16_apply,
    Ideal.hostDivf_def, Ideal.ofBits_def, Ideal.ofBits_zero_f32]
  rw [sum_idx1]
  simp only [stage_v58]
  rfl

/-- The normalised array: one times the centred entry, over the root of eps plus the mean of squared row norms. -/
theorem stage_v66 :
    val_main_v66 (F := Ideal) x0 x1 x2 x3 x4 x5 x6 x7 = Net.pairNormR (n := 50000) (d := 128) (val_main_v50 (F := Ideal) x0 x1 x2 x3 x4 x5 x6 x7) := by
  funext i
  rw [val_main_v66_apply, val_main_v64_apply, val_main_v63_apply, val_main_cst_18_apply, val_main_v65_apply,
    val_main_v62_apply, val_main_v61_apply, val_main_cst_17_apply, stage_v60, stage_v56,
    Ideal.hostDivf_def, Ideal.mulf_def, Ideal.addf_def, Ideal.hostUnary_sqrt_def, Ideal.ofBits_def, Ideal.ofBits_def]
  rfl

/-- The layer's output: the maximum of the normalised entry and zero, plus the previous output. -/
theorem stage_v68 :
    val_main_v68 (F := Ideal) x0 x1 x2 x3 x4 x5 x6 x7
      = Net.layerR (n := 50000) (d := 128) (val_main_v48 (F := Ideal) x0 x1 x2 x3 x4 x5 x6) x7 (val_main_v34 (F := Ideal) x0 x1 x2 x3 x4 x5) := by
  funext i
  simp only [val_main_v68_apply, val_main_v67_apply,
    val_main_call1_v0_apply, val_main_call1_cst_apply, Ideal.addf_def, Ideal.maximumf_def, Ideal.ofBits_def,
    Ideal.ofBits_zero_f32, stage_v66, stage_v50]
  rfl

end Cert.RefStages

end
-- ==== Proof.RefStages3.lean ====
/-
  The reference's third layer, read entry by entry: it is the layer of the shared specification applied to the
  aggregated features, the layer's bias row and the second layer's output.

  The stages are read in the program's order: the bias added to every row; every column's mean (the column's sum from
  zero over the number of rows); the centred array; the mean over the rows of the squared row norms of the centred array;
  one times the centred entry over the root of eps plus that mean; the maximum with zero, plus the previous output.
-/
import proofs.«132746_j34668976013395_1_alg».proof.Proof.Gen.ReferenceIdeal.Read
import proofs.«132746_j34668976013395_1_alg».proof.Proof.Net
import proofs.«132746_j34668976013395_1_alg».proof.Proof.RefIdx

noncomputable section

namespace Cert.RefStages

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open scoped BigOperators

variable (x0 : (⟨S50000x512, .f32⟩ : BufTy).Contents (Elt Ideal)) (x1 x2 : (⟨S800000, .i32⟩ : BufTy).Contents (Elt Ideal))
  (x3 : (⟨S800000, .f32⟩ : BufTy).Contents (Elt Ideal)) (x4 : (⟨S512x128, .f32⟩ : BufTy).Contents (Elt Ideal))
  (x5 : (⟨S1x128, .f32⟩ : BufTy).Contents (Elt Ideal)) (x6 : (⟨S128x128, .f32⟩ : BufTy).Contents (Elt Ideal))
  (x7 : (⟨S1x128, .f32⟩ : BufTy).Contents (Elt Ideal)) (x8 : (⟨S128x128, .f32⟩ : BufTy).Contents (Elt Ideal))
  (x9 : (⟨S1x128, .f32⟩ : BufTy).Contents (Elt Ideal)) (x10 : (⟨S128x40, .f32⟩ : BufTy).Contents (Elt Ideal))
  (x11 : (⟨S1x40, .f32⟩ : BufTy).Contents (Elt Ideal))

/-- The bias row added to every row of the aggregated features. -/
theorem stage_v84 :
    val_main_v84 (F := Ideal) x0 x1 x2 x3 x4 x5 x6 x7 x8 x9 = Net.addRow (n := 50000) (d := 128) (val_main_v82 (F := Ideal) x0 x1 x2 x3 x4 x5 x6 x7 x8) x9 := by
  funext i
  obtain ⟨p, q, rfl⟩ : ∃ (p : Fin 50000) (q : Fin 128), i = ix2 p q := ⟨i 0, i 1, eq_ix2 i⟩
  rw [val_main_v84_apply, val_main_v83_apply, Ideal.addf_def]
  have e : idx_main_v83 (ix2 p q) = ix2 0 q := funext fun a => Fin.ext (by match a with | ⟨0, _⟩ => rfl | ⟨1, _⟩ => rfl)
  rw [e]
  rfl

/-- Column j's mean: the column's sum from zero, over the number of rows. -/
theorem stage_v87 (j : Fin 128) :
    val_main_v87 (F := Ideal) x0 x1 x2 x3 x4 x5 x6 x7 x8 x9 (ix1 j) = Net.colMean (n := 50000) (d := 128) (val_main_v84 (F := Ideal) x0 x1 x2 x3 x4 x5 x6 x7 x8 x9) j := by
  simp only [val_main_v87_apply, val_main_v85_apply, val_main_v86_apply, val_main_cst_22_apply, val_main_cst_23_apply,
    Ideal.hostDivf_def, Ideal.ofBits_def, Ideal.ofBits_zero_f32]
  have hs : ∑ k : Fin 50000, val_main_v84 (F := Ideal) x0 x1 x2 x3 x4 x5 x6 x7 x8 x9 (idx_main_v85 (ix1 j) k)
      = ∑ p : Fin 50000, val_main_v84 (F := Ideal) x0 x1 x2 x3 x4 x5 x6 x7 x8 x9 (ix2 p j) :=
    Finset.sum_congr rfl fun k _ => congrArg _ (funext fun a => Fin.ext (by match a with | ⟨0, _⟩ => rfl | ⟨1, _⟩ => rfl))
  rw [hs]
  rfl

/-- The array with every column centred at its mean. -/
theorem stage_v90 :
    val_main_v90 (F := Ideal) x0 x1 x2 x3 x4 x5 x6 x7 x8 x9 = Net.centred (n := 50000) (d := 128) (val_main_v84 (F := Ideal) x0 x1 x2 x3 x4 x5 x6 x7 x8 x9) := by
  funext i
  obtain ⟨p, q, rfl⟩ : ∃ (p : Fin 50000) (q : Fin 128), i = ix2 p q := ⟨i 0, i 1, eq_ix2 i⟩
  rw [val_main_v90_apply, val_main_v89_apply, val_main_v88_apply, Ideal.subf_def]
  have e : idx_main_v88 (idx_main_v89 (ix2 p q)) = ix1 q := funext fun a => Fin.ext (by match a with | ⟨0, _⟩ => rfl)
  rw [e, stage_v87]
  rfl

/-- A row's sum, from zero, of the squares of its centred entries. -/
theorem stage_v92 (p : Fin 50000) :
    val_main_v92 (F := Ideal) x0 x1 x2 x3 x4 x5 x6 x7 x8 x9 (ix1 p)
      = 0 + ∑ q : Fin 128, Net.centred (n := 50000) (d := 128) (val_main_v84 (F := Ideal) x0 x1 x2 x3 x4 x5 x6 x7 x8 x9) (ix2 p q)
          * Net.centred (n := 50000) (d := 128) (val_main_v84 (F := Ideal) x0 x1 x2 x3 x4 x5 x6 x7 x8 x9) (ix2 p q) := by
  rw [val_main_v92_apply, val_main_cst_24_apply, Ideal.ofBits_def, Ideal.ofBits_zero_f32]
  refine congrArg (fun s => (0 : EReal) + s) (Finset.sum_congr rfl fun q _ => ?_)
  have e : idx_main_v92 (ix1 p) q = ix2 p q := funext fun a => Fin.ext (by match a with | ⟨0, _⟩ => rfl | ⟨1, _⟩ => rfl)
  rw [e, val_main_v91_apply, Ideal.mulf_def, stage_v90]

/-- The mean over the rows of the squared row norms of the centred array. -/
theorem stage_v94 (i : S_.Idx) :
    val_main_v94 (F := Ideal) x0 x1 x2 x3 x4 x5 x6 x7 x8 x9 i = Net.meanSq (n := 50000) (d := 128) (val_main_v84 (F := Ideal) x0 x1 x2 x3 x4 x5 x6 x7 x8 x9) := by
  simp only [val_main_v94_apply, val_main_v93_apply, val_main_cst_25_apply, val_main_cst_26_apply,
    Ideal.hostDivf_def, Ideal.ofBits_def, Ideal.ofBits_zero_f32]
  rw [sum_idx1]
  simp only [stage_v92]
  rfl

/-- The normalised array: one times the centred entry, over the root of eps plus the mean of squared row norms. -/
theorem stage_v100 :
    val_main_v100 (F := Ideal) x0 x1 x2 x3 x4 x5 x6 x7 x8 x9 = Net.pairNormR (n := 50000) (d := 128) (val_main_v84 (F := Ideal) x0 x1 x2 x3 x4 x5 x6 x7 x8 x9) := by
  funext i
  rw [val_main_v100_apply, val_main_v98_apply, val_main_v97_apply, val_main_cst_28_apply, val_main_v99_apply,
    val_main_v96_apply, val_main_v95_apply, val_main_cst_27_apply, stage_v94, stage_v90,
    Ideal.hostDivf_def, Ideal.mulf_def, Ideal.addf_def, Ideal.hostUnary_sqrt_def, Ideal.ofBits_def, Ideal.ofBits_def]
  rfl

/-- The layer's output: the maximum of the normalised entry and zero, plus the previous output. -/
theorem stage_v102 :
    val_main_v102 (F := Ideal) x0 x1 x2 x3 x4 x5 x6 x7 x8 x9
      = Net.layerR (n := 50000) (d := 128) (val_main_v82 (F := Ideal) x0 x1 x2 x3 x4 x5 x6 x7 x8) x9 (val_main_v68 (F := Ideal) x0 x1 x2 x3 x4 x5 x6 x7) := by
  funext i
  simp only [val_main_v102_apply, val_main_v101_apply,
    val_main_call2_v0_apply, val_main_call2_cst_apply, Ideal.addf_def, Ideal.maximumf_def, Ideal.ofBits_def,
    Ideal.ofBits_zero_f32, stage_v100, stage_v84]
  rfl

end Cert.RefStages

end
-- ==== Proof.RefValue.lean ====
/-
  The reference's result is the reference network of its arguments.

  Stage by stage: each dense product is Net.mm, each stretch from the aggregated features to the layer's output is
  Net.layerR, and each gather-scale-scatter stretch is the aggregation KNet.agg128 / agg40 of the stage before it (the two
  spell the same operations on the same index columns and weights).
-/
import proofs.«132746_j34668976013395_1_alg».proof.Proof.Gen.ReferenceIdeal.Read
import proofs.«132746_j34668976013395_1_alg».proof.Proof.KNet
import proofs.«132746_j34668976013395_1_alg».proof.Proof.RefStages
import proofs.«132746_j34668976013395_1_alg».proof.Proof.RefStages1
import proofs.«132746_j34668976013395_1_alg».proof.Proof.RefStages2
import proofs.«132746_j34668976013395_1_alg».proof.Proof.RefStages3

set_option maxRecDepth 16384

noncomputable section

namespace Cert.RefValue

open Idealize.ShloMosaic Idealize.ShloMosaic.ValueIdx Cert.ReferenceIdeal Cert.ReferenceIdeal.Read Cert.KNet

variable (x0 : FVec Ideal S50000x512 .f32) (x1 x2 : IVec S800000 32) (x3 : FVec Ideal S800000 .f32)
  (x4 : FVec Ideal S512x128 .f32) (x5 : FVec Ideal S1x128 .f32) (x6 : FVec Ideal S128x128 .f32) (x7 : FVec Ideal S1x128 .f32)
  (x8 : FVec Ideal S128x128 .f32) (x9 : FVec Ideal S1x128 .f32) (x10 : FVec Ideal S128x40 .f32) (x11 : FVec Ideal S1x40 .f32)

/-- The first aggregation stretch is the aggregation of the first product. -/
theorem agg_v13 : val_main_v13 (F := Ideal) x0 x1 x2 x3 x4 = agg128 x1 x2 x3 (val_main_v0 (F := Ideal) x0 x4) := rfl

theorem agg_v48 : val_main_v48 (F := Ideal) x0 x1 x2 x3 x4 x5 x6
    = agg128 x1 x2 x3 (val_main_v35 (F := Ideal) x0 x1 x2 x3 x4 x5 x6) := rfl

theorem agg_v82 : val_main_v82 (F := Ideal) x0 x1 x2 x3 x4 x5 x6 x7 x8
    = agg128 x1 x2 x3 (val_main_v69 (F := Ideal) x0 x1 x2 x3 x4 x5 x6 x7 x8) := rfl

theorem agg_v116 : val_main_v116 (F := Ideal) x0 x1 x2 x3 x4 x5 x6 x7 x8 x9 x10
    = agg40 x1 x2 x3 (val_main_v103 (F := Ideal) x0 x1 x2 x3 x4 x5 x6 x7 x8 x9 x10) := rfl

theorem l1 : val_main_v34 (F := Ideal) x0 x1 x2 x3 x4 x5 = rL1 x0 x1 x2 x3 x4 x5 := by
  rw [Cert.RefStages.stage_v34, agg_v13, Cert.RefStages.stage_v0]; rfl

theorem l2 : val_main_v68 (F := Ideal) x0 x1 x2 x3 x4 x5 x6 x7 = rL2 x0 x1 x2 x3 x4 x5 x6 x7 := by
  rw [Cert.RefStages.stage_v68, agg_v48, Cert.RefStages.stage_v35, l1]; rfl

theorem l3 : val_main_v102 (F := Ideal) x0 x1 x2 x3 x4 x5 x6 x7 x8 x9 = rL3 x0 x1 x2 x3 x4 x5 x6 x7 x8 x9 := by
  rw [Cert.RefStages.stage_v102, agg_v82, Cert.RefStages.stage_v69, l2]; rfl

/-- The reference's result stage is the reference network. -/
theorem result : val_main_v118 (F := Ideal) x0 x1 x2 x3 x4 x5 x6 x7 x8 x9 x10 x11
    = netR x0 x1 x2 x3 x4 x5 x6 x7 x8 x9 x10 x11 := by
  rw [Cert.RefStages.stage_v118, agg_v116, Cert.RefStages.stage_v103, l3]; rfl

end Cert.RefValue

end
-- ==== Proof.Finite.lean ====
/-
  The precondition says every float argument is real.

  The printed precondition is a conjunction, over the ten float arguments, of "all entries x satisfy |x| < +inf",
  each an and-reduction of the array of comparison bits.  An and-reduction into a single bit that is 1 had a 1 at every
  entry; and an extended real x with max x (-x) < +inf is neither infinity, hence a real number.
-/
import proofs.«132746_j34668976013395_1_alg».proof.Pre_finite_inputs
import proofs.«132746_j34668976013395_1_alg».proof.Proof.Gen.Pre_finite_inputs
import proofs.«132746_j34668976013395_1_alg».proof.Proof.KNet
import Idealize.ShloMosaic.Lib.ReduceAll
import Idealize.ShloMosaic.Lib.Affine

noncomputable section

namespace Cert.Finite

open Idealize.ShloMosaic Idealize.ShloMosaic.ValueIdx Cert.Net Cert.KNet

instance : Subsingleton (⟨0, ![]⟩ : Shape).Idx := ⟨fun a b => funext fun d => d.elim0⟩

/-- An extended real whose absolute value compares below +inf is a real number. -/
theorem real_of_bit (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec
  · simp [Ideal.cmp] at h
  · exact ⟨_, rfl⟩
  · simp [Ideal.cmp] at h

/-- One conjunct of the precondition: if the and-reduction of the bits |x i| < +inf is 1, every entry is real. -/
theorem entries_real {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel)
    (e : Host.reduce IntOp.andi (cmpf .olt (Host.absf x) (broadcastInDim s ![] bc (constant (F := Ideal) ⟨0, ![]⟩ .f32 0x7F800000#32)))
          (constantI ⟨0, ![]⟩ 1 1#1) h hu ix0 = 1#1) (i : s.Idx) : ∃ r : ℝ, x i = (r : EReal) :=
  real_of_bit (x i) (Host.reduce_andi_all _ _ h hu ix0 e i)

theorem isReal_of_entries {a b : ℕ} (X : Mat a b) (h : ∀ i, ∃ r : ℝ, X i = (r : EReal)) : IsReal X :=
  ⟨fun p q => Classical.choose (h (ix2 p q)), fun p q => Classical.choose_spec (h (ix2 p q))⟩

open Cert.Pre_finite_inputs in
/-- The precondition gives the realness of every float argument the network's layers consume. -/
theorem reals_of_pre (a0 : FVec Ideal S50000x512 .f32) (a1 a2 : IVec S800000 32) (a3 : FVec Ideal S800000 .f32)
    (a4 : FVec Ideal S512x128 .f32) (a5 : FVec Ideal S1x128 .f32) (a6 : FVec Ideal S128x128 .f32) (a7 : FVec Ideal S1x128 .f32)
    (a8 : FVec Ideal S128x128 .f32) (a9 : FVec Ideal S1x128 .f32) (a10 : FVec Ideal S128x40 .f32) (a11 : FVec Ideal S1x40 .f32)
    (h : Cert.Pre_finite_inputs.fn (F := Ideal) a0 a1 a2 a3 a4 a5 a6 a7 a8 a9 a10 a11 = fun _ => 1#1) :
    IsReal (a := 50000) (b := 512) a0 ∧ (∃ w : Fin 800000 → ℝ, ∀ e, a3 (ix1 e) = ((w e : ℝ) : EReal))
      ∧ IsReal (a := 512) (b := 128) a4 ∧ IsReal (a := 1) (b := 128) a5 ∧ IsReal (a := 128) (b := 128) a6
      ∧ IsReal (a := 1) (b := 128) a7 ∧ IsReal (a := 128) (b := 128) a8 ∧ IsReal (a := 1) (b := 128) a9 := by
  have h0 := congrFun h ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨⟨e0, e3⟩, e4⟩, e5⟩, e6⟩, e7⟩, e8⟩, e9⟩, -⟩, -⟩ := h0
  refine ⟨isReal_of_entries _ (entries_real a0 _ _ _ e0), ?_, isReal_of_entries _ (entries_real a4 _ _ _ e4),
    isReal_of_entries _ (entries_real a5 _ _ _ e5), isReal_of_entries _ (entries_real a6 _ _ _ e6),
    isReal_of_entries _ (entries_real a7 _ _ _ e7), isReal_of_entries _ (entries_real a8 _ _ _ e8),
    isReal_of_entries _ (entries_real a9 _ _ _ e9)⟩
  exact ⟨fun e => Classical.choose (entries_real a3 _ _ _ e3 (ix1 e)), fun e => Classical.choose_spec (entries_real a3 _ _ _ e3 (ix1 e))⟩

end Cert.Finite

end
-- ==== Proof.lean ====
/-
  A three-layer graph network with PairNorm, computed two ways, gives one result on real inputs.

  Both programs compute  L1 = layer (agg (x W0)) b0,  L2 = layer (agg (L1 W1)) b1 + L1,  L3 = layer (agg (L2 W2)) b2 + L2,
  result = agg (L3 Wout) + bout,  where agg is the sparse aggregation over the edges and layer is relu of PairNorm of
  (aggregate + bias).  PairNorm centres every column at its mean and divides by sqrt (eps + v), v the mean over the rows
  of the squared row norms of the centred array.  The reference centres and then sums squares; the kernel streams the
  rows once in tiles of 1000, accumulating every column's sum and the sum of all squares, takes
      v = (sum of squares - N * sum over columns of mean^2) / N
  on the host, and multiplies by 1 / sqrt (eps + v) in a second pointwise pass.  For real entries the two values of v
  agree (expand the square; the column sums are N times the means), v is not negative, eps is positive, so the root is a
  positive real and multiplying by its reciprocal is dividing by it.  The precondition makes every float argument real,
  and products, finite sums, the aggregation and a layer keep arrays real, so the identity applies at every layer.  On
  the extended reals it would fail at an infinity; that is where the precondition is used.

  The kernel's value is read off its frame run: the result buffer at the last segment boundary, boundary by boundary
  back to the arguments (Proof/Chain.lean), each pallas region's arrays by its own lemma (Proof/Mm*.lean, Proof/Stats*.lean,
  Proof/Pn*.lean).  The reference's value is its run's term read stage by stage (Proof/RefStages.lean, Proof/RefValue.lean).
  The two networks as functions of the arguments, and their equality on real data, are Proof/KNet.lean over
  Proof/Net.lean, Proof/NetMath.lean and Proof/LibAggLeft.lean; Proof/Finite.lean reads the precondition.
-/
import proofs.«132746_j34668976013395_1_alg».proof.Defs
import proofs.«132746_j34668976013395_1_alg».proof.Proof.Gen.Kernel
import proofs.«132746_j34668976013395_1_alg».proof.Proof.Gen.Kernel.Skeleton
import proofs.«132746_j34668976013395_1_alg».proof.Proof.Gen.Kernel.Launch
import proofs.«132746_j34668976013395_1_alg».proof.Proof.Gen.Kernel.Points
import proofs.«132746_j34668976013395_1_alg».proof.Proof.Gen.Kernel.Frame
import proofs.«132746_j34668976013395_1_alg».proof.Proof.Gen.KernelIdeal
import proofs.«132746_j34668976013395_1_alg».proof.Proof.Gen.KernelIdeal.Skeleton
import proofs.«132746_j34668976013395_1_alg».proof.Proof.Gen.KernelIdeal.Launch
import proofs.«132746_j34668976013395_1_alg».proof.Proof.Gen.KernelIdeal.Points
import proofs.«132746_j34668976013395_1_alg».proof.Proof.Gen.KernelIdeal.Frame
import proofs.«132746_j34668976013395_1_alg».proof.Proof.Gen.ReferenceIdeal
import proofs.«132746_j34668976013395_1_alg».proof.Proof.Gen.ReferenceIdeal.Read
import proofs.«132746_j34668976013395_1_alg».proof.Proof.Gen.Pre_finite_inputs
import proofs.«132746_j34668976013395_1_alg».proof.Proof.KernelRun
import proofs.«132746_j34668976013395_1_alg».proof.Proof.Chain
import proofs.«132746_j34668976013395_1_alg».proof.Proof.RefValue
import proofs.«132746_j34668976013395_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel :=
  fun m ρ _ => Cert.Kernel.Gen.frame m ρ

theorem frame_ki : Cert.frame_KernelIdeal :=
  fun m ρ _ => Cert.KernelIdeal.Gen.frame m ρ

theorem frame_ri : Cert.frame_ReferenceIdeal :=
  fun m ρ _ => (θ_run Cert.ReferenceIdeal.defs _ _).mono (fun _ h c => (h c).2)
    (Cert.ReferenceIdeal.Value.run (F := Ideal) m ρ)

/-- Both idealized programs end with the kernel's network of the arguments in their result buffers: the kernel by its
    frame run read back to the arguments, the reference by its run's term and the equality of the two networks on the
    real arguments the precondition grants. -/
theorem algebraic : Cert.algebraic_KernelIdeal_ReferenceIdeal := by
  intro m ρ m' ρ' hpre hagree
  refine ⟨fun c => Cert.KNet.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨r0, r3, r4, r5, r6, r7, r8, r9⟩ := Cert.Finite.reals_of_pre _ _ _ _ _ _ _ _ _ _ _ _ (hpre c)
    rw [Cert.ReferenceIdeal.Read.val_main_v118_eq, Cert.RefValue.result,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2]
    exact (Cert.KNet.netK_eq_netR _ _ _ _ _ _ _ _ _ _ _ _ r0 r3 r4 r5 r6 r7 r8 r9).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
